-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S2x64x64 : Shape := ⟨3, ![2, 64, 64]⟩
abbrev S2x64x1 : Shape := ⟨3, ![2, 64, 1]⟩
abbrev S64x1024 : Shape := ⟨2, ![64, 1024]⟩
abbrev S1x64x64 : Shape := ⟨3, ![1, 64, 64]⟩
abbrev S1x64x1 : Shape := ⟨3, ![1, 64, 1]⟩
abbrev S64x64 : Shape := ⟨2, ![64, 64]⟩
abbrev S64x1 : Shape := ⟨2, ![64, 1]⟩
abbrev S64 : Shape := ⟨1, ![64]⟩
abbrev S4x1024 : Shape := ⟨2, ![4, 1024]⟩
abbrev S4x1x1024 : Shape := ⟨3, ![4, 1, 1024]⟩
abbrev S4x64x1024 : Shape := ⟨3, ![4, 64, 1024]⟩
abbrev S256x1024 : Shape := ⟨2, ![256, 1024]⟩
abbrev S256x256 : Shape := ⟨2, ![256, 256]⟩
abbrev S_ : Shape := ⟨0, ![]⟩
abbrev S1x64 : Shape := ⟨2, ![1, 64]⟩

abbrev nBuf : Space → Nat
  | .hbm => 74
  | .vmem => 10
  | .smem => 0
  | _ => 0

abbrev bufTy : (tb : Table) → Fin (tcTables nBuf tb) → BufTy
  | .hbm, ⟨0, _⟩ => ⟨S1024x1024, .i32⟩
  | .hbm, ⟨1, _⟩ => ⟨S1024x1024, .i32⟩
  | .hbm, ⟨2, _⟩ => ⟨S2x64x64, .f32⟩
  | .hbm, ⟨3, _⟩ => ⟨S2x64x1, .f32⟩
  | .hbm, ⟨4, _⟩ => ⟨S2x64x1, .f32⟩
  | .hbm, ⟨5, _⟩ => ⟨S_, .f32⟩
  | .hbm, ⟨6, _⟩ => ⟨S64x64, .f32⟩
  | .hbm, ⟨7, _⟩ => ⟨S_, .f32⟩
  | .hbm, ⟨8, _⟩ => ⟨S64x1, .f32⟩
  | .hbm, ⟨9, _⟩ => ⟨S64, .f32⟩
  | .hbm, ⟨10, _⟩ => ⟨S_, .f32⟩
  | .hbm, ⟨11, _⟩ => ⟨S64x1, .f32⟩
  | .hbm, ⟨12, _⟩ => ⟨S64, .f32⟩
  | .hbm, ⟨13, _⟩ => ⟨S64x1, .f32⟩
  | .hbm, ⟨14, _⟩ => ⟨S1x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .i1⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S_, .f32⟩
  | .hbm, ⟨31, _⟩ => ⟨S64, .f32⟩
  | .hbm, ⟨32, _⟩ => ⟨S64, .i1⟩
  | .hbm, ⟨33, _⟩ => ⟨S_, .f32⟩
  | .hbm, ⟨34, _⟩ => ⟨S64, .f32⟩
  | .hbm, ⟨35, _⟩ => ⟨S64, .i1⟩
  | .hbm, ⟨36, _⟩ => ⟨S_, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S64, .f32⟩
  | .hbm, ⟨60, _⟩ => ⟨S_, .f32⟩
  | .hbm, ⟨61, _⟩ => ⟨S_, .f32⟩
  | .hbm, ⟨62, _⟩ => ⟨S64, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S64x1024, .i32⟩
  | .local _ .vmem, ⟨1, _⟩ => ⟨S64x1024, .i32⟩
  | .local _ .vmem, ⟨2, _⟩ => ⟨S64x1024, .i32⟩
  | .local _ .vmem, ⟨3, _⟩ => ⟨S64x1024, .i32⟩
  | .local _ .vmem, ⟨4, _⟩ => ⟨S1x64x64, .f32⟩
  | .local _ .vmem, ⟨5, _⟩ => ⟨S1x64x64, .f32⟩
  | .local _ .vmem, ⟨6, _⟩ => ⟨S1x64x1, .f32⟩
  | .local _ .vmem, ⟨7, _⟩ => ⟨S1x64x1, .f32⟩
  | .local _ .vmem, ⟨8, _⟩ => ⟨S1x64x1, .f32⟩
  | .local _ .vmem, ⟨9, _⟩ => ⟨S1x64x1, .f32⟩
  | _, _ => ⟨S1024x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_cst_9 : Ref sig .tc := ⟨.hbm, 40, rfl⟩
abbrev main_v24 : Ref sig .tc := ⟨.hbm, 41, rfl⟩
abbrev main_v25 : Ref sig .tc := ⟨.hbm, 42, rfl⟩
abbrev main_cst_10 : Ref sig .tc := ⟨.hbm, 43, rfl⟩
abbrev main_call1_v0 : Ref sig .tc := ⟨.hbm, 44, rfl⟩
abbrev main_call1_v1 : Ref sig .tc := ⟨.hbm, 45, rfl⟩
abbrev main_v26 : Ref sig .tc := ⟨.hbm, 46, rfl⟩
abbrev main_cst_11 : Ref sig .tc := ⟨.hbm, 47, rfl⟩
abbrev main_v27 : Ref sig .tc := ⟨.hbm, 48, rfl⟩
abbrev main_cst_12 : Ref sig .tc := ⟨.hbm, 49, rfl⟩
abbrev main_v28 : Ref sig .tc := ⟨.hbm, 50, rfl⟩
abbrev main_v29 : Ref sig .tc := ⟨.hbm, 51, rfl⟩
abbrev main_cst_13 : Ref sig .tc := ⟨.hbm, 52, rfl⟩
abbrev main_call2_v0 : Ref sig .tc := ⟨.hbm, 53, rfl⟩
abbrev main_call2_v1 : Ref sig .tc := ⟨.hbm, 54, rfl⟩
abbrev main_v30 : Ref sig .tc := ⟨.hbm, 55, rfl⟩
abbrev main_cst_14 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_15 : Ref sig .tc := ⟨.hbm, 60, rfl⟩
abbrev main_v34 : Ref sig .tc := ⟨.hbm, 61, rfl⟩
abbrev main_v35 : Ref sig .tc := ⟨.hbm, 62, rfl⟩
abbrev main_cst_16 : Ref sig .tc := ⟨.hbm, 63, rfl⟩
abbrev main_v36 : Ref sig .tc := ⟨.hbm, 64, rfl⟩
abbrev main_v37 : Ref sig .tc := ⟨.hbm, 65, rfl⟩
abbrev main_cst_17 : Ref sig .tc := ⟨.hbm, 66, rfl⟩
abbrev main_v38 : Ref sig .tc := ⟨.hbm, 67, rfl⟩
abbrev main_cst_18 : Ref sig .tc := ⟨.hbm, 68, rfl⟩
abbrev main_v39 : Ref sig .tc := ⟨.hbm, 69, rfl⟩
abbrev main_v40 : Ref sig .tc := ⟨.hbm, 70, rfl⟩
abbrev main_cst_19 : Ref sig .tc := ⟨.hbm, 71, rfl⟩
abbrev main_call3_v0 : Ref sig .tc := ⟨.hbm, 72, rfl⟩
abbrev main_v41 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S64x1024_S64x1024_0_0 : ∀ a, (![0, 0] : Fin 2 → Nat) a + S64x1024.size a ≤ S64x1024.size a
  h_S64x1024 : 0 < S64x1024.numel
  iota_S1x64x1_d1_w32 : S1x64x1.Iotas .tc 32 [1]
  slices_S64x1024_o0_0_S4x1024 : S64x1024.Slices ![0, 0] S4x1024
  shapeCasts_S4x1024_S4x1x1024 : S4x1024.ShapeCasts S4x1x1024
  broadcasts_S4x1x1024_S4x64x1024 : S4x1x1024.Broadcasts S4x64x1024
  broadcasts_S1x64x1_S4x64x1024 : S1x64x1.Broadcasts S4x64x1024
  natLt_1_32 : 1 < 32
  reduces_S4x64x1024_S64 : S4x64x1024.Reduces [0, 2] S64
  bitsLt_bf16_f32 : FTy.bits .bf16 < FTy.bits .f32
  shapeCasts_S4x64x1024_S256x1024 : S4x64x1024.ShapeCasts S256x1024
  slices_S256x256_o0_0_S64x64 : S256x256.Slices ![0, 0] S64x64
  slices_S256x256_o64_64_S64x64 : S256x256.Slices ![64, 64] S64x64
  slices_S256x256_o128_128_S64x64 : S256x256.Slices ![128, 128] S64x64
  slices_S256x256_o192_192_S64x64 : S256x256.Slices ![192, 192] S64x64
  slices_S64x1024_o4_0_S4x1024 : S64x1024.Slices ![4, 0] S4x1024
  slices_S64x1024_o8_0_S4x1024 : S64x1024.Slices ![8, 0] S4x1024
  slices_S64x1024_o12_0_S4x1024 : S64x1024.Slices ![12, 0] S4x1024
  slices_S64x1024_o16_0_S4x1024 : S64x1024.Slices ![16, 0] S4x1024
  slices_S64x1024_o20_0_S4x1024 : S64x1024.Slices ![20, 0] S4x1024
  slices_S64x1024_o24_0_S4x1024 : S64x1024.Slices ![24, 0] S4x1024
  slices_S64x1024_o28_0_S4x1024 : S64x1024.Slices ![28, 0] S4x1024
  slices_S64x1024_o32_0_S4x1024 : S64x1024.Slices ![32, 0] S4x1024
  slices_S64x1024_o36_0_S4x1024 : S64x1024.Slices ![36, 0] S4x1024
  slices_S64x1024_o40_0_S4x1024 : S64x1024.Slices ![40, 0] S4x1024
  slices_S64x1024_o44_0_S4x1024 : S64x1024.Slices ![44, 0] S4x1024
  slices_S64x1024_o48_0_S4x1024 : S64x1024.Slices ![48, 0] S4x1024
  slices_S64x1024_o52_0_S4x1024 : S64x1024.Slices ![52, 0] S4x1024
  slices_S64x1024_o56_0_S4x1024 : S64x1024.Slices ![56, 0] S4x1024
  slices_S64x1024_o60_0_S4x1024 : S64x1024.Slices ![60, 0] S4x1024
  shapeCasts_S64_S64x1 : S64.ShapeCasts S64x1
  reducesTo_S2x64x64_S64x64_d0 : S2x64x64.ReducesTo [0] S64x64
  h_S_ : 0 < S_.numel
  reducesTo_S2x64x1_S64x1_d0 : S2x64x1.ReducesTo [0] S64x1
  shapeCasts_S64x1_S64 : S64x1.ShapeCasts S64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S_S64 : S_.BroadcastsInDim S64 (![] : Fin 0 → Fin S64.rank)
  reducesTo_S64x64_S64_d1 : S64x64.ReducesTo [1] S64
  reducesTo_S64x64_S64_d0 : S64x64.ReducesTo [0] S64
  reducesTo_S64_S_d0 : S64.ReducesTo [0] S_
  dot_S256x1024_S256x1024_S256x256_1_1_0_0_n_n_wf : DotDims.WF S256x1024 S256x1024 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S1024x1024.size a
  hwx0_0 : ∀ i : grid0.Coords, EltTy.bits .i32 = 32 ∨ (Rect.block (s := S1024x1024) S64x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S1024x1024.size a
  hwx0_1 : ∀ i : grid0.Coords, EltTy.bits .i32 = 32 ∨ (Rect.block (s := S1024x1024) S64x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S2x64x64.size a
  hwx0_2 : ∀ i : grid0.Coords, EltTy.bits .f32 = 32 ∨ (Rect.block (s := S2x64x64) S1x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S2x64x1.size a
  hwx0_3 : ∀ i : grid0.Coords, EltTy.bits .f32 = 32 ∨ (Rect.block (s := S2x64x1) S1x64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S2x64x1.size a
  hwx0_4 : ∀ i : grid0.Coords, EltTy.bits .f32 = 32 ∨ (Rect.block (s := S2x64x1) S1x64x1.size (cc0_transform_4 i) (hinb0_4 i)).WholeWords (EltTy.packing .f32)

variable [Facts₀]

def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x64x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x64x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x64x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S64 : Shape := ⟨1, ![64]⟩
abbrev S_ : Shape := ⟨0, ![]⟩
abbrev S1048576 : Shape := ⟨1, ![1048576]⟩
abbrev S1x1048576 : Shape := ⟨2, ![1, 1048576]⟩
abbrev S64x1 : Shape := ⟨2, ![64, 1]⟩
abbrev S64x1048576 : Shape := ⟨2, ![64, 1048576]⟩
abbrev S64x64 : Shape := ⟨2, ![64, 64]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S1024x1024, .i32⟩
  | .hbm, ⟨1, _⟩ => ⟨S1024x1024, .i32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S1048576, .i32⟩
  | .hbm, ⟨7, _⟩ => ⟨S1x1048576, .i32⟩
  | .hbm, ⟨8, _⟩ => ⟨S64x1, .i32⟩
  | .hbm, ⟨9, _⟩ => ⟨S64x1048576, .i32⟩
  | .hbm, ⟨10, _⟩ => ⟨S64x1048576, .i32⟩
  | .hbm, ⟨11, _⟩ => ⟨S64x1048576, .i1⟩
  | .hbm, ⟨12, _⟩ => ⟨S64x1048576, .f32⟩
  | .hbm, ⟨13, _⟩ => ⟨S1048576, .i32⟩
  | .hbm, ⟨14, _⟩ => ⟨S1x1048576, .i32⟩
  | .hbm, ⟨15, _⟩ => ⟨S64x1, .i32⟩
  | .hbm, ⟨16, _⟩ => ⟨S64x1048576, .i32⟩
  | .hbm, ⟨17, _⟩ => ⟨S64x1048576, .i32⟩
  | .hbm, ⟨18, _⟩ => ⟨S64x1048576, .i1⟩
  | .hbm, ⟨19, _⟩ => ⟨S64x1048576, .f32⟩
  | .hbm, ⟨20, _⟩ => ⟨S64x64, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64x1, .f32⟩
  | .hbm, ⟨26, _⟩ => ⟨S1x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S_, .f32⟩
  | .hbm, ⟨32, _⟩ => ⟨S64x64, .f32⟩
  | .hbm, ⟨33, _⟩ => ⟨S64x64, .i1⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S_, .f32⟩
  | .hbm, ⟨39, _⟩ => ⟨S_, .f32⟩
  | .hbm, ⟨40, _⟩ => ⟨S64x64, .f32⟩
  | .hbm, ⟨41, _⟩ => ⟨S64x64, .f32⟩
  | .hbm, ⟨42, _⟩ => ⟨S_, .f32⟩
  | .hbm, ⟨43, _⟩ => ⟨S64, .f32⟩
  | .hbm, ⟨44, _⟩ => ⟨S64, .i1⟩
  | .hbm, ⟨45, _⟩ => ⟨S_, .f32⟩
  | .hbm, ⟨46, _⟩ => ⟨S64, .f32⟩
  | .hbm, ⟨47, _⟩ => ⟨S64, .i1⟩
  | .hbm, ⟨48, _⟩ => ⟨S_, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S64, .f32⟩
  | .hbm, ⟨72, _⟩ => ⟨S_, .f32⟩
  | .hbm, ⟨73, _⟩ => ⟨S_, .f32⟩
  | .hbm, ⟨74, _⟩ => ⟨S64, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .i1⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S1024x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_call1_v0 : Ref sig .tc := ⟨.hbm, 56, rfl⟩
abbrev main_call1_v1 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_call2_v0 : Ref sig .tc := ⟨.hbm, 65, rfl⟩
abbrev main_call2_v1 : Ref sig .tc := ⟨.hbm, 66, rfl⟩
abbrev main_v44 : Ref sig .tc := ⟨.hbm, 67, rfl⟩
abbrev main_cst_13 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_14 : Ref sig .tc := ⟨.hbm, 72, rfl⟩
abbrev main_v48 : Ref sig .tc := ⟨.hbm, 73, rfl⟩
abbrev main_v49 : Ref sig .tc := ⟨.hbm, 74, rfl⟩
abbrev main_cst_15 : Ref sig .tc := ⟨.hbm, 75, rfl⟩
abbrev main_v50 : Ref sig .tc := ⟨.hbm, 76, rfl⟩
abbrev main_v51 : Ref sig .tc := ⟨.hbm, 77, rfl⟩
abbrev main_cst_16 : Ref sig .tc := ⟨.hbm, 78, rfl⟩
abbrev main_v52 : Ref sig .tc := ⟨.hbm, 79, rfl⟩
abbrev main_cst_17 : Ref sig .tc := ⟨.hbm, 80, rfl⟩
abbrev main_v53 : Ref sig .tc := ⟨.hbm, 81, rfl⟩
abbrev main_v54 : Ref sig .tc := ⟨.hbm, 82, rfl⟩
abbrev main_cst_18 : Ref sig .tc := ⟨.hbm, 83, rfl⟩
abbrev main_call3_v0 : Ref sig .tc := ⟨.hbm, 84, rfl⟩
abbrev main_v55 : Ref sig .tc := ⟨.hbm, 85, rfl⟩

abbrev nD : Nat := 1
abbrev τ : Topo := Topo.v7x

variable {F : FTy → Type} [FloatOps F]

class Facts₀ : Prop where
  bcast_S_S64 : S_.BroadcastsInDim S64 (![] : Fin 0 → Fin S64.rank)
  shapeCasts_S1024x1024_S1048576 : S1024x1024.ShapeCasts S1048576
  bcast_S1048576_S1x1048576_1 : S1048576.BroadcastsInDim S1x1048576 (![1] : Fin 1 → Fin S1x1048576.rank)
  bcast_S64_S64x1_0 : S64.BroadcastsInDim S64x1 (![0] : Fin 1 → Fin S64x1.rank)
  bcast_S1x1048576_S64x1048576_0_1 : S1x1048576.BroadcastsInDim S64x1048576 (![0, 1] : Fin 2 → Fin S64x1048576.rank)
  bcast_S64x1_S64x1048576_0_1 : S64x1.BroadcastsInDim S64x1048576 (![0, 1] : Fin 2 → Fin S64x1048576.rank)
  reducesTo_S64x1048576_S64_d1 : S64x1048576.ReducesTo [1] S64
  h_S_ : 0 < S_.numel
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  reducesTo_S64x64_S64_d1 : S64x64.ReducesTo [1] S64
  reducesTo_S64x64_S64_d0 : S64x64.ReducesTo [0] S64
  reducesTo_S64_S_d0 : S64.ReducesTo [0] S_
  dot_S64x1048576_S64x1048576_S64x64_1_1_0_0_n_n_wf : DotDims.WF S64x1048576 S64x1048576 S64x64 [1] [1] [0] [0] [] []

variable [Facts₀]

def dot_S64x1048576_S64x1048576_S64x64_1_1_0_0_n_n : DotDims S64x1048576 S64x1048576 S64x64 where
  lhsContracting := [1]
  rhsContracting := [1]
  lhsNonContracting := [0]
  rhsNonContracting := [0]
  lhsBatch := []
  rhsBatch := []
  wf := dot_S64x1048576_S64x1048576_S64x64_1_1_0_0_n_n_wf

class Facts : Prop extends Facts₀ where

variable [Facts]
-- ==== Proof.FrK.Kit.lean ====
/-
  The program is one region (a grid of 2 x 8 points over five windows: two input tiles, three accumulated output
  blocks) followed by sixty-nine host lines. This module states what the region's run is phrased over: the buffer
  contents the region finds, that the later lines only touch unscoped buffers, allocate nothing and write no array of
  the region, each window's block at a point, the one branch condition of the body (the second grid coordinate is
  zero: the first of a core's eight points), and the memrefs the body is called with.
-/
import proofs.«163081_j81801947120084_2_alg».proof.Proof.Gen.Kernel.Launch
import proofs.«163081_j81801947120084_2_alg».proof.Proof.Gen.Kernel.Skeleton
import proofs.«163081_j81801947120084_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Core `c`'s buffer contents when the region is entered: the launch contents (no host line comes before it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2, hostOps1_3, hostOps1_4, hostOps1_5, hostOps1_6, hostOps1_7]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor

set_option maxHeartbeats 2000000 in
/-- The program reduces to its region continued by the later lines. -/
theorem hmain (𝒱₀ : Variants) : Pipeline.HMainK (Ix := Unit) (Name := ℕ) (U := UR sig nD τ) (Lvl := ℕ) cfgs 0 defs₀ 𝒱₀ m (main (F := F))
      (fun c b => V0 m c (Proc.devRef .tc b)) (fun _ => Pipeline.chain ((tailOps (F := F)).map StableHlo.seq)) :=
  Pipeline.hmain_around cfgs 0 defs₀ 𝒱₀ m main [] tailOps (by simp only [List.Forall])
    (by simp only [List.Forall]) (fun c => (main_chain c).trans (by
      simp only [tailOps, List.map_cons, List.map_nil, List.nil_append, List.cons_append, List.singleton_append, List.append_nil]))

/-- The later lines touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
set_option maxHeartbeats 1600000 in
/-- And write no array of the region: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_6, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_7, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's run -/

/-- A run of the whole program that ends with every array of the region at what the proof data computes ends with
    both argument arrays as launched: an input window's array is never written. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c)))⟩) h

/-! ## The body's branch condition -/

/-- The body resets its three output blocks exactly when the second grid coordinate is zero. -/
abbrev cond0_0 (i : grid0.Coords) : Prop := (Scalar.cmpi .ne (Scalar.extui (Scalar.cmpi .eq (BitVec.ofNat 32 (i 1).val) 0#32)) 0#32) = 1#1
/-- That is at the points ≡ 0 (mod 8): the first point of each core. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The memrefs the body is called with -/

/-- One staging buffer of each output window, through which its contents are stated. -/
abbrev VO0_2 : View sig .tc .vmem S1x64x64 .f32 := (Memref.whole cc0_stg2_0 : Memref sig .tc .vmem S1x64x64 .f32).view
abbrev VO0_3 : View sig .tc .vmem S1x64x1 .f32 := (Memref.whole cc0_stg3_0 : Memref sig .tc .vmem S1x64x1 .f32).view
abbrev VO0_4 : View sig .tc .vmem S1x64x1 .f32 := (Memref.whole cc0_stg4_0 : Memref sig .tc .vmem S1x64x1 .f32).view
/-- Each window's current staging memref at point `t`, and its wholeness. -/
abbrev ms0_0 (t : Fin cfg0.N) : Memref sig .tc .vmem S64x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1 .f32 := win0_4.stage (cfg0.slots t 4)
abbrev hs0_4 (t : Fin cfg0.N) : (ms0_4 t).IsWhole := hstage0_4 ((cfg0.slots t 4).cast nbuf0_4)

end Cert.Kernel.Fr

end
-- ==== Proof.FrK.RunA.lean ====
/-
  The body's run at a grid point where the second coordinate is zero (the three output blocks are first reset):
  on whole staging memrefs, the two input tiles at their contents, the outputs at anything, the body runs to the
  end, leaves the inputs as they were and each output block with the listed stores written; the stores are found by
  running the body.
-/
import proofs.«163081_j81801947120084_2_alg».proof.Proof.FrK.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S64x1024 .i32) (x1 : Vec F S64x1024 .i32) :
    Σ' (L2 : List (View.Piece (Elt F) S1x64x64 .f32)) (L3 : List (View.Piece (Elt F) S1x64x1 .f32)), { L4 : List (View.Piece (Elt F) S1x64x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__hist_kernel i arg2 harg2 arg3 harg3 arg4 harg4 arg5 harg5 arg6 harg6) K } := by
  refine ⟨?_, ?_, ?_, fun E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.Kernel.Fr

end
-- ==== Proof.FrK.RunB.lean ====
/-
  The body's run at a grid point where the second coordinate is not zero (the three output blocks hold what the point before left):
  on whole staging memrefs, the two input tiles at their contents and the outputs at their running contents, the body runs to the
  end, leaves the inputs as they were and each output block with the listed stores written; the stores are found by
  running the body.
-/
import proofs.«163081_j81801947120084_2_alg».proof.Proof.FrK.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S64x1024 .i32) (x1 : Vec F S64x1024 .i32) (xo2 : Vec F S1x64x64 .f32) (xo3 : Vec F S1x64x1 .f32) (xo4 : Vec F S1x64x1 .f32) :
    Σ' (L2 : List (View.Piece (Elt F) S1x64x64 .f32)) (L3 : List (View.Piece (Elt F) S1x64x1 .f32)), { L4 : List (View.Piece (Elt F) S1x64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__hist_kernel i arg2 harg2 arg3 harg3 arg4 harg4 arg5 harg5 arg6 harg6) K } := by
  refine ⟨?_, ?_, ?_, fun E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.Kernel.Fr

end
-- ==== Proof.FrK.Frame.lean ====
/-
  The region's frame: what the three output blocks hold after each grid point (the first point of a core resets them
  and adds its tile's counts; every later point adds its tile's counts to what the point before left), the proof data of
  the region over that, the body's obligation at every point from the two runs of the body, the run of the whole
  program (the region, then the host lines), and the frame claim.
-/
import proofs.«163081_j81801947120084_2_alg».proof.Proof.FrK.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of this case into output block 2 tile it, so they cover it. -/
theorem cover0_A_2 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S64x1024 .i32) (x1 : Vec F S64x1024 .i32) (y : S1x64x64.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x64x64.size (by sl_kernel_rfl) y

/-- What this case leaves in output block 2: its stores read back. -/
def out0_A_2 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S64x1024 .i32) (x1 : Vec F S64x1024 .i32) : Vec F S1x64x64 .f32 :=
  VO0_2.read (Elt F) (VO0_2.writes (Elt F) VO0_2.junk (kernelRun0_A c i arg2 harg2 arg3 harg3 arg4 harg4 arg5 harg5 arg6 harg6 hc0 x0 x1).1)

/-- The stores of this case into output block 3 tile it, so they cover it. -/
theorem cover0_A_3 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S64x1024 .i32) (x1 : Vec F S64x1024 .i32) (y : S1x64x1.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x64x1.size (by sl_kernel_rfl) y

/-- What this case leaves in output block 3: its stores read back. -/
def out0_A_3 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S64x1024 .i32) (x1 : Vec F S64x1024 .i32) : Vec F S1x64x1 .f32 :=
  VO0_3.read (Elt F) (VO0_3.writes (Elt F) VO0_3.junk (kernelRun0_A c i arg2 harg2 arg3 harg3 arg4 harg4 arg5 harg5 arg6 harg6 hc0 x0 x1).2.1)

/-- The stores of this case into output block 4 tile it, so they cover it. -/
theorem cover0_A_4 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S64x1024 .i32) (x1 : Vec F S64x1024 .i32) (y : S1x64x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x64x1.size (by sl_kernel_rfl) y

/-- What this case leaves in output block 4: its stores read back. -/
def out0_A_4 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S64x1024 .i32) (x1 : Vec F S64x1024 .i32) : Vec F S1x64x1 .f32 :=
  VO0_4.read (Elt F) (VO0_4.writes (Elt F) VO0_4.junk (kernelRun0_A c i arg2 harg2 arg3 harg3 arg4 harg4 arg5 harg5 arg6 harg6 hc0 x0 x1).2.2.1)

/-- The stores of this case into output block 2 tile it, so they cover it. -/
theorem cover0_B_2 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S64x1024 .i32) (x1 : Vec F S64x1024 .i32) (xo2 : Vec F S1x64x64 .f32) (xo3 : Vec F S1x64x1 .f32) (xo4 : Vec F S1x64x1 .f32) (y : S1x64x64.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S1x64x64.size (by sl_kernel_rfl) y

/-- What this case leaves in output block 2: its stores read back. -/
def out0_B_2 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S64x1024 .i32) (x1 : Vec F S64x1024 .i32) (xo2 : Vec F S1x64x64 .f32) (xo3 : Vec F S1x64x1 .f32) (xo4 : Vec F S1x64x1 .f32) : Vec F S1x64x64 .f32 :=
  VO0_2.read (Elt F) (VO0_2.writes (Elt F) VO0_2.junk (kernelRun0_B c i arg2 harg2 arg3 harg3 arg4 harg4 arg5 harg5 arg6 harg6 hc0 x0 x1 xo2 xo3 xo4).1)

/-- The stores of this case into output block 3 tile it, so they cover it. -/
theorem cover0_B_3 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S64x1024 .i32) (x1 : Vec F S64x1024 .i32) (xo2 : Vec F S1x64x64 .f32) (xo3 : Vec F S1x64x1 .f32) (xo4 : Vec F S1x64x1 .f32) (y : S1x64x1.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S1x64x1.size (by sl_kernel_rfl) y

/-- What this case leaves in output block 3: its stores read back. -/
def out0_B_3 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S64x1024 .i32) (x1 : Vec F S64x1024 .i32) (xo2 : Vec F S1x64x64 .f32) (xo3 : Vec F S1x64x1 .f32) (xo4 : Vec F S1x64x1 .f32) : Vec F S1x64x1 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- The stores of this case into output block 4 tile it, so they cover it. -/
theorem cover0_B_4 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S64x1024 .i32) (x1 : Vec F S64x1024 .i32) (xo2 : Vec F S1x64x64 .f32) (xo3 : Vec F S1x64x1 .f32) (xo4 : Vec F S1x64x1 .f32) (y : S1x64x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S1x64x1.size (by sl_kernel_rfl) y

/-- What this case leaves in output block 4: its stores read back. -/
def out0_B_4 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S64x1024 .i32) (x1 : Vec F S64x1024 .i32) (xo2 : Vec F S1x64x64 .f32) (xo3 : Vec F S1x64x1 .f32) (xo4 : Vec F S1x64x1 .f32) : Vec F S1x64x1 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the outputs hold after each point -/

/-- The three output blocks' contents after the body at position `n`: at a core's first point the reset case at the
    point's tiles; at any other point the accumulating case over what the point before left. -/
def outsAt0 (c : Dev nD) : (n : ℕ) → n < cfg0.N → Vec F S1x64x64 .f32 × Vec F S1x64x1 .f32 × Vec F S1x64x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2)

theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point that is not a core's first, output block 2's buffer holds what the body left at the point before: it was
    not written back in between (blocks are written back after a core's last point only). -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
/-- At a point that is not a core's first, output block 3's buffer holds what the body left at the point before: it was
    not written back in between (blocks are written back after a core's last point only). -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
/-- At a point that is not a core's first, output block 4's buffer holds what the body left at the point before: it was
    not written back in between (blocks are written back after a core's last point only). -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).2.2 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 16 := lt_of_lt_of_eq t.isLt (show cfg0.N = 16 from N_0)
  by_cases h0 : t.val % 8 = 0
  · rw [outsAt0_A m c t h0]
    unfold out0_A_2 out0_A_3 out0_A_4
    dsimp only
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B m c t h0]
    simp only [before0_2_B m c t h0, before0_3_B m c t h0, before0_4_B m c t h0]
    unfold out0_B_2 out0_B_3 out0_B_4
    dsimp only
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the region ends at what the proof data
    computes, and every other unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Fr

end
-- ==== Proof.FrKI.Kit.lean ====
/-
  The program is one region (a grid of 2 x 8 points over five windows: two input tiles, three accumulated output
  blocks) followed by sixty-nine host lines. This module states what the region's run is phrased over: the buffer
  contents the region finds, that the later lines only touch unscoped buffers, allocate nothing and write no array of
  the region, each window's block at a point, the one branch condition of the body (the second grid coordinate is
  zero: the first of a core's eight points), and the memrefs the body is called with.
-/
import proofs.«163081_j81801947120084_2_alg».proof.Proof.Gen.KernelIdeal.Launch
import proofs.«163081_j81801947120084_2_alg».proof.Proof.Gen.KernelIdeal.Skeleton
import proofs.«163081_j81801947120084_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Core `c`'s buffer contents when the region is entered: the launch contents (no host line comes before it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2, hostOps1_3, hostOps1_4, hostOps1_5, hostOps1_6, hostOps1_7]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor

set_option maxHeartbeats 2000000 in
/-- The program reduces to its region continued by the later lines. -/
theorem hmain (𝒱₀ : Variants) : Pipeline.HMainK (Ix := Unit) (Name := ℕ) (U := UR sig nD τ) (Lvl := ℕ) cfgs 0 defs₀ 𝒱₀ m (main (F := F))
      (fun c b => V0 m c (Proc.devRef .tc b)) (fun _ => Pipeline.chain ((tailOps (F := F)).map StableHlo.seq)) :=
  Pipeline.hmain_around cfgs 0 defs₀ 𝒱₀ m main [] tailOps (by simp only [List.Forall])
    (by simp only [List.Forall]) (fun c => (main_chain c).trans (by
      simp only [tailOps, List.map_cons, List.map_nil, List.nil_append, List.cons_append, List.singleton_append, List.append_nil]))

/-- The later lines touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
set_option maxHeartbeats 1600000 in
/-- And write no array of the region: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_6, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_7, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's run -/

/-- A run of the whole program that ends with every array of the region at what the proof data computes ends with
    both argument arrays as launched: an input window's array is never written. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c)))⟩) h

/-! ## The body's branch condition -/

/-- The body resets its three output blocks exactly when the second grid coordinate is zero. -/
abbrev cond0_0 (i : grid0.Coords) : Prop := (Scalar.cmpi .ne (Scalar.extui (Scalar.cmpi .eq (BitVec.ofNat 32 (i 1).val) 0#32)) 0#32) = 1#1
/-- That is at the points ≡ 0 (mod 8): the first point of each core. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The memrefs the body is called with -/

/-- One staging buffer of each output window, through which its contents are stated. -/
abbrev VO0_2 : View sig .tc .vmem S1x64x64 .f32 := (Memref.whole cc0_stg2_0 : Memref sig .tc .vmem S1x64x64 .f32).view
abbrev VO0_3 : View sig .tc .vmem S1x64x1 .f32 := (Memref.whole cc0_stg3_0 : Memref sig .tc .vmem S1x64x1 .f32).view
abbrev VO0_4 : View sig .tc .vmem S1x64x1 .f32 := (Memref.whole cc0_stg4_0 : Memref sig .tc .vmem S1x64x1 .f32).view
/-- Each window's current staging memref at point `t`, and its wholeness. -/
abbrev ms0_0 (t : Fin cfg0.N) : Memref sig .tc .vmem S64x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1 .f32 := win0_4.stage (cfg0.slots t 4)
abbrev hs0_4 (t : Fin cfg0.N) : (ms0_4 t).IsWhole := hstage0_4 ((cfg0.slots t 4).cast nbuf0_4)

end Cert.KernelIdeal.Fr

end
-- ==== Proof.FrKI.RunA.lean ====
/-
  The body's run at a grid point where the second coordinate is zero (the three output blocks are first reset):
  on whole staging memrefs, the two input tiles at their contents, the outputs at anything, the body runs to the
  end, leaves the inputs as they were and each output block with the listed stores written; the stores are found by
  running the body.
-/
import proofs.«163081_j81801947120084_2_alg».proof.Proof.FrKI.Kit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S64x1024 .i32) (x1 : Vec F S64x1024 .i32) :
    Σ' (L2 : List (View.Piece (Elt F) S1x64x64 .f32)) (L3 : List (View.Piece (Elt F) S1x64x1 .f32)), { L4 : List (View.Piece (Elt F) S1x64x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__hist_kernel i arg2 harg2 arg3 harg3 arg4 harg4 arg5 harg5 arg6 harg6) K } := by
  refine ⟨?_, ?_, ?_, fun E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.KernelIdeal.Fr

end
-- ==== Proof.FrKI.RunB.lean ====
/-
  The body's run at a grid point where the second coordinate is not zero (the three output blocks hold what the point before left):
  on whole staging memrefs, the two input tiles at their contents and the outputs at their running contents, the body runs to the
  end, leaves the inputs as they were and each output block with the listed stores written; the stores are found by
  running the body.
-/
import proofs.«163081_j81801947120084_2_alg».proof.Proof.FrKI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S64x1024 .i32) (x1 : Vec F S64x1024 .i32) (xo2 : Vec F S1x64x64 .f32) (xo3 : Vec F S1x64x1 .f32) (xo4 : Vec F S1x64x1 .f32) :
    Σ' (L2 : List (View.Piece (Elt F) S1x64x64 .f32)) (L3 : List (View.Piece (Elt F) S1x64x1 .f32)), { L4 : List (View.Piece (Elt F) S1x64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__hist_kernel i arg2 harg2 arg3 harg3 arg4 harg4 arg5 harg5 arg6 harg6) K } := by
  refine ⟨?_, ?_, ?_, fun E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.KernelIdeal.Fr

end
-- ==== Proof.FrKI.Frame.lean ====
/-
  The region's frame: what the three output blocks hold after each grid point (the first point of a core resets them
  and adds its tile's counts; every later point adds its tile's counts to what the point before left), the proof data of
  the region over that, the body's obligation at every point from the two runs of the body, the run of the whole
  program (the region, then the host lines), and the frame claim.
-/
import proofs.«163081_j81801947120084_2_alg».proof.Proof.FrKI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of this case into output block 2 tile it, so they cover it. -/
theorem cover0_A_2 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S64x1024 .i32) (x1 : Vec F S64x1024 .i32) (y : S1x64x64.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x64x64.size (by sl_kernel_rfl) y

/-- What this case leaves in output block 2: its stores read back. -/
def out0_A_2 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S64x1024 .i32) (x1 : Vec F S64x1024 .i32) : Vec F S1x64x64 .f32 :=
  VO0_2.read (Elt F) (VO0_2.writes (Elt F) VO0_2.junk (kernelRun0_A c i arg2 harg2 arg3 harg3 arg4 harg4 arg5 harg5 arg6 harg6 hc0 x0 x1).1)

/-- The stores of this case into output block 3 tile it, so they cover it. -/
theorem cover0_A_3 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S64x1024 .i32) (x1 : Vec F S64x1024 .i32) (y : S1x64x1.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x64x1.size (by sl_kernel_rfl) y

/-- What this case leaves in output block 3: its stores read back. -/
def out0_A_3 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S64x1024 .i32) (x1 : Vec F S64x1024 .i32) : Vec F S1x64x1 .f32 :=
  VO0_3.read (Elt F) (VO0_3.writes (Elt F) VO0_3.junk (kernelRun0_A c i arg2 harg2 arg3 harg3 arg4 harg4 arg5 harg5 arg6 harg6 hc0 x0 x1).2.1)

/-- The stores of this case into output block 4 tile it, so they cover it. -/
theorem cover0_A_4 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S64x1024 .i32) (x1 : Vec F S64x1024 .i32) (y : S1x64x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x64x1.size (by sl_kernel_rfl) y

/-- What this case leaves in output block 4: its stores read back. -/
def out0_A_4 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S64x1024 .i32) (x1 : Vec F S64x1024 .i32) : Vec F S1x64x1 .f32 :=
  VO0_4.read (Elt F) (VO0_4.writes (Elt F) VO0_4.junk (kernelRun0_A c i arg2 harg2 arg3 harg3 arg4 harg4 arg5 harg5 arg6 harg6 hc0 x0 x1).2.2.1)

/-- The stores of this case into output block 2 tile it, so they cover it. -/
theorem cover0_B_2 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S64x1024 .i32) (x1 : Vec F S64x1024 .i32) (xo2 : Vec F S1x64x64 .f32) (xo3 : Vec F S1x64x1 .f32) (xo4 : Vec F S1x64x1 .f32) (y : S1x64x64.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S1x64x64.size (by sl_kernel_rfl) y

/-- What this case leaves in output block 2: its stores read back. -/
def out0_B_2 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S64x1024 .i32) (x1 : Vec F S64x1024 .i32) (xo2 : Vec F S1x64x64 .f32) (xo3 : Vec F S1x64x1 .f32) (xo4 : Vec F S1x64x1 .f32) : Vec F S1x64x64 .f32 :=
  VO0_2.read (Elt F) (VO0_2.writes (Elt F) VO0_2.junk (kernelRun0_B c i arg2 harg2 arg3 harg3 arg4 harg4 arg5 harg5 arg6 harg6 hc0 x0 x1 xo2 xo3 xo4).1)

/-- The stores of this case into output block 3 tile it, so they cover it. -/
theorem cover0_B_3 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S64x1024 .i32) (x1 : Vec F S64x1024 .i32) (xo2 : Vec F S1x64x64 .f32) (xo3 : Vec F S1x64x1 .f32) (xo4 : Vec F S1x64x1 .f32) (y : S1x64x1.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S1x64x1.size (by sl_kernel_rfl) y

/-- What this case leaves in output block 3: its stores read back. -/
def out0_B_3 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S64x1024 .i32) (x1 : Vec F S64x1024 .i32) (xo2 : Vec F S1x64x64 .f32) (xo3 : Vec F S1x64x1 .f32) (xo4 : Vec F S1x64x1 .f32) : Vec F S1x64x1 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- The stores of this case into output block 4 tile it, so they cover it. -/
theorem cover0_B_4 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S64x1024 .i32) (x1 : Vec F S64x1024 .i32) (xo2 : Vec F S1x64x64 .f32) (xo3 : Vec F S1x64x1 .f32) (xo4 : Vec F S1x64x1 .f32) (y : S1x64x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S1x64x1.size (by sl_kernel_rfl) y

/-- What this case leaves in output block 4: its stores read back. -/
def out0_B_4 (c : Dev nD) (i : grid0.Coords) (arg2 : Memref sig .tc .vmem S64x1024 .i32) (harg2 : arg2.IsWhole) (arg3 : Memref sig .tc .vmem S64x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S64x1024 .i32) (x1 : Vec F S64x1024 .i32) (xo2 : Vec F S1x64x64 .f32) (xo3 : Vec F S1x64x1 .f32) (xo4 : Vec F S1x64x1 .f32) : Vec F S1x64x1 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the outputs hold after each point -/

/-- The three output blocks' contents after the body at position `n`: at a core's first point the reset case at the
    point's tiles; at any other point the accumulating case over what the point before left. -/
def outsAt0 (c : Dev nD) : (n : ℕ) → n < cfg0.N → Vec F S1x64x64 .f32 × Vec F S1x64x1 .f32 × Vec F S1x64x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2)

theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point that is not a core's first, output block 2's buffer holds what the body left at the point before: it was
    not written back in between (blocks are written back after a core's last point only). -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
/-- At a point that is not a core's first, output block 3's buffer holds what the body left at the point before: it was
    not written back in between (blocks are written back after a core's last point only). -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
/-- At a point that is not a core's first, output block 4's buffer holds what the body left at the point before: it was
    not written back in between (blocks are written back after a core's last point only). -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).2.2 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 16 := lt_of_lt_of_eq t.isLt (show cfg0.N = 16 from N_0)
  by_cases h0 : t.val % 8 = 0
  · rw [outsAt0_A m c t h0]
    unfold out0_A_2 out0_A_3 out0_A_4
    dsimp only
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B m c t h0]
    simp only [before0_2_B m c t h0, before0_3_B m c t h0, before0_4_B m c t h0]
    unfold out0_B_2 out0_B_3 out0_B_4
    dsimp only
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the region ends at what the proof data
    computes, and every other unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Fr

end
-- ==== Proof.RefTailDefs.lean ====
/-
  The epilogue both programs share, as one function of the 64 x 64 table of intersection counts and the two
  vectors of 64 areas. With u(p, q) = area_p(p) + area_t(q) - inter(p, q) the union count, the table of ratios is
  iou(p, q) = inter(p, q) / max(u(p, q), 1) where u(p, q) > 0 and 0 elsewhere. An instance is valid when its
  area is positive. The loss sums, over the valid instances of the first mask, one minus the row maximum of
  iou, and over the valid instances of the second, one minus the column maximum; it divides by the number of
  valid instances of both masks (at least one), and is 0 when there is none.

  Also the two reductions that fold the per-core partial tables into the arguments of that function: a sum over
  the leading axis of size two, the areas then read as vectors.
-/
import Idealize.ShloMosaic.PureOps
import Idealize.ShloMosaic.PureOps.Ideal

noncomputable section

namespace Cert.RefTail

open Idealize.ShloMosaic

abbrev T_ : Shape := ⟨0, ![]⟩
abbrev T64 : Shape := ⟨1, ![64]⟩
abbrev T64x1 : Shape := ⟨2, ![64, 1]⟩
abbrev T1x64 : Shape := ⟨2, ![1, 64]⟩
abbrev T64x64 : Shape := ⟨2, ![64, 64]⟩
abbrev T2x64x64 : Shape := ⟨3, ![2, 64, 64]⟩
abbrev T2x64x1 : Shape := ⟨3, ![2, 64, 1]⟩

theorem hT_ : 0 < T_.numel := by decide
theorem bc_T_T64 : T_.BroadcastsInDim T64 (![] : Fin 0 → Fin T64.rank) := by decide
theorem bc_T_T64x64 : T_.BroadcastsInDim T64x64 (![] : Fin 0 → Fin T64x64.rank) := by decide
theorem bc_T64_T64x1 : T64.BroadcastsInDim T64x1 (![0] : Fin 1 → Fin T64x1.rank) := by decide
theorem bc_T64_T1x64 : T64.BroadcastsInDim T1x64 (![1] : Fin 1 → Fin T1x64.rank) := by decide
theorem bc_T64x1_T64x64 : T64x1.BroadcastsInDim T64x64 (![0, 1] : Fin 2 → Fin T64x64.rank) := by decide
theorem bc_T1x64_T64x64 : T1x64.BroadcastsInDim T64x64 (![0, 1] : Fin 2 → Fin T64x64.rank) := by decide
theorem rd_T64x64_T64_d1 : T64x64.ReducesTo [1] T64 := by decide
theorem rd_T64x64_T64_d0 : T64x64.ReducesTo [0] T64 := by decide
theorem rd_T64_T_d0 : T64.ReducesTo [0] T_ := by decide
theorem rd_T2x64x64_T64x64_d0 : T2x64x64.ReducesTo [0] T64x64 := by decide
theorem rd_T2x64x1_T64x1_d0 : T2x64x1.ReducesTo [0] T64x1 := by decide
theorem sc_T64x1_T64 : T64x1.ShapeCasts T64 := by decide

/-- The scalar constants 0, 1 and minus infinity. -/
def c0 : FVec Ideal T_ .f32 := constant (F := Ideal) T_ .f32 0x00000000#32
def c1 : FVec Ideal T_ .f32 := constant (F := Ideal) T_ .f32 0x3F800000#32
def cNegInf : FVec Ideal T_ .f32 := constant (F := Ideal) T_ .f32 0xFF800000#32

/-- The union counts u(p, q) = area_p(p) + area_t(q) - inter(p, q). -/
def unionFn (inter : FVec Ideal T64x64 .f32) (ap at' : FVec Ideal T64 .f32) : FVec Ideal T64x64 .f32 :=
  subf (F := Ideal)
    (addf (F := Ideal)
      (broadcastInDim T64x64 ![0, 1] bc_T64x1_T64x64 (broadcastInDim T64x1 ![0] bc_T64_T64x1 ap))
      (broadcastInDim T64x64 ![0, 1] bc_T1x64_T64x64 (broadcastInDim T1x64 ![1] bc_T64_T1x64 at')))
    inter

/-- The table of ratios: inter / max(u, 1) where u > 0, else 0. -/
def iouFn (inter : FVec Ideal T64x64 .f32) (ap at' : FVec Ideal T64 .f32) : FVec Ideal T64x64 .f32 :=
  select
    (cmpf (F := Ideal) .ogt (unionFn inter ap at') (broadcastInDim T64x64 ![] bc_T_T64x64 c0))
    (Host.divf (F := Ideal) inter (maximumf (F := Ideal) (unionFn inter ap at') (broadcastInDim T64x64 ![] bc_T_T64x64 c1)))
    (broadcastInDim T64x64 ![] bc_T_T64x64 (id c0))

/-- Which instances are valid: positive area. -/
def validFn (a : FVec Ideal T64 .f32) : IVec T64 1 :=
  cmpf (F := Ideal) .ogt a (broadcastInDim T64 ![] bc_T_T64 c0)

/-- The sum over valid instances of one minus a maximum of the ratios. -/
def lossFn (valid : IVec T64 1) (mx : FVec Ideal T64 .f32) : FVec Ideal T_ .f32 :=
  Host.reduceAdd (F := Ideal)
    (select valid (subf (F := Ideal) (broadcastInDim T64 ![] bc_T_T64 c1) mx) (broadcastInDim T64 ![] bc_T_T64 (id c0)))
    c0 rd_T64_T_d0 hT_

/-- The number of valid instances. -/
def countFn (valid : IVec T64 1) : FVec Ideal T_ .f32 :=
  Host.reduceAdd (F := Ideal) (uitofp (F := Ideal) .f32 valid) c0 rd_T64_T_d0 hT_

/-- The epilogue: the loss from the intersection table and the two area vectors. -/
def tailFn (inter : FVec Ideal T64x64 .f32) (ap at' : FVec Ideal T64 .f32) : FVec Ideal T_ .f32 :=
  select
    (cmpf (F := Ideal) .ogt (addf (F := Ideal) (countFn (validFn ap)) (countFn (validFn at'))) c0)
    (Host.divf (F := Ideal)
      (addf (F := Ideal)
        (lossFn (validFn ap) (Host.reduce (FloatOps.maximumf (F := Ideal) (φ := .f32)) (iouFn inter ap at') cNegInf rd_T64x64_T64_d1 hT_))
        (lossFn (validFn at') (Host.reduce (FloatOps.maximumf (F := Ideal) (φ := .f32)) (iouFn inter ap at') cNegInf rd_T64x64_T64_d0 hT_)))
      (maximumf (F := Ideal) (addf (F := Ideal) (countFn (validFn ap)) (countFn (validFn at'))) c1))
    (id c0)

/-- The per-core intersection tables summed over the two cores. -/
def kInter (P : FVec Ideal T2x64x64 .f32) : FVec Ideal T64x64 .f32 :=
  Host.reduceAdd (F := Ideal) P c0 rd_T2x64x64_T64x64_d0 hT_

/-- The per-core area columns summed over the two cores, read as a vector. -/
def kArea (Q : FVec Ideal T2x64x1 .f32) : FVec Ideal T64 .f32 :=
  shapeCast T64 (Host.reduceAdd (F := Ideal) Q c0 rd_T2x64x1_T64x1_d0 hT_) sc_T64x1_T64

end Cert.RefTail

end
-- ==== Proof.RefTailKernel.lean ====
/-
  The kernel program's host operations after its kernel: the per-core partial tables are summed over the two
  cores, and the epilogue is applied to the sums.
-/
import proofs.«163081_j81801947120084_2_alg».proof.Proof.Gen.KernelIdeal.Launch
import proofs.«163081_j81801947120084_2_alg».proof.Proof.RefTailDefs
import Idealize.ShloMosaic.Lib.StableHlo.Run

noncomputable section

namespace Cert.RefTail

open Idealize.ShloMosaic Idealize.ShloMosaic.TcCoe Idealize.SL.Sem Idealize.ShloMosaic.StableHlo
open Cert.KernelIdeal Cert.KernelIdeal.Gen

set_option maxRecDepth 8192 in
set_option maxHeartbeats 1000000 in
/-- The result buffer after the 69 host operations that follow the kernel, from any contents: the epilogue of the
    three partial tables summed over the cores. -/
theorem kernel_tail (W : Valuation τ sig (Elt Ideal)) :
    StableHlo.after (List.flatten [hostOps1 (F := Ideal), hostOps1_1, hostOps1_2, hostOps1_3, hostOps1_4, hostOps1_5, hostOps1_6, hostOps1_7])
        W (Proc.devRef .tc main_v41)
      = tailFn (kInter (W (Proc.devRef .tc main_v0_0))) (kArea (W (Proc.devRef .tc main_v0_1)))
          (kArea (W (Proc.devRef .tc main_v0_2))) := by
  simp only [List.flatten_cons, List.flatten_nil, List.append_nil, List.cons_append, List.nil_append,
    hostOps1, hostOps1_1, hostOps1_2, hostOps1_3, hostOps1_4, hostOps1_5, hostOps1_6, hostOps1_7]
  after_results_simp
  rfl

end Cert.RefTail

end
-- ==== Proof.ResKI.lean ====
/-
  The idealized kernel's run with its result named: after the region the three output arrays hold what the proof data
  computes, and the sixty-nine host lines turn them into the scalar loss — the sum over the two cores of each array,
  then the shared epilogue.
-/
import proofs.«163081_j81801947120084_2_alg».proof.Proof.FrKI.Frame
import proofs.«163081_j81801947120084_2_alg».proof.Proof.RefTailKernel

noncomputable section

open Idealize.ShloMosaic Idealize.ShloMosaic.TcCoe Idealize.SL.Sem
open Idealize.ShloMosaic.Pipeline (Dat)

namespace Cert.KernelIdeal.Res

open Cert.KernelIdeal Cert.KernelIdeal.Gen Cert.KernelIdeal.Fr Cert.RefTail

variable (m : (ℓ : Loc nD τ sig) → Buf (Elt Ideal) ℓ) (ρ : Dev nD → PrngReg)

/-- The loss as the host lines compute it from the three output arrays. -/
def result (c : Dev nD) : Buf (Elt Ideal) ((c.tc : Thread nD τ).loc main_v41) :=
  tailFn (kInter ((dats m 0 c).arrAt 2 cfg0.N)) (kArea ((dats m 0 c).arrAt 3 cfg0.N)) (kArea ((dats m 0 c).arrAt 4 cfg0.N))

theorem mem_rest : main_v41 ∈ Pipeline.restRefs sig spec0 := by decide

/-- The buffer of the result after the host lines, from the arrays the region leaves. -/
theorem tail_eq (c : Dev nD) :
    Pipeline.afterTail₀ cfgs (dats m) 0 (V0 m) tailOps c main_v41 = result m c := by
  unfold Pipeline.afterTail₀ result
  rw [kernel_tail]
  have e2 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v0_2)
      = (dats m 0 c).arrAt 4 cfg0.N := Pipeline.withArrays_arr spec0 launch0.win.arr_inj c _ _ 4
  rw [e2, e3, e4]

/-- The run, read: the result buffer at `result`, the arguments unchanged. -/
theorem run : θ_run defs (onTc (τ := τ) (main (F := Ideal))) ⟨m, fun _ => 0, ρ⟩ fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v41 mem_rest).trans (tail_eq m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩)
    (run_main m ρ)

end Cert.KernelIdeal.Res

end
-- ==== Proof.RefTailRef.lean ====
/-
  The reference program's result: the epilogue applied to its intersection table (a product of two one-hot
  matrices over the flattened images) and its two area vectors (row sums of the one-hot matrices).
-/
import proofs.«163081_j81801947120084_2_alg».proof.Proof.RefReadP
import proofs.«163081_j81801947120084_2_alg».proof.Proof.RefTailDefs

noncomputable section

namespace Cert.RefTail

open Idealize.ShloMosaic Idealize.ShloMosaic.TcCoe Idealize.SL.Sem Idealize.ShloMosaic.StableHlo
open Cert.ReferenceIdeal Cert.ReferenceIdeal.Gen Cert.ReferenceIdeal.Read

/-- The reference's intersection table of two images. -/
def refInter (a0 a1 : (⟨S1024x1024, .i32⟩ : BufTy).Contents (Elt Ideal)) : FVec Ideal T64x64 .f32 :=
  val_main_v17 (F := Ideal) a0 a1

/-- The reference's area vector of one image. -/
def refArea (a : (⟨S1024x1024, .i32⟩ : BufTy).Contents (Elt Ideal)) : FVec Ideal T64 .f32 :=
  val_main_v18 (F := Ideal) a

/-- The second image's areas are computed by the same operations as the first's. -/
theorem val_main_v19_eq (a : (⟨S1024x1024, .i32⟩ : BufTy).Contents (Elt Ideal)) :
    val_main_v19 (F := Ideal) a = refArea a := by
  unfold refArea val_main_v19 val_main_v18 val_main_cst_0 val_main_cst val_main_v16 val_main_v9 val_main_v15 val_main_v8
    val_main_v13 val_main_v6 val_main_v14 val_main_v7 val_main_v11 val_main_v4 val_main_v12 val_main_v5 val_main_v10 val_main_v3
  rfl

set_option maxRecDepth 8192 in
set_option maxHeartbeats 1000000 in
/-- The last 61 operations of the reference are the epilogue of its table and areas. -/
theorem val_main_v55_tail (x0 x1 : (⟨S1024x1024, .i32⟩ : BufTy).Contents (Elt Ideal)) :
    val_main_v55 (F := Ideal) x0 x1
      = tailFn (val_main_v17 (F := Ideal) x0 x1) (val_main_v18 (F := Ideal) x0) (val_main_v19 (F := Ideal) x1) := by
  simp only [val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call0_v0, val_main_call0_v1, val_main_call1_v0, val_main_call1_v1, val_main_call2_v0, val_main_call2_v1, val_main_call3_v0]
  rfl

/-- The reference's result is the epilogue of its intersection table and its two area vectors. -/
theorem ref_result (m : (ℓ : Loc nD τ sig) → Buf (Elt Ideal) ℓ) (c : Dev nD) :
    Cert.ReferenceIdeal.Value.res_main_v55 (F := Ideal) m c
      = tailFn (refInter (m ((c.tc : Thread nD τ).loc main_arg0)) (m ((c.tc : Thread nD τ).loc main_arg1)))
          (refArea (m ((c.tc : Thread nD τ).loc main_arg0))) (refArea (m ((c.tc : Thread nD τ).loc main_arg1))) := by
  rw [val_main_v55_eq, val_main_v55_tail, val_main_v19_eq]
  rfl

end Cert.RefTail

end
-- ==== Proof.RefTailSum.lean ====
/-
  The two folds of the per-core tables read at an index: the sum over the leading axis of size two is the
  entry of core 0 plus the entry of core 1 (the initial value is zero).
-/
import proofs.«163081_j81801947120084_2_alg».proof.Proof.RefTailDefs
import Idealize.ShloMosaic.Lib.ValueIdx
import Idealize.ShloMosaic.Lib.Pipeline.Value
import Idealize.ShloMosaic.PureOps.Ideal.Laws

noncomputable section

namespace Cert.RefTail

open Idealize.ShloMosaic Idealize.ShloMosaic.ValueIdx

theorem rdc_T2x64x64_T64x64_d0 : T2x64x64.Reduces [0] T64x64 := by decide
theorem rdc_T2x64x1_T64x1_d0 : T2x64x1.Reduces [0] T64x1 := by decide

/-- The scalar constant zero is the extended real zero. -/
theorem c0_apply (i : T_.Idx) : c0 i = (0 : EReal) := Ideal.ofBits_zero_f32

/-- The summed intersection table at (p, q): core 0's entry plus core 1's. -/
theorem kInter_apply (P : FVec Ideal T2x64x64 .f32) (p q : Fin 64) :
    kInter P (ix2 p q) = P (ix3 (0 : Fin 2) p q) + P (ix3 (1 : Fin 2) p q) := by
  unfold kInter
  simp only [Host.reduceAdd, Ideal.hostReduceAdd_def]
  rw [Ideal.hostReduceAdd_single rd_T2x64x64_T64x64_d0 rdc_T2x64x64_T64x64_d0, c0_apply, zero_add]
  refine (Fin.sum_univ_two (fun k : Fin 2 => P (rdc_T2x64x64_T64x64_d0.lift (ix2 p q) k))).trans ?_
  refine congrArg₂ (· + ·) (congrArg P ?_) (congrArg P ?_)
  · exact funext fun c => Fin.ext (by match c with | ⟨0, _⟩ => rfl | ⟨1, _⟩ => rfl | ⟨2, _⟩ => rfl)
  · exact funext fun c => Fin.ext (by match c with | ⟨0, _⟩ => rfl | ⟨1, _⟩ => rfl | ⟨2, _⟩ => rfl)

/-- The summed area vector at k: core 0's entry plus core 1's. -/
theorem kArea_apply (Q : FVec Ideal T2x64x1 .f32) (k : Fin 64) :
    kArea Q (ix1 k) = Q (ix3 (0 : Fin 2) k (0 : Fin 1)) + Q (ix3 (1 : Fin 2) k (0 : Fin 1)) := by
  unfold kArea
  rw [shapeCast_apply _ sc_T64x1_T64 (ix1 k) (ix2 k (0 : Fin 1)) (by
    rw [Shape.rowMajor_val_two, Shape.rowMajor_val_one]
    show k.val * 1 + 0 = k.val
    omega)]
  simp only [Host.reduceAdd, Ideal.hostReduceAdd_def]
  rw [Ideal.hostReduceAdd_single rd_T2x64x1_T64x1_d0 rdc_T2x64x1_T64x1_d0, c0_apply, zero_add]
  refine (Fin.sum_univ_two (fun j : Fin 2 => Q (rdc_T2x64x1_T64x1_d0.lift (ix2 k (0 : Fin 1)) j))).trans ?_
  refine congrArg₂ (· + ·) (congrArg Q ?_) (congrArg Q ?_)
  · exact funext fun c => Fin.ext (by match c with | ⟨0, _⟩ => rfl | ⟨1, _⟩ => rfl | ⟨2, _⟩ => rfl)
  · exact funext fun c => Fin.ext (by match c with | ⟨0, _⟩ => rfl | ⟨1, _⟩ => rfl | ⟨2, _⟩ => rfl)

end Cert.RefTail

end
-- ==== Proof.TileDefs.lean ====
/-
  The counting functions both programs compute. An instance mask is an integer image whose pixel holds an
  instance id (0 is background, ids 1 … 64 name instances). For a 64-row tile of two masks:
  the area of id `k+1` is the number of pixels of the tile holding it; the intersection of id `p+1` of the first mask
  with id `q+1` of the second is the number of pixels holding `p+1` in the first and `q+1` in the second. Both are
  finite sums of zeros and ones on the extended reals.
-/
import Idealize.ShloMosaic.PureOps.Ideal
import Idealize.ShloMosaic.Lib.ValueIdx

noncomputable section

namespace Cert.Tile

open Idealize.ShloMosaic Idealize.ShloMosaic.ValueIdx

/-- One if the pixel word `x` is the id `k + 1`, zero otherwise. -/
def hit (x : BitVec 32) (k : Fin 64) : EReal := if x = BitVec.ofNat 32 (k.val + 1) then 1 else 0

/-- Pixels of a tile of `R` rows of 1024 holding id `k + 1`. -/
def areaSum {R : ℕ} (x : (⟨2, ![R, 1024]⟩ : Shape).Idx → BitVec 32) (k : Fin 64) : EReal :=
  ∑ r : Fin R, ∑ w : Fin 1024, hit (x (ix2 r w)) k

/-- Pixels of a tile of `R` rows of 1024 holding id `p + 1` in `x` and id `q + 1` in `y`. -/
def interSum {R : ℕ} (x y : (⟨2, ![R, 1024]⟩ : Shape).Idx → BitVec 32) (p q : Fin 64) : EReal :=
  ∑ r : Fin R, ∑ w : Fin 1024, hit (x (ix2 r w)) p * hit (y (ix2 r w)) q

end Cert.Tile

end
-- ==== Proof.RefTailSplit.lean ====
/-
  The counts of a 1024-row image are the sums, over its sixteen tiles of 64 rows, of the tiles' counts:
  row r of the image is row r mod 64 of tile r / 64.
-/
import proofs.«163081_j81801947120084_2_alg».proof.Proof.TileDefs
import Mathlib.Algebra.BigOperators.Fin
import Mathlib.Logic.Equiv.Fin.Basic

noncomputable section

namespace Cert.RefTail

open Idealize.ShloMosaic Idealize.ShloMosaic.ValueIdx

/-- Tile j of an image: its rows 64 j … 64 j + 63. -/
def tileOf (a : (⟨2, ![1024, 1024]⟩ : Shape).Idx → BitVec 32) (j : Fin 16) :
    (⟨2, ![64, 1024]⟩ : Shape).Idx → BitVec 32 :=
  fun y => a (ix2 (⟨64 * j.val + (y 0).val, by
    have h0 : (y 0).val < 64 := (y 0).isLt
    have hj := j.isLt
    omega⟩ : Fin 1024) (y 1))

theorem tileOf_apply (a : (⟨2, ![1024, 1024]⟩ : Shape).Idx → BitVec 32) (j : Fin 16) (r : Fin 64) (w : Fin 1024) :
    tileOf a j (ix2 r w) = a (ix2 (⟨64 * j.val + r.val, by have := r.isLt; have := j.isLt; omega⟩ : Fin 1024) w) := rfl

/-- A sum over 1024 rows, grouped into sixteen runs of 64. -/
theorem sum_rows_split {M : Type*} [AddCommMonoid M] (f : Fin 1024 → M) :
    ∑ r : Fin 1024, f r
      = ∑ j : Fin 16, ∑ r : Fin 64, f ⟨64 * j.val + r.val, by have := r.isLt; have := j.isLt; omega⟩ := by
  let g : Fin (16 * 64) → M := f
  have e : (∑ r : Fin (16 * 64), g r) = ∑ x : Fin 16 × Fin 64, g (finProdFinEquiv (m := 16) (n := 64) x) :=
    (Equiv.sum_comp (finProdFinEquiv (m := 16) (n := 64)) g).symm
  refine Eq.trans (show (∑ r : Fin 1024, f r) = ∑ r : Fin (16 * 64), g r from rfl) (e.trans ?_)
  rw [Fintype.sum_prod_type]
  refine Finset.sum_congr rfl fun j _ => Finset.sum_congr rfl fun r _ => ?_
  refine congrArg f (Fin.ext ?_)
  show r.val + 64 * j.val = 64 * j.val + r.val
  omega

theorem areaSum_split (a : (⟨2, ![1024, 1024]⟩ : Shape).Idx → BitVec 32) (k : Fin 64) :
    Cert.Tile.areaSum (R := 1024) a k = ∑ j : Fin 16, Cert.Tile.areaSum (R := 64) (tileOf a j) k := by
  unfold Cert.Tile.areaSum
  rw [sum_rows_split]
  rfl

theorem interSum_split (a0 a1 : (⟨2, ![1024, 1024]⟩ : Shape).Idx → BitVec 32) (p q : Fin 64) :
    Cert.Tile.interSum (R := 1024) a0 a1 p q
      = ∑ j : Fin 16, Cert.Tile.interSum (R := 64) (tileOf a0 j) (tileOf a1 j) p q := by
  unfold Cert.Tile.interSum
  rw [sum_rows_split]
  rfl

end Cert.RefTail

end
-- ==== Proof.RefTailRead.lean ====
/-
  The reference's intersection table and area vectors read at an index: each one-hot entry is the indicator of a
  pixel holding an id, the long axis of 1048576 pixels is the 1024 rows of 1024 pixels in row-major order, so the
  product of one-hot matrices counts pixel pairs and the row sums count pixels.
-/
import proofs.«163081_j81801947120084_2_alg».proof.Proof.RefTailRef
import proofs.«163081_j81801947120084_2_alg».proof.Proof.TileDefs
import Mathlib.Algebra.BigOperators.Fin
import Mathlib.Logic.Equiv.Fin.Basic

noncomputable section

namespace Cert.RefTail

open Idealize.ShloMosaic Idealize.ShloMosaic.ValueIdx
open Cert.ReferenceIdeal Cert.ReferenceIdeal.Gen Cert.ReferenceIdeal.Read

/-- The row of pixel k of the flattened image. -/
def rowOf (k : Fin 1048576) : Fin 1024 := ⟨k.val / 1024, by have := k.isLt; omega⟩
/-- The column of pixel k of the flattened image. -/
def colOf (k : Fin 1048576) : Fin 1024 := ⟨k.val % 1024, by omega⟩

/-- A sum over the flattened pixels is the sum over rows and columns. -/
theorem sum_flat {M : Type*} [AddCommMonoid M] (f : Fin 1024 → Fin 1024 → M) :
    ∑ k : Fin 1048576, f (rowOf k) (colOf k) = ∑ r : Fin 1024, ∑ w : Fin 1024, f r w := by
  let g : Fin (1024 * 1024) → M := fun k => f (rowOf k) (colOf k)
  have e : (∑ k : Fin (1024 * 1024), g k) = ∑ x : Fin 1024 × Fin 1024, g (finProdFinEquiv (m := 1024) (n := 1024) x) :=
    (Equiv.sum_comp (finProdFinEquiv (m := 1024) (n := 1024)) g).symm
  refine Eq.trans (show (∑ k : Fin 1048576, f (rowOf k) (colOf k)) = ∑ k : Fin (1024 * 1024), g k from rfl) (e.trans ?_)
  rw [Fintype.sum_prod_type]
  refine Finset.sum_congr rfl fun r _ => Finset.sum_congr rfl fun w _ => ?_
  show f (rowOf (finProdFinEquiv (m := 1024) (n := 1024) (r, w))) (colOf (finProdFinEquiv (m := 1024) (n := 1024) (r, w))) = f r w
  have hr : rowOf (finProdFinEquiv (m := 1024) (n := 1024) (r, w)) = r := Fin.ext (by
    show (w.val + 1024 * r.val) / 1024 = r.val
    have := w.isLt; omega)
  have hw : colOf (finProdFinEquiv (m := 1024) (n := 1024) (r, w)) = w := Fin.ext (by
    show (w.val + 1024 * r.val) % 1024 = w.val
    have := w.isLt; omega)
  rw [hr, hw]

/-- A one-hot entry: the comparison of a pixel word with 1 + n, converted to a float, is the indicator of the
    pixel holding id n + 1. -/
theorem onehot_core (a : S1024x1024.Idx → BitVec 32) (j : S1024x1024.Idx) (n : ℕ) (p : Fin 64) (r w : Fin 1024)
    (hj : j = ix2 r w) (hn : n = p.val) :
    FloatOps.uitofp (F := Ideal) .f32 (IntOp.cmpi .eq (a j) (IntOp.addi 1#32 (BitVec.ofNat 32 n)))
      = Cert.Tile.hit (a (ix2 r w)) p := by
  subst hj hn
  have hadd : IntOp.addi 1#32 (BitVec.ofNat 32 p.val) = BitVec.ofNat 32 (p.val + 1) := by
    show (1#32 : BitVec 32) + BitVec.ofNat 32 p.val = BitVec.ofNat 32 (p.val + 1)
    rw [Nat.add_comm, BitVec.ofNat_add]
  rw [hadd]
  unfold Cert.Tile.hit
  show (((IntOp.cmpi .eq (a (ix2 r w)) (BitVec.ofNat 32 (p.val + 1))).toNat : ℝ) : EReal) = _
  unfold IntOp.cmpi
  by_cases h : a (ix2 r w) = BitVec.ofNat 32 (p.val + 1)
  · rw [if_pos h, h]
    simp
  · rw [if_neg h]
    have hb : (a (ix2 r w) == BitVec.ofNat 32 (p.val + 1)) = false := by
      simpa using h
    simp [hb]

/-- The first image's one-hot matrix at (p, pixel k). -/
theorem v9_at (a : (⟨S1024x1024, .i32⟩ : BufTy).Contents (Elt Ideal)) (i : S64x1048576.Idx) (p : Fin 64) (k : Fin 1048576)
    (h0 : (i 0).val = p.val) (h1 : (i 1).val = k.val) :
    val_main_v9 (F := Ideal) a i = Cert.Tile.hit (a (ix2 (rowOf k) (colOf k))) p := by
  rw [val_main_v9_apply, val_main_v8_apply, val_main_v6_apply, val_main_v4_apply, val_main_v3_apply,
    val_main_v7_apply, val_main_v5_apply, val_main_v2_apply, val_main_v1_apply, val_main_c_apply, val_main_v0_apply]
  refine onehot_core a _ _ p (rowOf k) (colOf k) (funext fun c => Fin.ext ?_) h0
  match c with
  | ⟨0, _⟩ => show (i 1).val / 1024 = k.val / 1024; rw [h1]
  | ⟨1, _⟩ => show (i 1).val % 1024 = k.val % 1024; rw [h1]

/-- The second image's one-hot matrix at (q, pixel k). -/
theorem v16_at (a : (⟨S1024x1024, .i32⟩ : BufTy).Contents (Elt Ideal)) (i : S64x1048576.Idx) (q : Fin 64) (k : Fin 1048576)
    (h0 : (i 0).val = q.val) (h1 : (i 1).val = k.val) :
    val_main_v16 (F := Ideal) a i = Cert.Tile.hit (a (ix2 (rowOf k) (colOf k))) q := by
  rw [val_main_v16_apply, val_main_v15_apply, val_main_v13_apply, val_main_v11_apply, val_main_v10_apply,
    val_main_v14_apply, val_main_v12_apply, val_main_v2_apply, val_main_v1_apply, val_main_c_apply, val_main_v0_apply]
  refine onehot_core a _ _ q (rowOf k) (colOf k) (funext fun c => Fin.ext ?_) h0
  match c with
  | ⟨0, _⟩ => show (i 1).val / 1024 = k.val / 1024; rw [h1]
  | ⟨1, _⟩ => show (i 1).val % 1024 = k.val % 1024; rw [h1]

/-- The reference's intersection table counts the pixels holding id p + 1 in the first image and q + 1 in the second. -/
theorem refInter_apply (a0 a1 : (⟨S1024x1024, .i32⟩ : BufTy).Contents (Elt Ideal)) (p q : Fin 64) :
    refInter a0 a1 (ix2 p q) = Cert.Tile.interSum (R := 1024) a0 a1 p q := by
  unfold refInter
  rw [val_main_v17_apply]
  unfold Cert.Tile.interSum
  refine Eq.trans (Finset.sum_congr rfl fun k _ => ?_)
    (sum_flat fun r w => Cert.Tile.hit (a0 (ix2 r w)) p * Cert.Tile.hit (a1 (ix2 r w)) q)
  rw [v9_at a0 _ p k rfl rfl, v16_at a1 _ q k rfl rfl]

/-- The reference's area vector counts the pixels holding id k + 1. -/
theorem refArea_apply (a : (⟨S1024x1024, .i32⟩ : BufTy).Contents (Elt Ideal)) (k : Fin 64) :
    refArea a (ix1 k) = Cert.Tile.areaSum (R := 1024) a k := by
  unfold refArea
  rw [val_main_v18_apply, val_main_cst_apply]
  unfold Cert.Tile.areaSum
  rw [show FloatOps.ofBits (F := Ideal) .f32 0x00000000#32 = (0 : EReal) from Ideal.ofBits_zero_f32, zero_add]
  refine Eq.trans (Finset.sum_congr rfl fun n _ => ?_)
    (sum_flat fun r w => Cert.Tile.hit (a (ix2 r w)) k)
  rw [v9_at a _ k n rfl rfl]

end Cert.RefTail

end
-- ==== Proof.RefTailGlue.lean ====
/-
  The two results agree once the per-core tables add up to the sixteen tiles' counts: both are the epilogue of
  the same intersection table and the same area vectors.
-/
import proofs.«163081_j81801947120084_2_alg».proof.Proof.RefTailSum
import proofs.«163081_j81801947120084_2_alg».proof.Proof.RefTailSplit
import proofs.«163081_j81801947120084_2_alg».proof.Proof.RefTailRead

noncomputable section

namespace Cert.RefTail

open Idealize.ShloMosaic Idealize.ShloMosaic.ValueIdx

/-- If the two cores' intersection tables add up, entry by entry, to the sum of the sixteen tiles' intersection
    counts, and their area columns to the sum of the tiles' areas, the epilogue of the folded tables is the
    epilogue of the reference's table and areas. -/
theorem tail_eq_of_counts (P : FVec Ideal T2x64x64 .f32) (Q0 Q1 : FVec Ideal T2x64x1 .f32)
    (a0 a1 : (⟨2, ![1024, 1024]⟩ : Shape).Idx → BitVec 32)
    (hI : ∀ p q : Fin 64, P (ix3 (0 : Fin 2) p q) + P (ix3 (1 : Fin 2) p q)
      = ∑ j : Fin 16, Cert.Tile.interSum (R := 64) (tileOf a0 j) (tileOf a1 j) p q)
    (hP : ∀ k : Fin 64, Q0 (ix3 (0 : Fin 2) k (0 : Fin 1)) + Q0 (ix3 (1 : Fin 2) k (0 : Fin 1))
      = ∑ j : Fin 16, Cert.Tile.areaSum (R := 64) (tileOf a0 j) k)
    (hT : ∀ k : Fin 64, Q1 (ix3 (0 : Fin 2) k (0 : Fin 1)) + Q1 (ix3 (1 : Fin 2) k (0 : Fin 1))
      = ∑ j : Fin 16, Cert.Tile.areaSum (R := 64) (tileOf a1 j) k) :
    tailFn (kInter P) (kArea Q0) (kArea Q1) = tailFn (refInter a0 a1) (refArea a0) (refArea a1) := by
  have hI' : ∀ p q : Fin 64, kInter P (ix2 p q) = refInter a0 a1 (ix2 p q) := fun p q => by
    rw [kInter_apply, refInter_apply, interSum_split, hI]
  have hP' : ∀ k : Fin 64, kArea Q0 (ix1 k) = refArea a0 (ix1 k) := fun k => by
    rw [kArea_apply, refArea_apply, areaSum_split, hP]
  have hT' : ∀ k : Fin 64, kArea Q1 (ix1 k) = refArea a1 (ix1 k) := fun k => by
    rw [kArea_apply, refArea_apply, areaSum_split, hT]
  have i2 : ∀ i : T64x64.Idx, i = ix2 (n0 := 64) (n1 := 64) (i 0) (i 1) := fun i =>
    funext fun d => by match d with | ⟨0, _⟩ => rfl | ⟨1, _⟩ => rfl
  have i1 : ∀ i : T64.Idx, i = ix1 (n := 64) (i 0) := fun i =>
    funext fun d => by match d with | ⟨0, _⟩ => rfl
  have eI : kInter P = refInter a0 a1 := funext fun i =>
    (congrArg (kInter P) (i2 i)).trans ((hI' _ _).trans (congrArg (refInter a0 a1) (i2 i)).symm)
  have eP : kArea Q0 = refArea a0 := funext fun i =>
    (congrArg (kArea Q0) (i1 i)).trans ((hP' _).trans (congrArg (refArea a0) (i1 i)).symm)
  have eT : kArea Q1 = refArea a1 := funext fun i =>
    (congrArg (kArea Q1) (i1 i)).trans ((hT' _).trans (congrArg (refArea a1) (i1 i)).symm)
  rw [eI, eP, eT]

/-- A sum over the sixteen tiles, grouped by core: tile 8 cc + k is step k of core cc. -/
theorem sum_tiles_split {M : Type*} [AddCommMonoid M] (g : Fin 16 → M) :
    ∑ j : Fin 16, g j
      = ∑ cc : Fin 2, ∑ k : Fin 8, g ⟨8 * cc.val + k.val, by have := cc.isLt; have := k.isLt; omega⟩ := by
  let g' : Fin (2 * 8) → M := g
  have e : (∑ j : Fin (2 * 8), g' j) = ∑ x : Fin 2 × Fin 8, g' (finProdFinEquiv (m := 2) (n := 8) x) :=
    (Equiv.sum_comp (finProdFinEquiv (m := 2) (n := 8)) g').symm
  refine Eq.trans (show (∑ j : Fin 16, g j) = ∑ j : Fin (2 * 8), g' j from rfl) (e.trans ?_)
  rw [Fintype.sum_prod_type]
  refine Finset.sum_congr rfl fun cc _ => Finset.sum_congr rfl fun k _ => ?_
  refine congrArg g (Fin.ext ?_)
  show k.val + 8 * cc.val = 8 * cc.val + k.val
  omega

/-- The same with each core's table equal to the sum of its eight tiles' counts (tile 8 cc + k at step k of
    core cc). -/
theorem glue (a0 a1 : (⟨2, ![1024, 1024]⟩ : Shape).Idx → BitVec 32)
    (P : FVec Ideal T2x64x64 .f32) (Q0 Q1 : FVec Ideal T2x64x1 .f32)
    (hP : ∀ (cc : Fin 2) (p q : Fin 64), P (ix3 cc p q)
      = ∑ k : Fin 8, Cert.Tile.interSum (R := 64)
          (tileOf a0 ⟨8 * cc.val + k.val, by have := cc.isLt; have := k.isLt; omega⟩)
          (tileOf a1 ⟨8 * cc.val + k.val, by have := cc.isLt; have := k.isLt; omega⟩) p q)
    (hQ0 : ∀ (cc : Fin 2) (k : Fin 64), Q0 (ix3 cc k (0 : Fin 1))
      = ∑ j : Fin 8, Cert.Tile.areaSum (R := 64) (tileOf a0 ⟨8 * cc.val + j.val, by have := cc.isLt; have := j.isLt; omega⟩) k)
    (hQ1 : ∀ (cc : Fin 2) (k : Fin 64), Q1 (ix3 cc k (0 : Fin 1))
      = ∑ j : Fin 8, Cert.Tile.areaSum (R := 64) (tileOf a1 ⟨8 * cc.val + j.val, by have := cc.isLt; have := j.isLt; omega⟩) k) :
    tailFn (kInter P) (kArea Q0) (kArea Q1) = tailFn (refInter a0 a1) (refArea a0) (refArea a1) := by
  refine tail_eq_of_counts P Q0 Q1 a0 a1 (fun p q => ?_) (fun k => ?_) (fun k => ?_)
  · rw [hP 0 p q, hP 1 p q]
    exact ((sum_tiles_split fun j => Cert.Tile.interSum (R := 64) (tileOf a0 j) (tileOf a1 j) p q).trans
      (Fin.sum_univ_two _)).symm
  · rw [hQ0 0 k, hQ0 1 k]
    exact ((sum_tiles_split fun j => Cert.Tile.areaSum (R := 64) (tileOf a0 j) k).trans (Fin.sum_univ_two _)).symm
  · rw [hQ1 0 k, hQ1 1 k]
    exact ((sum_tiles_split fun j => Cert.Tile.areaSum (R := 64) (tileOf a1 j) k).trans (Fin.sum_univ_two _)).symm

end Cert.RefTail

end
-- ==== Proof.RefTailAsm.lean ====
/-
  The reference program's run in the forms the certificate's claims take: it terminates with its arguments
  unchanged, and its result is the epilogue of its intersection table and its two area vectors.
-/
import proofs.«163081_j81801947120084_2_alg».proof.Defs
import proofs.«163081_j81801947120084_2_alg».proof.Proof.Gen.ReferenceIdeal
import proofs.«163081_j81801947120084_2_alg».proof.Proof.RefRunP
import proofs.«163081_j81801947120084_2_alg».proof.Proof.RefTailRef

noncomputable section

namespace Cert.RefTail

open Idealize.ShloMosaic Idealize.ShloMosaic.TcCoe Idealize.SL.Sem

/-- The reference runs and leaves its arguments unchanged. -/
theorem ref_frame : Cert.frame_ReferenceIdeal (hReferenceIdeal := Cert.ReferenceIdeal.Gen.facts) :=
  fun m ρ _ => (θ_run Cert.ReferenceIdeal.defs _ _).mono (fun _ h c => (h c).2)
    (Cert.ReferenceIdeal.Value.run (F := Ideal) m ρ)

/-- The reference runs, ends with the epilogue of its table and areas in its result, and leaves its arguments
    unchanged. -/
theorem ref_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v55)
          = tailFn
              (refInter (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1)))
              (refArea (m ((c.tc : Thread Cert.ReferenceIdeal.nD Cert.ReferenceIdeal.τ).loc Cert.ReferenceIdeal.main_arg0)))
              (refArea (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run Cert.ReferenceIdeal.defs _ _).mono (fun _ h c => ⟨(h c).1.trans (ref_result m c), (h c).2⟩)
    (Cert.ReferenceIdeal.Value.run (F := Ideal) m g)

end Cert.RefTail

end
-- ==== Proof.KIValArr.lean ====
/-
  The three result arrays after the region. Each is two blocks, one per core; a core's block is written back once,
  after the core's eighth point, so row `cc` of a result array ends holding what the output block held after
  point `8 cc + 7`.
-/
import proofs.«163081_j81801947120084_2_alg».proof.Proof.FrKI.Frame
import Idealize.ShloMosaic.Lib.Pipeline.Value
import Idealize.ShloMosaic.Lib.ValueIdx

noncomputable section

namespace Cert.KernelIdeal.ValArr

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- Point `8 n + 7`, the last point of core `n`, is a point of the grid. -/
theorem last_lt (n : ℕ) (h : n < 2) : 8 * n + 7 < cfg0.N := by
  have : cfg0.N = 16 := N_0
  omega

/-- The blocks after a point, read at equal points and equal indices. -/
theorem outs_congr {α : Type} {s : Shape} (c : Dev nD) (n n' : ℕ) (h : n < cfg0.N) (h' : n' < cfg0.N) (e : n' = n)
    (f : Vec F S1x64x64 .f32 × Vec F S1x64x1 .f32 × Vec F S1x64x1 .f32 → s.Idx → α) (y y' : s.Idx) (ey : y' = y) :
    f (Fr.outsAt0 m c n h) y = f (Fr.outsAt0 m c n' h') y' := by
  subst e
  subst ey
  rfl

/-- The intersection array the region leaves: row `i 0` is the block after the last point of core `i 0`. -/
def G2 (c : Dev nD) : S2x64x64.Idx → Elt F .f32 := fun i =>
  (Fr.outsAt0 m c (8 * (i 0).val + 7) (last_lt _ (i 0).isLt)).1 (ix3 (0 : Fin 1) (i 1) (i 2))

/-- The first area array the region leaves. -/
def G3 (c : Dev nD) : S2x64x1.Idx → Elt F .f32 := fun i =>
  (Fr.outsAt0 m c (8 * (i 0).val + 7) (last_lt _ (i 0).isLt)).2.1 (ix3 (0 : Fin 1) (i 1) (i 2))

/-- The second area array the region leaves. -/
def G4 (c : Dev nD) : S2x64x1.Idx → Elt F .f32 := fun i =>
  (Fr.outsAt0 m c (8 * (i 0).val + 7) (last_lt _ (i 0).isLt)).2.2 (ix3 (0 : Fin 1) (i 1) (i 2))

/-- The output windows' block index at point `t` is `(t / 8, 0, 0)`. -/
theorem index0_2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
theorem index0_3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)
theorem index0_4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)

/-- No block is cut at an array's end: what is moved at a point is the whole block. -/
theorem xsize0_2 : ∀ t : Fin cfg0.N, win0_2.xsize (grid0.coords t) 0 = 1 ∧ win0_2.xsize (grid0.coords t) 1 = 64 ∧ win0_2.xsize (grid0.coords t) 2 = 64 :=
  (by decide +kernel : ∀ t : Fin grid0.N, win0_2.xsize (grid0.coords t) 0 = 1 ∧ win0_2.xsize (grid0.coords t) 1 = 64 ∧ win0_2.xsize (grid0.coords t) 2 = 64)
theorem xsize0_3 : ∀ t : Fin cfg0.N, win0_3.xsize (grid0.coords t) 0 = 1 ∧ win0_3.xsize (grid0.coords t) 1 = 64 ∧ win0_3.xsize (grid0.coords t) 2 = 1 :=
  (by decide +kernel : ∀ t : Fin grid0.N, win0_3.xsize (grid0.coords t) 0 = 1 ∧ win0_3.xsize (grid0.coords t) 1 = 64 ∧ win0_3.xsize (grid0.coords t) 2 = 1)
theorem xsize0_4 : ∀ t : Fin cfg0.N, win0_4.xsize (grid0.coords t) 0 = 1 ∧ win0_4.xsize (grid0.coords t) 1 = 64 ∧ win0_4.xsize (grid0.coords t) 2 = 1 :=
  (by decide +kernel : ∀ t : Fin grid0.N, win0_4.xsize (grid0.coords t) 0 = 1 ∧ win0_4.xsize (grid0.coords t) 1 = 64 ∧ win0_4.xsize (grid0.coords t) 2 = 1)

/-- The write-back after a core's last point writes that core's row of the array. -/
theorem flushed2_eq (c : Dev nD) (t : Fin cfg0.N) (hf : (cfg0.win 2).flush t = true) :
    (Fr.dats m 0 c).flushed 2 t = ((cfg0.win 2).blk t).view.read (Elt F) (G2 m c) := by
  have hN : cfg0.N = 16 := N_0
  have h7 : t.val % 8 = 7 := (flush0_2 t).mp hf
  have hi := index0_2 t
  show (cfg0.win 2).cut (grid0.coords t) ((Fr.dats m 0 c).after 2 t) = _
  rw [Fr.after0_2]
  show ((Fr.outsAt0 m c t.val t.isLt).1 : Vec F S1x64x64 .f32)
    = (((cfg0.win 2).blk t).view.read (Elt F) (G2 m c) : Vec F S1x64x64 .f32)
  funext j
  obtain ⟨a, p, q, rfl⟩ : ∃ (a : Fin 1) (p : Fin 64) (q : Fin 64), j = ix3 a p q := ⟨j 0, j 1, j 2, eq_ix3 j⟩
  obtain rfl : a = 0 := Subsingleton.elim _ _
  rw [View.read_apply]
  show (Fr.outsAt0 m c t.val t.isLt).1 (ix3 (0 : Fin 1) p q)
    = G2 m c (((cfg0.win 2).blk t).view.emb (ix3 (0 : Fin 1) p q))
  unfold G2
  refine outs_congr m c _ _ _ _ ?_ (fun o => o.1) _ _ ?_
  · show 8 * (win0_2.index t 0 * 1 + 1 * 0) + 7 = t.val
    rw [hi.1]
    omega
  · funext a
    apply Fin.ext
    match a with
    | ⟨0, _⟩ => rfl
    | ⟨1, _⟩ => show win0_2.index t 1 * 64 + 1 * p.val = p.val; rw [hi.2.1]; omega
    | ⟨2, _⟩ => show win0_2.index t 2 * 64 + 1 * q.val = q.val; rw [hi.2.2]; omega

/-- Every row of the array is some core's block, written back after that core's last point. -/
theorem final2 (c : Dev nD) : (Fr.dats m 0 c).arrAt 2 cfg0.N = G2 m c :=
  (Fr.dats m 0 c).arrAt_eq_of_cover 2 (G2 m c) (flushed2_eq m c) fun i => by
    have hN : cfg0.N = 16 := N_0
    have h0 : (i 0 : Nat) < 2 := (i 0).isLt
    have h1 : (i 1 : Nat) < 64 := (i 1).isLt
    have h2 : (i 2 : Nat) < 64 := (i 2).isLt
    refine ⟨⟨8 * (i 0).val + 7, last_lt _ h0⟩, (flush0_2 _).mpr (by show (8 * (i 0).val + 7) % 8 = 7; omega), ?_⟩
    have hi := index0_2 ⟨8 * (i 0).val + 7, last_lt _ h0⟩
    have hx := xsize0_2 ⟨8 * (i 0).val + 7, last_lt _ h0⟩
    show i ∈ ((View.whole main_v0_0).slice (win0_2.rect ⟨8 * (i 0).val + 7, last_lt _ h0⟩)).set
    rw [View.set_slice_whole, Rect.mem_set_unit]
    intro a
    match a with
    | ⟨0, _⟩ =>
      show win0_2.index ⟨8 * (i 0).val + 7, last_lt _ h0⟩ 0 * 1 ≤ (i 0 : Nat)
        ∧ (i 0 : Nat) < win0_2.index ⟨8 * (i 0).val + 7, last_lt _ h0⟩ 0 * 1 + win0_2.xsize (grid0.coords ⟨8 * (i 0).val + 7, last_lt _ h0⟩) 0
      rw [hi.1, hx.1]
      show (8 * (i 0).val + 7) / 8 * 1 ≤ (i 0 : Nat) ∧ (i 0 : Nat) < (8 * (i 0).val + 7) / 8 * 1 + 1
      omega
    | ⟨1, _⟩ =>
      show win0_2.index ⟨8 * (i 0).val + 7, last_lt _ h0⟩ 1 * 64 ≤ (i 1 : Nat)
        ∧ (i 1 : Nat) < win0_2.index ⟨8 * (i 0).val + 7, last_lt _ h0⟩ 1 * 64 + win0_2.xsize (grid0.coords ⟨8 * (i 0).val + 7, last_lt _ h0⟩) 1
      rw [hi.2.1, hx.2.1]
      omega
    | ⟨2, _⟩ =>
      show win0_2.index ⟨8 * (i 0).val + 7, last_lt _ h0⟩ 2 * 64 ≤ (i 2 : Nat)
        ∧ (i 2 : Nat) < win0_2.index ⟨8 * (i 0).val + 7, last_lt _ h0⟩ 2 * 64 + win0_2.xsize (grid0.coords ⟨8 * (i 0).val + 7, last_lt _ h0⟩) 2
      rw [hi.2.2, hx.2.2]
      omega

/-- Row `cc` of the intersection array after the region: the intersection block after point `8 cc + 7`. -/
theorem arr2 (c : Dev nD) (cc : Fin 2) (p q : Fin 64) :
    (Fr.dats m 0 c).arrAt 2 cfg0.N (ix3 cc p q)
      = (Fr.outsAt0 m c (8 * cc.val + 7) (last_lt _ cc.isLt)).1 (ix3 (0 : Fin 1) p q) :=
  congrFun (final2 m c) (ix3 cc p q)

/-- The write-back after a core's last point writes that core's row of the array. -/
theorem flushed3_eq (c : Dev nD) (t : Fin cfg0.N) (hf : (cfg0.win 3).flush t = true) :
    (Fr.dats m 0 c).flushed 3 t = ((cfg0.win 3).blk t).view.read (Elt F) (G3 m c) := by
  have hN : cfg0.N = 16 := N_0
  have h7 : t.val % 8 = 7 := (flush0_3 t).mp hf
  have hi := index0_3 t
  show (cfg0.win 3).cut (grid0.coords t) ((Fr.dats m 0 c).after 3 t) = _
  rw [Fr.after0_3]
  show ((Fr.outsAt0 m c t.val t.isLt).2.1 : Vec F S1x64x1 .f32)
    = (((cfg0.win 3).blk t).view.read (Elt F) (G3 m c) : Vec F S1x64x1 .f32)
  funext j
  obtain ⟨a, p, q, rfl⟩ : ∃ (a : Fin 1) (p : Fin 64) (q : Fin 1), j = ix3 a p q := ⟨j 0, j 1, j 2, eq_ix3 j⟩
  obtain rfl : a = 0 := Subsingleton.elim _ _
  rw [View.read_apply]
  show (Fr.outsAt0 m c t.val t.isLt).2.1 (ix3 (0 : Fin 1) p q)
    = G3 m c (((cfg0.win 3).blk t).view.emb (ix3 (0 : Fin 1) p q))
  unfold G3
  refine outs_congr m c _ _ _ _ ?_ (fun o => o.2.1) _ _ ?_
  · show 8 * (win0_3.index t 0 * 1 + 1 * 0) + 7 = t.val
    rw [hi.1]
    omega
  · funext a
    apply Fin.ext
    match a with
    | ⟨0, _⟩ => rfl
    | ⟨1, _⟩ => show win0_3.index t 1 * 64 + 1 * p.val = p.val; rw [hi.2.1]; omega
    | ⟨2, _⟩ => show win0_3.index t 2 * 1 + 1 * q.val = q.val; rw [hi.2.2]; omega

/-- Every row of the array is some core's block, written back after that core's last point. -/
theorem final3 (c : Dev nD) : (Fr.dats m 0 c).arrAt 3 cfg0.N = G3 m c :=
  (Fr.dats m 0 c).arrAt_eq_of_cover 3 (G3 m c) (flushed3_eq m c) fun i => by
    have hN : cfg0.N = 16 := N_0
    have h0 : (i 0 : Nat) < 2 := (i 0).isLt
    have h1 : (i 1 : Nat) < 64 := (i 1).isLt
    have h2 : (i 2 : Nat) < 1 := (i 2).isLt
    refine ⟨⟨8 * (i 0).val + 7, last_lt _ h0⟩, (flush0_3 _).mpr (by show (8 * (i 0).val + 7) % 8 = 7; omega), ?_⟩
    have hi := index0_3 ⟨8 * (i 0).val + 7, last_lt _ h0⟩
    have hx := xsize0_3 ⟨8 * (i 0).val + 7, last_lt _ h0⟩
    show i ∈ ((View.whole main_v0_1).slice (win0_3.rect ⟨8 * (i 0).val + 7, last_lt _ h0⟩)).set
    rw [View.set_slice_whole, Rect.mem_set_unit]
    intro a
    match a with
    | ⟨0, _⟩ =>
      show win0_3.index ⟨8 * (i 0).val + 7, last_lt _ h0⟩ 0 * 1 ≤ (i 0 : Nat)
        ∧ (i 0 : Nat) < win0_3.index ⟨8 * (i 0).val + 7, last_lt _ h0⟩ 0 * 1 + win0_3.xsize (grid0.coords ⟨8 * (i 0).val + 7, last_lt _ h0⟩) 0
      rw [hi.1, hx.1]
      show (8 * (i 0).val + 7) / 8 * 1 ≤ (i 0 : Nat) ∧ (i 0 : Nat) < (8 * (i 0).val + 7) / 8 * 1 + 1
      omega
    | ⟨1, _⟩ =>
      show win0_3.index ⟨8 * (i 0).val + 7, last_lt _ h0⟩ 1 * 64 ≤ (i 1 : Nat)
        ∧ (i 1 : Nat) < win0_3.index ⟨8 * (i 0).val + 7, last_lt _ h0⟩ 1 * 64 + win0_3.xsize (grid0.coords ⟨8 * (i 0).val + 7, last_lt _ h0⟩) 1
      rw [hi.2.1, hx.2.1]
      omega
    | ⟨2, _⟩ =>
      show win0_3.index ⟨8 * (i 0).val + 7, last_lt _ h0⟩ 2 * 1 ≤ (i 2 : Nat)
        ∧ (i 2 : Nat) < win0_3.index ⟨8 * (i 0).val + 7, last_lt _ h0⟩ 2 * 1 + win0_3.xsize (grid0.coords ⟨8 * (i 0).val + 7, last_lt _ h0⟩) 2
      rw [hi.2.2, hx.2.2]
      omega

/-- Row `cc` of the first area array after the region: the first area block after point `8 cc + 7`. -/
theorem arr3 (c : Dev nD) (cc : Fin 2) (k : Fin 64) :
    (Fr.dats m 0 c).arrAt 3 cfg0.N (ix3 cc k (0 : Fin 1))
      = (Fr.outsAt0 m c (8 * cc.val + 7) (last_lt _ cc.isLt)).2.1 (ix3 (0 : Fin 1) k (0 : Fin 1)) :=
  congrFun (final3 m c) (ix3 cc k (0 : Fin 1))

/-- The write-back after a core's last point writes that core's row of the array. -/
theorem flushed4_eq (c : Dev nD) (t : Fin cfg0.N) (hf : (cfg0.win 4).flush t = true) :
    (Fr.dats m 0 c).flushed 4 t = ((cfg0.win 4).blk t).view.read (Elt F) (G4 m c) := by
  have hN : cfg0.N = 16 := N_0
  have h7 : t.val % 8 = 7 := (flush0_4 t).mp hf
  have hi := index0_4 t
  show (cfg0.win 4).cut (grid0.coords t) ((Fr.dats m 0 c).after 4 t) = _
  rw [Fr.after0_4]
  show ((Fr.outsAt0 m c t.val t.isLt).2.2 : Vec F S1x64x1 .f32)
    = (((cfg0.win 4).blk t).view.read (Elt F) (G4 m c) : Vec F S1x64x1 .f32)
  funext j
  obtain ⟨a, p, q, rfl⟩ : ∃ (a : Fin 1) (p : Fin 64) (q : Fin 1), j = ix3 a p q := ⟨j 0, j 1, j 2, eq_ix3 j⟩
  obtain rfl : a = 0 := Subsingleton.elim _ _
  rw [View.read_apply]
  show (Fr.outsAt0 m c t.val t.isLt).2.2 (ix3 (0 : Fin 1) p q)
    = G4 m c (((cfg0.win 4).blk t).view.emb (ix3 (0 : Fin 1) p q))
  unfold G4
  refine outs_congr m c _ _ _ _ ?_ (fun o => o.2.2) _ _ ?_
  · show 8 * (win0_4.index t 0 * 1 + 1 * 0) + 7 = t.val
    rw [hi.1]
    omega
  · funext a
    apply Fin.ext
    match a with
    | ⟨0, _⟩ => rfl
    | ⟨1, _⟩ => show win0_4.index t 1 * 64 + 1 * p.val = p.val; rw [hi.2.1]; omega
    | ⟨2, _⟩ => show win0_4.index t 2 * 1 + 1 * q.val = q.val; rw [hi.2.2]; omega

/-- Every row of the array is some core's block, written back after that core's last point. -/
theorem final4 (c : Dev nD) : (Fr.dats m 0 c).arrAt 4 cfg0.N = G4 m c :=
  (Fr.dats m 0 c).arrAt_eq_of_cover 4 (G4 m c) (flushed4_eq m c) fun i => by
    have hN : cfg0.N = 16 := N_0
    have h0 : (i 0 : Nat) < 2 := (i 0).isLt
    have h1 : (i 1 : Nat) < 64 := (i 1).isLt
    have h2 : (i 2 : Nat) < 1 := (i 2).isLt
    refine ⟨⟨8 * (i 0).val + 7, last_lt _ h0⟩, (flush0_4 _).mpr (by show (8 * (i 0).val + 7) % 8 = 7; omega), ?_⟩
    have hi := index0_4 ⟨8 * (i 0).val + 7, last_lt _ h0⟩
    have hx := xsize0_4 ⟨8 * (i 0).val + 7, last_lt _ h0⟩
    show i ∈ ((View.whole main_v0_2).slice (win0_4.rect ⟨8 * (i 0).val + 7, last_lt _ h0⟩)).set
    rw [View.set_slice_whole, Rect.mem_set_unit]
    intro a
    match a with
    | ⟨0, _⟩ =>
      show win0_4.index ⟨8 * (i 0).val + 7, last_lt _ h0⟩ 0 * 1 ≤ (i 0 : Nat)
        ∧ (i 0 : Nat) < win0_4.index ⟨8 * (i 0).val + 7, last_lt _ h0⟩ 0 * 1 + win0_4.xsize (grid0.coords ⟨8 * (i 0).val + 7, last_lt _ h0⟩) 0
      rw [hi.1, hx.1]
      show (8 * (i 0).val + 7) / 8 * 1 ≤ (i 0 : Nat) ∧ (i 0 : Nat) < (8 * (i 0).val + 7) / 8 * 1 + 1
      omega
    | ⟨1, _⟩ =>
      show win0_4.index ⟨8 * (i 0).val + 7, last_lt _ h0⟩ 1 * 64 ≤ (i 1 : Nat)
        ∧ (i 1 : Nat) < win0_4.index ⟨8 * (i 0).val + 7, last_lt _ h0⟩ 1 * 64 + win0_4.xsize (grid0.coords ⟨8 * (i 0).val + 7, last_lt _ h0⟩) 1
      rw [hi.2.1, hx.2.1]
      omega
    | ⟨2, _⟩ =>
      show win0_4.index ⟨8 * (i 0).val + 7, last_lt _ h0⟩ 2 * 1 ≤ (i 2 : Nat)
        ∧ (i 2 : Nat) < win0_4.index ⟨8 * (i 0).val + 7, last_lt _ h0⟩ 2 * 1 + win0_4.xsize (grid0.coords ⟨8 * (i 0).val + 7, last_lt _ h0⟩) 2
      rw [hi.2.2, hx.2.2]
      omega

/-- Row `cc` of the second area array after the region: the second area block after point `8 cc + 7`. -/
theorem arr4 (c : Dev nD) (cc : Fin 2) (k : Fin 64) :
    (Fr.dats m 0 c).arrAt 4 cfg0.N (ix3 cc k (0 : Fin 1))
      = (Fr.outsAt0 m c (8 * cc.val + 7) (last_lt _ cc.isLt)).2.2 (ix3 (0 : Fin 1) k (0 : Fin 1)) :=
  congrFun (final4 m c) (ix3 cc k (0 : Fin 1))

end Cert.KernelIdeal.ValArr

end
-- ==== Proof.KIValArrIn.lean ====
/-
  The input windows' blocks: at grid point t each of the two windows reads rows 64 t .. 64 t + 63 of its image,
  the image's tile t.
-/
import proofs.«163081_j81801947120084_2_alg».proof.Proof.FrKI.Kit
import proofs.«163081_j81801947120084_2_alg».proof.Proof.RefTailSplit
import Idealize.ShloMosaic.Lib.Pipeline.Value

noncomputable section

namespace Cert.KernelIdeal.ValArr

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- Point `t` as a tile number. -/
abbrev tileIx (t : Fin cfg0.N) : Fin 16 := ⟨t.val, by have := t.isLt; have : cfg0.N = 16 := N_0; omega⟩

/-- The first window's block index at point `t` is `(t, 0)`. -/
theorem index0_0 : ∀ t : Fin cfg0.N, win0_0.index t 0 = t.val ∧ win0_0.index t 1 = 0 :=
  (by decide +kernel : ∀ t : Fin grid0.N, win0_0.index t 0 = t.val ∧ win0_0.index t 1 = 0)

/-- The second window's block index at point `t` is `(t, 0)`. -/
theorem index0_1 : ∀ t : Fin cfg0.N, win0_1.index t 0 = t.val ∧ win0_1.index t 1 = 0 :=
  (by decide +kernel : ∀ t : Fin grid0.N, win0_1.index t 0 = t.val ∧ win0_1.index t 1 = 0)

/-- What the first window reads at point `t` is tile `t` of the first image. -/
theorem iblk_tile0 (c : Dev nD) (t : Fin cfg0.N) :
    (Fr.iblk m c 0 t : Vec F S64x1024 .i32) = Cert.RefTail.tileOf (m ((c.tc : Thread nD τ).loc main_arg0)) (tileIx t) := by
  have hi := index0_0 t
  funext j
  unfold Fr.iblk Cert.RefTail.tileOf
  rw [View.read_apply]
  show Fr.V m c main_arg0 _ = m ((c.tc : Thread nD τ).loc main_arg0) _
  rw [Fr.V_main_arg0]
  congr 1
  funext a
  apply Fin.ext
  match a with
  | ⟨0, _⟩ => show win0_0.index t 0 * 64 + 1 * (j 0).val = 64 * t.val + (j 0).val; rw [hi.1]; omega
  | ⟨1, _⟩ => show win0_0.index t 1 * 1024 + 1 * (j 1).val = (j 1).val; rw [hi.2]; omega

/-- What the second window reads at point `t` is tile `t` of the second image. -/
theorem iblk_tile1 (c : Dev nD) (t : Fin cfg0.N) :
    (Fr.iblk m c 1 t : Vec F S64x1024 .i32) = Cert.RefTail.tileOf (m ((c.tc : Thread nD τ).loc main_arg1)) (tileIx t) := by
  have hi := index0_1 t
  funext j
  unfold Fr.iblk Cert.RefTail.tileOf
  rw [View.read_apply]
  show Fr.V m c main_arg1 _ = m ((c.tc : Thread nD τ).loc main_arg1) _
  rw [Fr.V_main_arg1]
  congr 1
  funext a
  apply Fin.ext
  match a with
  | ⟨0, _⟩ => show win0_1.index t 0 * 64 + 1 * (j 0).val = 64 * t.val + (j 0).val; rw [hi.1]; omega
  | ⟨1, _⟩ => show win0_1.index t 1 * 1024 + 1 * (j 1).val = (j 1).val; rw [hi.2]; omega

end Cert.KernelIdeal.ValArr

end
-- ==== Proof.ChainKI.lean ====
/-
  The body's arithmetic as three functions of the two 64 x 1024 tiles it loads (`v3` of the first mask, `v4` of the
  second) and of what each output block held before: the sixteen groups of four rows, composed in program order.
  `blk4` is the new 1 x 64 x 64 intersection block, `blk5` and `blk6` the new 1 x 64 x 1 area blocks.
-/
import proofs.«163081_j81801947120084_2_alg».proof.Proof.Gen.KernelIdeal.Skeleton

noncomputable section

namespace Cert.KernelIdeal.Chain

open Idealize.ShloMosaic Cert.KernelIdeal Cert.KernelIdeal.Gen

variable {F : FTy → Type} [FloatOps F]

/-- The area partial sums of the first mask after all sixteen groups but the last. -/
def accP (v3 : Vec F S64x1024 .i32) : FVec F S64 .f32 :=
  let v7 : IVec S1x64x1 32 := k0_pay5
  k0_pay71 v3 v7 (k0_pay66 v3 v7 (k0_pay58 v3 v7 (k0_pay54 v3 v7 (k0_pay44 v3 v7 (k0_pay37 v3 v7
    (k0_pay31 v3 v7 (k0_pay21 v3 v7 (k0_pay17 v3 v7 (k0_pay8 v3))) (k0_pay25 v3))) (k0_pay40 v3 v7)))))

/-- The area sums of the second mask after all sixteen groups. -/
def accT (v4 : Vec F S64x1024 .i32) : FVec F S64 .f32 :=
  let v7 : IVec S1x64x1 32 := k0_pay5
  k0_pay77 v7 (k0_pay72 v4 v7 (k0_pay67 v4 v7 (k0_pay59 v4 v7 (k0_pay50 v4 v7 (k0_pay45 v4 v7 (k0_pay38 v4 v7
    (k0_pay32 v4 v7 (k0_pay22 v4 v7 (k0_pay18 v4 v7 (k0_pay9 v4))) (k0_pay24 v4))) (k0_pay41 v4 v7))) (k0_pay55 v4 v7))))
    (k0_pay74 v4)

/-- The intersection partial sums after all sixteen groups but the last. -/
def accI (v3 v4 : Vec F S64x1024 .i32) : FVec F S64x64 .f32 :=
  let v7 : IVec S1x64x1 32 := k0_pay5
  k0_pay73 v3 v4 v7 (k0_pay63 v3 v4 v7 (k0_pay60 v3 v4 v7 (k0_pay51 v3 v4 v7 (k0_pay46 v3 v4 v7)
    (k0_pay47 v3 v4 v7 (k0_pay39 v3 v4 v7 (k0_pay28 v7 (k0_pay23 v3 v4 v7 (k0_pay14 v3 v4 v7 (k0_pay10 v3 v4) (k0_pay11 v3 v4))
      (k0_pay15 v3 v7) (k0_pay16 v4 v7)) (k0_pay24 v4) (k0_pay25 v3)) (k0_pay33 v3 v7) (k0_pay34 v4 v7))
      (k0_pay40 v3 v7) (k0_pay41 v4 v7))) (k0_pay52 v3 v7) (k0_pay53 v4 v7))) (k0_pay65 v4 v7) (k0_pay68 v3 v7)

/-- The intersection block after the point: what it held plus the tile's counts. -/
def blk4 (v3 v4 : Vec F S64x1024 .i32) (prev : Vec F S1x64x64 .f32) : FVec F S1x64x64 .f32 :=
  k0_pay78 k0_pay5 (accI v3 v4) (k0_pay74 v4) (k0_pay75 v3 k0_pay5) prev

/-- The first mask's area block after the point. -/
def blk5 (v3 : Vec F S64x1024 .i32) (prev : Vec F S1x64x1 .f32) : FVec F S1x64x1 .f32 :=
  k0_pay79 (accP v3) (k0_pay75 v3 k0_pay5) prev

/-- The second mask's area block after the point. -/
def blk6 (v4 : Vec F S64x1024 .i32) (prev : Vec F S1x64x1 .f32) : FVec F S1x64x1 .f32 :=
  k0_pay1 (accT v4) prev

end Cert.KernelIdeal.Chain

end
-- ==== Proof.KIValOut.lean ====
/-
  What the body leaves in its three output blocks, read as values: at a core's first point the blocks are reset to
  zero and gain the point's counts; at every other point they gain the point's counts over what they held. Each is the
  one covering store's payload, whose loads read whole buffers.
-/
import proofs.«163081_j81801947120084_2_alg».proof.Proof.FrKI.Frame
import proofs.«163081_j81801947120084_2_alg».proof.Proof.ChainKI
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Val

open Cert.KernelIdeal Cert.KernelIdeal.Gen Cert.KernelIdeal.Fr

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## A point that is not a core's first: each block gains the point's counts over what it held -/

theorem out_B_2 (c : Dev nD) (i : grid0.Coords) (a2 : Memref sig .tc .vmem S64x1024 .i32) (h2 : a2.IsWhole) (a3 : Memref sig .tc .vmem S64x1024 .i32) (h3 : a3.IsWhole) (a4 : Memref sig .tc .vmem S1x64x64 .f32) (h4 : a4.IsWhole) (a5 : Memref sig .tc .vmem S1x64x1 .f32) (h5 : a5.IsWhole) (a6 : Memref sig .tc .vmem S1x64x1 .f32) (h6 : a6.IsWhole) (hc : ¬cond0_0 i)
    (x0 x1 : Vec F S64x1024 .i32) (xo2 : Vec F S1x64x64 .f32) (xo3 xo4 : Vec F S1x64x1 .f32) :
    out0_B_2 c i a2 h2 a3 h3 a4 h4 a5 h5 a6 h6 hc x0 x1 xo2 xo3 xo4 = Chain.blk4 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, View.ld_unit_zero (S := S64x1024) hz2,
    View.ld_unit_zero (S := S1x64x64) hz3]
  rfl

theorem out_B_3 (c : Dev nD) (i : grid0.Coords) (a2 : Memref sig .tc .vmem S64x1024 .i32) (h2 : a2.IsWhole) (a3 : Memref sig .tc .vmem S64x1024 .i32) (h3 : a3.IsWhole) (a4 : Memref sig .tc .vmem S1x64x64 .f32) (h4 : a4.IsWhole) (a5 : Memref sig .tc .vmem S1x64x1 .f32) (h5 : a5.IsWhole) (a6 : Memref sig .tc .vmem S1x64x1 .f32) (h6 : a6.IsWhole) (hc : ¬cond0_0 i)
    (x0 x1 : Vec F S64x1024 .i32) (xo2 : Vec F S1x64x64 .f32) (xo3 xo4 : Vec F S1x64x1 .f32) :
    out0_B_3 c i a2 h2 a3 h3 a4 h4 a5 h5 a6 h6 hc x0 x1 xo2 xo3 xo4 = Chain.blk5 x0 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h5.read_unread, View.ld_unit_zero (S := S64x1024) hz2,
    View.ld_unit_zero (S := S1x64x1) hz3]
  rfl

theorem out_B_4 (c : Dev nD) (i : grid0.Coords) (a2 : Memref sig .tc .vmem S64x1024 .i32) (h2 : a2.IsWhole) (a3 : Memref sig .tc .vmem S64x1024 .i32) (h3 : a3.IsWhole) (a4 : Memref sig .tc .vmem S1x64x64 .f32) (h4 : a4.IsWhole) (a5 : Memref sig .tc .vmem S1x64x1 .f32) (h5 : a5.IsWhole) (a6 : Memref sig .tc .vmem S1x64x1 .f32) (h6 : a6.IsWhole) (hc : ¬cond0_0 i)
    (x0 x1 : Vec F S64x1024 .i32) (xo2 : Vec F S1x64x64 .f32) (xo3 xo4 : Vec F S1x64x1 .f32) :
    out0_B_4 c i a2 h2 a3 h3 a4 h4 a5 h5 a6 h6 hc x0 x1 xo2 xo3 xo4 = Chain.blk6 x1 xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h6.read_unread, View.ld_unit_zero (S := S64x1024) hz2,
    View.ld_unit_zero (S := S1x64x1) hz3]
  rfl

/-! ## A core's first point: each block is reset to zero, read back, and gains the point's counts -/

theorem out_A_2 (c : Dev nD) (i : grid0.Coords) (a2 : Memref sig .tc .vmem S64x1024 .i32) (h2 : a2.IsWhole) (a3 : Memref sig .tc .vmem S64x1024 .i32) (h3 : a3.IsWhole) (a4 : Memref sig .tc .vmem S1x64x64 .f32) (h4 : a4.IsWhole) (a5 : Memref sig .tc .vmem S1x64x1 .f32) (h5 : a5.IsWhole) (a6 : Memref sig .tc .vmem S1x64x1 .f32) (h6 : a6.IsWhole) (hc : cond0_0 i)
    (x0 x1 : Vec F S64x1024 .i32) :
    out0_A_2 c i a2 h2 a3 h3 a4 h4 a5 h5 a6 h6 hc x0 x1 = Chain.blk4 x0 x1 (k0_pay2 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x64x64) hz3, View.readCov_unit_zero (S := S1x64x64) _ hz3]
  simp only [View.readAt_eq_ld, h2.read_unread, h3.read_unread, View.ld_unit_zero (S := S64x1024) hz2]
  rfl

theorem out_A_3 (c : Dev nD) (i : grid0.Coords) (a2 : Memref sig .tc .vmem S64x1024 .i32) (h2 : a2.IsWhole) (a3 : Memref sig .tc .vmem S64x1024 .i32) (h3 : a3.IsWhole) (a4 : Memref sig .tc .vmem S1x64x64 .f32) (h4 : a4.IsWhole) (a5 : Memref sig .tc .vmem S1x64x1 .f32) (h5 : a5.IsWhole) (a6 : Memref sig .tc .vmem S1x64x1 .f32) (h6 : a6.IsWhole) (hc : cond0_0 i)
    (x0 x1 : Vec F S64x1024 .i32) :
    out0_A_3 c i a2 h2 a3 h3 a4 h4 a5 h5 a6 h6 hc x0 x1 = Chain.blk5 x0 (k0_pay3 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x64x1) hz3, View.readCov_unit_zero (S := S1x64x1) _ hz3]
  simp only [View.readAt_eq_ld, h2.read_unread, h3.read_unread, View.ld_unit_zero (S := S64x1024) hz2]
  rfl

theorem out_A_4 (c : Dev nD) (i : grid0.Coords) (a2 : Memref sig .tc .vmem S64x1024 .i32) (h2 : a2.IsWhole) (a3 : Memref sig .tc .vmem S64x1024 .i32) (h3 : a3.IsWhole) (a4 : Memref sig .tc .vmem S1x64x64 .f32) (h4 : a4.IsWhole) (a5 : Memref sig .tc .vmem S1x64x1 .f32) (h5 : a5.IsWhole) (a6 : Memref sig .tc .vmem S1x64x1 .f32) (h6 : a6.IsWhole) (hc : cond0_0 i)
    (x0 x1 : Vec F S64x1024 .i32) :
    out0_A_4 c i a2 h2 a3 h3 a4 h4 a5 h5 a6 h6 hc x0 x1 = Chain.blk6 x1 (k0_pay4 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x64x1) hz3, View.readCov_unit_zero (S := S1x64x1) _ hz3]
  simp only [View.readAt_eq_ld, h2.read_unread, h3.read_unread, View.ld_unit_zero (S := S64x1024) hz2]
  rfl

end Cert.KernelIdeal.Val

end
-- ==== Proof.TileInterLib.lean ====
/-
  The pieces of one group of four rows, each read at an index: the rows sliced from a tile, a four-row
  slab broadcast along the id axis, the id column broadcast, the equality mask turned into zeros and ones,
  and the merge of the slab's first two axes into 256 rows.
-/
import proofs.«163081_j81801947120084_2_alg».proof.Proof.ChainKI
import proofs.«163081_j81801947120084_2_alg».proof.Proof.TileDefs
import Idealize.ShloMosaic.Lib.ValueIdx
import Idealize.ShloMosaic.Lib.Pipeline.Value
import Idealize.ShloMosaic.PureOps.Ideal.Laws

noncomputable section

namespace Cert.KernelIdeal.TileInter

open Idealize.ShloMosaic Idealize.ShloMosaic.ValueIdx Cert.KernelIdeal Cert.KernelIdeal.Gen Cert.Tile

/-- Four rows sliced from a tile at row offset `o`: row `i` of the slice is row `o + i` of the tile. -/
theorem slice_rows_apply (o : ℕ) (ho : o + 4 ≤ 64) (v : S64x1024.Idx → BitVec 32) (h : S64x1024.Slices ![o, 0] S4x1024)
    (i : Fin 4) (w : Fin 1024) :
    extractStridedSlice S4x1024 ![o, 0] v h (ix2 i w) = v (ix2 (⟨o + i.val, by omega⟩ : Fin 64) w) := by
  refine extractStridedSlice_apply _ v h (ix2 i w) _ fun a => ?_
  match a with
  | ⟨0, _⟩ => rfl
  | ⟨1, _⟩ => exact (Nat.zero_add _).symm

/-- A four-row slab viewed as 4 x 1 x 1024 and broadcast along the middle axis reads the slab at (row, lane). -/
theorem bcast_rows_apply (x : S4x1024.Idx → BitVec 32) (h1 : S4x1024.ShapeCasts S4x1x1024)
    (h2 : S4x1x1024.Broadcasts S4x64x1024) (i : Fin 4) (k : Fin 64) (w : Fin 1024) :
    broadcastTo S4x64x1024 (shapeCast S4x1x1024 x h1) h2 (ix3 i k w) = x (ix2 i w) := by
  refine (broadcastTo_apply _ h2 (ix3 i k w) (ix3 i (0 : Fin 1) w) fun a => ?_).trans ?_
  · match a with
    | ⟨0, _⟩ => rfl
    | ⟨1, _⟩ => rfl
    | ⟨2, _⟩ => rfl
  · exact shapeCast_apply x h1 _ (ix2 i w) (by
      rw [Shape.rowMajor_val_two, Shape.rowMajor_val_three]
      show i.val * 1024 + w.val = (i.val * 1 + 0) * 1024 + w.val
      omega)

/-- The id column (position along the middle axis, plus one) broadcast to the slab's shape reads `k + 1`. -/
theorem ids_apply (h : S1x64x1.Broadcasts S4x64x1024) (i : Fin 4) (k : Fin 64) (w : Fin 1024) :
    broadcastTo S4x64x1024 k0_pay5 h (ix3 i k w) = BitVec.ofNat 32 (k.val + 1) := by
  refine (broadcastTo_apply _ h (ix3 i k w) (ix3 (0 : Fin 1) k (0 : Fin 1)) fun a => ?_).trans ?_
  · match a with
    | ⟨0, _⟩ => rfl
    | ⟨1, _⟩ => rfl
    | ⟨2, _⟩ => rfl
  · unfold k0_pay5
    show IntOp.addi (iota .tc S1x64x1 32 [1] _ (ix3 (0 : Fin 1) k (0 : Fin 1))) (1#32) = _
    rw [iota_single_apply]
    show BitVec.ofNat 32 k.val + BitVec.ofNat 32 1 = _
    rw [← BitVec.ofNat_add]

/-- A one-bit equality test widened to a word and read as a signed integer is one where the words agree, zero elsewhere. -/
theorem hot_scalar (a c : BitVec 32) :
    (FloatOps.sitofp (F := Ideal) .f32 ((IntOp.cmpi .eq a c).setWidth 32) : EReal) = if a = c then 1 else 0 := by
  show (((((IntOp.cmpi .eq a c).setWidth 32).toInt : ℤ) : ℝ) : EReal) = _
  by_cases hac : a = c
  · rw [if_pos hac]
    have h1 : IntOp.cmpi .eq a c = 1#1 := by simp [IntOp.cmpi, hac]
    rw [h1]
    simp
  · rw [if_neg hac]
    have h0 : IntOp.cmpi .eq a c = 0#1 := by
      have hb : (a == c) = false := beq_eq_false_iff_ne.mpr hac
      simp [IntOp.cmpi, hb]
    rw [h0]
    simp

end Cert.KernelIdeal.TileInter

end
-- ==== Proof.TileInterMat.lean ====
/-
  One group of four rows as a matrix product: the 256 x 1024 zero-one operands (row 64 i + k holds the
  indicator of id k + 1 on row i of the group), the product over the lanes of both operands, and its four
  diagonal 64 x 64 blocks, each of which counts one row's pixel pairs.
-/
import proofs.«163081_j81801947120084_2_alg».proof.Proof.TileInterLib

noncomputable section

namespace Cert.KernelIdeal.TileInter

open Idealize.ShloMosaic Idealize.ShloMosaic.ValueIdx Cert.KernelIdeal Cert.KernelIdeal.Gen Cert.Tile

/-- Merging the first two axes of a 4 x 64 x 1024 array: row `64 i + k` is slab `i`, id row `k`. -/
theorem merge_apply {α : Type} (f : S4x64x1024.Idx → α) (h : S4x64x1024.ShapeCasts S256x1024)
    (i : Fin 4) (k : Fin 64) (w : Fin 1024) :
    shapeCast S256x1024 f h (ix2 (⟨64 * i.val + k.val, by omega⟩ : Fin 256) w) = f (ix3 i k w) :=
  shapeCast_apply f h _ (ix3 i k w) (by
    rw [Shape.rowMajor_val_two, Shape.rowMajor_val_three]
    show (i.val * 64 + k.val) * 1024 + w.val = (64 * i.val + k.val) * 1024 + w.val
    omega)

/-- The product's left operand index keeps the output row. -/
theorem dot_lhs_0 (j : S256x256.Idx) (c : dot_S256x1024_S256x1024_S256x256_1_1_0_0_n_n.contr.Idx) :
    (dot_S256x1024_S256x1024_S256x256_1_1_0_0_n_n.lhsIdx j c 0).val = (j 0).val := by
  unfold DotDims.lhsIdx
  rw [dif_neg (show ¬(0 : Fin S256x1024.rank) ∈ dot_S256x1024_S256x1024_S256x256_1_1_0_0_n_n.lhsBatch by decide),
    dif_pos (show (0 : Fin S256x1024.rank) ∈ dot_S256x1024_S256x1024_S256x256_1_1_0_0_n_n.lhsNonContracting by decide)]
  rfl

/-- The product's right operand index takes the output column as its row. -/
theorem dot_rhs_0 (j : S256x256.Idx) (c : dot_S256x1024_S256x1024_S256x256_1_1_0_0_n_n.contr.Idx) :
    (dot_S256x1024_S256x1024_S256x256_1_1_0_0_n_n.rhsIdx j c 0).val = (j 1).val := by
  unfold DotDims.rhsIdx
  rw [dif_neg (show ¬(0 : Fin S256x1024.rank) ∈ dot_S256x1024_S256x1024_S256x256_1_1_0_0_n_n.rhsBatch by decide),
    dif_pos (show (0 : Fin S256x1024.rank) ∈ dot_S256x1024_S256x1024_S256x256_1_1_0_0_n_n.rhsNonContracting by decide)]
  rfl

/-- The product of two 256 x 1024 operands over the lanes of both, into zero: entry `(a, b)` is the sum over the
    lanes of the left operand's row `a` times the right operand's row `b`. -/
theorem matmul_apply_rows (P T : FVec Ideal S256x1024 .bf16) (a b : Fin 256) :
    matmul dot_S256x1024_S256x1024_S256x256_1_1_0_0_n_n none P T (constant S256x256 .f32 0x00000000#32) (ix2 a b)
      = ∑ w : Fin 1024, P (ix2 a w) * T (ix2 b w) := by
  simp only [matmul]
  rw [Ideal.matmul_constant_zero_apply,
    ← Equiv.sum_comp (contrEquiv1 dot_S256x1024_S256x1024_S256x256_1_1_0_0_n_n 1024 rfl rfl).symm]
  refine Finset.sum_congr rfl fun w _ => ?_
  have hw := contrEquiv1_symm_val dot_S256x1024_S256x1024_S256x256_1_1_0_0_n_n 1024 rfl rfl w
  have el : dot_S256x1024_S256x1024_S256x256_1_1_0_0_n_n.lhsIdx (ix2 a b)
      ((contrEquiv1 dot_S256x1024_S256x1024_S256x256_1_1_0_0_n_n 1024 rfl rfl).symm w) = ix2 a w :=
    funext fun c => Fin.ext (by
      match c with
      | ⟨0, _⟩ => exact dot_lhs_0 _ _
      | ⟨1, _⟩ => exact ((dot_S256x1024_S256x1024_S256x256_1_1_0_0_n_n).lhsIdx_val_of_single (cl := (1 : Fin 2)) rfl _ _).trans hw)
  have er : dot_S256x1024_S256x1024_S256x256_1_1_0_0_n_n.rhsIdx (ix2 a b)
      ((contrEquiv1 dot_S256x1024_S256x1024_S256x256_1_1_0_0_n_n 1024 rfl rfl).symm w) = ix2 b w :=
    funext fun c => Fin.ext (by
      match c with
      | ⟨0, _⟩ => exact dot_rhs_0 _ _
      | ⟨1, _⟩ => exact ((dot_S256x1024_S256x1024_S256x256_1_1_0_0_n_n).rhsIdx_val_of_single (cr := (1 : Fin 2)) rfl _ _).trans hw)
  rw [el, er]

/-- A diagonal 64 x 64 block of the product, at offset `c` on both axes. -/
theorem matmul_diag_apply (P T : FVec Ideal S256x1024 .bf16) (c : ℕ) (hc : c + 64 ≤ 256)
    (h : S256x256.Slices ![c, c] S64x64) (p q : Fin 64) :
    extractStridedSlice S64x64 ![c, c]
        (matmul dot_S256x1024_S256x1024_S256x256_1_1_0_0_n_n none P T (constant S256x256 .f32 0x00000000#32)) h (ix2 p q)
      = ∑ w : Fin 1024, P (ix2 (⟨c + p.val, by omega⟩ : Fin 256) w) * T (ix2 (⟨c + q.val, by omega⟩ : Fin 256) w) := by
  refine (extractStridedSlice_apply _ _ h (ix2 p q)
    (ix2 (⟨c + p.val, by omega⟩ : Fin 256) (⟨c + q.val, by omega⟩ : Fin 256)) fun a => ?_).trans (matmul_apply_rows P T _ _)
  match a with
  | ⟨0, _⟩ => rfl
  | ⟨1, _⟩ => rfl

end Cert.KernelIdeal.TileInter

end
-- ==== Proof.TileInterHot.lean ====
/-
  What the body's intermediate arrays of one group are, in terms of the tile: "the rows o .. o+3 of tile v" as a
  four-row slice, as that slice broadcast along the ids, as the equality mask against the ids, as the zero-one array
  of that mask, and as the 256-row zero-one operand of the product. A diagonal block of the product of two such
  operands counts, for one row of the tile pair, the lanes holding id p + 1 in the first tile and q + 1 in the second.
-/
import proofs.«163081_j81801947120084_2_alg».proof.Proof.TileInterMat

noncomputable section

namespace Cert.KernelIdeal.TileInter

open Idealize.ShloMosaic Idealize.ShloMosaic.ValueIdx Cert.KernelIdeal Cert.KernelIdeal.Gen Cert.Tile

/-- Row `o + i` of a 64-row tile (reduced below 64, so that no side condition is carried). -/
def rowOf (o : ℕ) (i : Fin 4) : Fin 64 := ⟨(o + i.val) % 64, Nat.mod_lt _ (by norm_num)⟩

/-- The pixel pairs of row `r` holding id `p + 1` in the first tile and id `q + 1` in the second. -/
def rowSum (v3 v4 : Vec Ideal S64x1024 .i32) (p q : Fin 64) (r : Fin 64) : EReal :=
  ∑ w : Fin 1024, hit (v3 (ix2 r w)) p * hit (v4 (ix2 r w)) q

/-- `xs` is rows `o .. o+3` of the tile. -/
def SliceAt (xs : IVec S4x1024 32) (v : Vec Ideal S64x1024 .i32) (o : ℕ) : Prop :=
  ∀ (i : Fin 4) (w : Fin 1024), xs (ix2 i w) = v (ix2 (rowOf o i) w)

/-- `b` is rows `o .. o+3` of the tile, repeated along the id axis. -/
def BcAt (b : IVec S4x64x1024 32) (v : Vec Ideal S64x1024 .i32) (o : ℕ) : Prop :=
  ∀ (i : Fin 4) (k : Fin 64) (w : Fin 1024), b (ix3 i k w) = v (ix2 (rowOf o i) w)

/-- `m` is the test "the pixel holds id `k + 1`" on rows `o .. o+3` of the tile. -/
def MaskAt (m : IVec S4x64x1024 1) (v : Vec Ideal S64x1024 .i32) (o : ℕ) : Prop :=
  ∀ (i : Fin 4) (k : Fin 64) (w : Fin 1024),
    m (ix3 i k w) = IntOp.cmpi .eq (v (ix2 (rowOf o i) w)) (BitVec.ofNat 32 (k.val + 1))

/-- `f` is the zero-one indicator of "the pixel holds id `k + 1`" on rows `o .. o+3` of the tile. -/
def HotAt (f : FVec Ideal S4x64x1024 .f32) (v : Vec Ideal S64x1024 .i32) (o : ℕ) : Prop :=
  ∀ (i : Fin 4) (k : Fin 64) (w : Fin 1024), f (ix3 i k w) = hit (v (ix2 (rowOf o i) w)) k

/-- `P` is that indicator with its first two axes merged: row `64 i + k` is tile row `o + i`, id `k + 1`. -/
def OpAt (P : FVec Ideal S256x1024 .bf16) (v : Vec Ideal S64x1024 .i32) (o : ℕ) : Prop :=
  ∀ (i : Fin 4) (k : Fin 64) (w : Fin 1024),
    P (ix2 (⟨64 * i.val + k.val, by omega⟩ : Fin 256) w) = hit (v (ix2 (rowOf o i) w)) k

variable {v : Vec Ideal S64x1024 .i32} {o : ℕ}

theorem sliceAt_tile (o : ℕ) (ho : o + 4 ≤ 64) (v : Vec Ideal S64x1024 .i32) (h : S64x1024.Slices ![o, 0] S4x1024) :
    SliceAt (extractStridedSlice S4x1024 ![o, 0] v h) v o := fun i w =>
  (slice_rows_apply o ho v h i w).trans
    (congrArg (fun r => v (ix2 r w)) (Fin.ext (Nat.mod_eq_of_lt (by have := i.isLt; omega)).symm))

theorem bcAt_of_slice {xs : IVec S4x1024 32} (hx : SliceAt xs v o) (h1 : S4x1024.ShapeCasts S4x1x1024)
    (h2 : S4x1x1024.Broadcasts S4x64x1024) :
    BcAt (broadcastTo S4x64x1024 (shapeCast S4x1x1024 xs h1) h2) v o := fun i k w =>
  (bcast_rows_apply xs h1 h2 i k w).trans (hx i w)

theorem maskAt_of_bc {b : IVec S4x64x1024 32} (hb : BcAt b v o) (h3 : S1x64x1.Broadcasts S4x64x1024) :
    MaskAt (cmpi .eq b (broadcastTo S4x64x1024 k0_pay5 h3)) v o := fun i k w => by
  show IntOp.cmpi .eq (b (ix3 i k w)) (broadcastTo S4x64x1024 k0_pay5 h3 (ix3 i k w)) = _
  rw [hb i k w, ids_apply h3 i k w]

theorem hotAt_of_mask {m : IVec S4x64x1024 1} (hm : MaskAt m v o) (hlt : 1 < 32) :
    HotAt (sitofp (F := Ideal) .f32 (extui 32 m hlt)) v o := fun i k w => by
  show FloatOps.sitofp (F := Ideal) .f32 ((m (ix3 i k w)).setWidth 32) = _
  rw [hm i k w, hot_scalar]
  rfl

theorem opAt_of_hot {f : FVec Ideal S4x64x1024 .f32} (hf : HotAt f v o) (hb : FTy.bits .bf16 < FTy.bits .f32)
    (hs : S4x64x1024.ShapeCasts S256x1024) :
    OpAt (shapeCast S256x1024 (truncf .bf16 f hb) hs) v o := fun i k w =>
  (merge_apply (truncf .bf16 f hb) hs i k w).trans (hf i k w)

/-- The operand built from a mask. -/
theorem opAt_of_mask {m : IVec S4x64x1024 1} (hm : MaskAt m v o) (hlt : 1 < 32) (hb : FTy.bits .bf16 < FTy.bits .f32)
    (hs : S4x64x1024.ShapeCasts S256x1024) :
    OpAt (shapeCast S256x1024 (truncf .bf16 (sitofp (F := Ideal) .f32 (extui 32 m hlt)) hb) hs) v o :=
  opAt_of_hot (hotAt_of_mask hm hlt) hb hs

/-- A diagonal block of the product of the operands of rows `o .. o+3` of two tiles counts the pixel pairs of one
    row: block `i` (offset `c = 64 i`) is row `o + i`. -/
theorem block_apply {v3 v4 : Vec Ideal S64x1024 .i32} {P T : FVec Ideal S256x1024 .bf16} (hP : OpAt P v3 o) (hT : OpAt T v4 o)
    (i : Fin 4) (c : ℕ) (hc : c = 64 * i.val) (h : S256x256.Slices ![c, c] S64x64) (p q : Fin 64) :
    extractStridedSlice S64x64 ![c, c]
        (matmul dot_S256x1024_S256x1024_S256x256_1_1_0_0_n_n none P T (constant S256x256 .f32 0x00000000#32)) h (ix2 p q)
      = rowSum v3 v4 p q (rowOf o i) := by
  subst hc
  rw [matmul_diag_apply P T _ (by have := i.isLt; omega) h p q]
  exact Finset.sum_congr rfl fun w _ => by rw [hP i p w, hT i q w]

/-! The masks the body computes from the tiles, one per group and tile. -/

theorem mask6 (v : Vec Ideal S64x1024 .i32) : MaskAt (k0_pay6 (F := Ideal) v) v 0 := by
  unfold k0_pay6
  exact maskAt_of_bc (bcAt_of_slice (sliceAt_tile 0 (by norm_num) v _) _ _) _

theorem mask7 (v : Vec Ideal S64x1024 .i32) : MaskAt (k0_pay7 (F := Ideal) v) v 0 := by
  unfold k0_pay7
  exact maskAt_of_bc (bcAt_of_slice (sliceAt_tile 0 (by norm_num) v _) _ _) _

theorem mask12 (v : Vec Ideal S64x1024 .i32) : MaskAt (k0_pay12 (F := Ideal) v k0_pay5) v 4 := by
  unfold k0_pay12
  exact maskAt_of_bc (bcAt_of_slice (sliceAt_tile 4 (by norm_num) v _) _ _) _

theorem mask13 (v : Vec Ideal S64x1024 .i32) : MaskAt (k0_pay13 (F := Ideal) v k0_pay5) v 4 := by
  unfold k0_pay13
  exact maskAt_of_bc (bcAt_of_slice (sliceAt_tile 4 (by norm_num) v _) _ _) _

theorem mask15 (v : Vec Ideal S64x1024 .i32) : MaskAt (k0_pay15 (F := Ideal) v k0_pay5) v 8 := by
  unfold k0_pay15
  exact maskAt_of_bc (bcAt_of_slice (sliceAt_tile 8 (by norm_num) v _) _ _) _

theorem mask16 (v : Vec Ideal S64x1024 .i32) : MaskAt (k0_pay16 (F := Ideal) v k0_pay5) v 8 := by
  unfold k0_pay16
  exact maskAt_of_bc (bcAt_of_slice (sliceAt_tile 8 (by norm_num) v _) _ _) _

theorem mask19 (v : Vec Ideal S64x1024 .i32) : MaskAt (k0_pay19 (F := Ideal) v k0_pay5) v 12 := by
  unfold k0_pay19
  exact maskAt_of_bc (bcAt_of_slice (sliceAt_tile 12 (by norm_num) v _) _ _) _

theorem mask20 (v : Vec Ideal S64x1024 .i32) : MaskAt (k0_pay20 (F := Ideal) v k0_pay5) v 12 := by
  unfold k0_pay20
  exact maskAt_of_bc (bcAt_of_slice (sliceAt_tile 12 (by norm_num) v _) _ _) _

theorem mask29 (v : Vec Ideal S64x1024 .i32) : MaskAt (k0_pay29 (F := Ideal) v k0_pay5) v 20 := by
  unfold k0_pay29
  exact maskAt_of_bc (bcAt_of_slice (sliceAt_tile 20 (by norm_num) v _) _ _) _

theorem mask30 (v : Vec Ideal S64x1024 .i32) : MaskAt (k0_pay30 (F := Ideal) v k0_pay5) v 20 := by
  unfold k0_pay30
  exact maskAt_of_bc (bcAt_of_slice (sliceAt_tile 20 (by norm_num) v _) _ _) _

theorem mask35 (v : Vec Ideal S64x1024 .i32) : MaskAt (k0_pay35 (F := Ideal) v k0_pay5) v 24 := by
  unfold k0_pay35
  exact maskAt_of_bc (bcAt_of_slice (sliceAt_tile 24 (by norm_num) v _) _ _) _

theorem mask36 (v : Vec Ideal S64x1024 .i32) : MaskAt (k0_pay36 (F := Ideal) v k0_pay5) v 24 := by
  unfold k0_pay36
  exact maskAt_of_bc (bcAt_of_slice (sliceAt_tile 24 (by norm_num) v _) _ _) _

theorem mask40 (v : Vec Ideal S64x1024 .i32) : MaskAt (k0_pay40 (F := Ideal) v k0_pay5) v 28 := by
  unfold k0_pay40
  exact maskAt_of_bc (bcAt_of_slice (sliceAt_tile 28 (by norm_num) v _) _ _) _

theorem mask41 (v : Vec Ideal S64x1024 .i32) : MaskAt (k0_pay41 (F := Ideal) v k0_pay5) v 28 := by
  unfold k0_pay41
  exact maskAt_of_bc (bcAt_of_slice (sliceAt_tile 28 (by norm_num) v _) _ _) _

theorem mask42 (v : Vec Ideal S64x1024 .i32) : MaskAt (k0_pay42 (F := Ideal) v k0_pay5) v 32 := by
  unfold k0_pay42
  exact maskAt_of_bc (bcAt_of_slice (sliceAt_tile 32 (by norm_num) v _) _ _) _

theorem mask43 (v : Vec Ideal S64x1024 .i32) : MaskAt (k0_pay43 (F := Ideal) v k0_pay5) v 32 := by
  unfold k0_pay43
  exact maskAt_of_bc (bcAt_of_slice (sliceAt_tile 32 (by norm_num) v _) _ _) _

theorem mask48 (v : Vec Ideal S64x1024 .i32) : MaskAt (k0_pay48 (F := Ideal) v k0_pay5) v 36 := by
  unfold k0_pay48
  exact maskAt_of_bc (bcAt_of_slice (sliceAt_tile 36 (by norm_num) v _) _ _) _

theorem mask49 (v : Vec Ideal S64x1024 .i32) : MaskAt (k0_pay49 (F := Ideal) v k0_pay5) v 36 := by
  unfold k0_pay49
  exact maskAt_of_bc (bcAt_of_slice (sliceAt_tile 36 (by norm_num) v _) _ _) _

theorem mask52 (v : Vec Ideal S64x1024 .i32) : MaskAt (k0_pay52 (F := Ideal) v k0_pay5) v 40 := by
  unfold k0_pay52
  exact maskAt_of_bc (bcAt_of_slice (sliceAt_tile 40 (by norm_num) v _) _ _) _

theorem mask53 (v : Vec Ideal S64x1024 .i32) : MaskAt (k0_pay53 (F := Ideal) v k0_pay5) v 40 := by
  unfold k0_pay53
  exact maskAt_of_bc (bcAt_of_slice (sliceAt_tile 40 (by norm_num) v _) _ _) _

theorem mask56 (v : Vec Ideal S64x1024 .i32) : MaskAt (k0_pay56 (F := Ideal) v k0_pay5) v 44 := by
  unfold k0_pay56
  exact maskAt_of_bc (bcAt_of_slice (sliceAt_tile 44 (by norm_num) v _) _ _) _

theorem mask57 (v : Vec Ideal S64x1024 .i32) : MaskAt (k0_pay57 (F := Ideal) v k0_pay5) v 44 := by
  unfold k0_pay57
  exact maskAt_of_bc (bcAt_of_slice (sliceAt_tile 44 (by norm_num) v _) _ _) _

theorem mask61 (v : Vec Ideal S64x1024 .i32) : MaskAt (k0_pay61 (F := Ideal) v k0_pay5) v 48 := by
  unfold k0_pay61
  exact maskAt_of_bc (bcAt_of_slice (sliceAt_tile 48 (by norm_num) v _) _ _) _

theorem mask62 (v : Vec Ideal S64x1024 .i32) : MaskAt (k0_pay62 (F := Ideal) v k0_pay5) v 48 := by
  unfold k0_pay62
  exact maskAt_of_bc (bcAt_of_slice (sliceAt_tile 48 (by norm_num) v _) _ _) _

theorem mask64 (v : Vec Ideal S64x1024 .i32) : MaskAt (k0_pay64 (F := Ideal) v k0_pay5) v 52 := by
  unfold k0_pay64
  exact maskAt_of_bc (bcAt_of_slice (sliceAt_tile 52 (by norm_num) v _) _ _) _

theorem mask65 (v : Vec Ideal S64x1024 .i32) : MaskAt (k0_pay65 (F := Ideal) v k0_pay5) v 52 := by
  unfold k0_pay65
  exact maskAt_of_bc (bcAt_of_slice (sliceAt_tile 52 (by norm_num) v _) _ _) _

theorem mask69 (v : Vec Ideal S64x1024 .i32) : MaskAt (k0_pay69 (F := Ideal) v k0_pay5) v 56 := by
  unfold k0_pay69
  exact maskAt_of_bc (bcAt_of_slice (sliceAt_tile 56 (by norm_num) v _) _ _) _

theorem mask70 (v : Vec Ideal S64x1024 .i32) : MaskAt (k0_pay70 (F := Ideal) v k0_pay5) v 56 := by
  unfold k0_pay70
  exact maskAt_of_bc (bcAt_of_slice (sliceAt_tile 56 (by norm_num) v _) _ _) _

theorem mask75 (v : Vec Ideal S64x1024 .i32) : MaskAt (k0_pay75 (F := Ideal) v k0_pay5) v 60 := by
  unfold k0_pay75
  exact maskAt_of_bc (bcAt_of_slice (sliceAt_tile 60 (by norm_num) v _) _ _) _

end Cert.KernelIdeal.TileInter

end
-- ==== Proof.TileInterA.lean ====
/-
  The running intersection counts through the first five groups of four rows (rows 0 .. 19).
-/
import proofs.«163081_j81801947120084_2_alg».proof.Proof.TileInterHot

noncomputable section

namespace Cert.KernelIdeal.TileInter

open Idealize.ShloMosaic Idealize.ShloMosaic.ValueIdx Cert.KernelIdeal Cert.KernelIdeal.Gen Cert.Tile

variable (v3 v4 : Vec Ideal S64x1024 .i32) (p q : Fin 64)

theorem pay11_apply :
    k0_pay11 (F := Ideal) v3 v4 (ix2 p q) = 0 + rowSum v3 v4 p q (rowOf 0 0) + rowSum v3 v4 p q (rowOf 0 1) + rowSum v3 v4 p q (rowOf 0 2) := by
  unfold k0_pay11 k0_pay10
  simp only [addf_apply, broadcast_apply]
  rw [block_apply (v3 := v3) (v4 := v4) (opAt_of_mask (mask6 v3) _ _ _) (opAt_of_mask (mask7 v4) _ _ _) 0 0 rfl _ p q,
    block_apply (v3 := v3) (v4 := v4) (opAt_of_mask (mask6 v3) _ _ _) (opAt_of_mask (mask7 v4) _ _ _) 1 64 rfl _ p q,
    block_apply (v3 := v3) (v4 := v4) (opAt_of_mask (mask6 v3) _ _ _) (opAt_of_mask (mask7 v4) _ _ _) 2 128 rfl _ p q]
  rw [show (FloatOps.ofBits (F := Ideal) .f32 0x00000000#32 : EReal) = 0 from Ideal.ofBits_zero_f32]

theorem pay14_apply (acc : FVec Ideal S64x64 .f32) :
    k0_pay14 (F := Ideal) v3 v4 k0_pay5 (k0_pay10 v3 v4) acc (ix2 p q)
      = acc (ix2 p q) + rowSum v3 v4 p q (rowOf 0 3) + rowSum v3 v4 p q (rowOf 4 0) + rowSum v3 v4 p q (rowOf 4 1) + rowSum v3 v4 p q (rowOf 4 2) + rowSum v3 v4 p q (rowOf 4 3) := by
  unfold k0_pay14 k0_pay10
  simp only [addf_apply]
  rw [block_apply (v3 := v3) (v4 := v4) (opAt_of_mask (mask6 v3) _ _ _) (opAt_of_mask (mask7 v4) _ _ _) 3 192 rfl _ p q,
    block_apply (v3 := v3) (v4 := v4) (opAt_of_mask (mask12 v3) _ _ _) (opAt_of_mask (mask13 v4) _ _ _) 0 0 rfl _ p q,
    block_apply (v3 := v3) (v4 := v4) (opAt_of_mask (mask12 v3) _ _ _) (opAt_of_mask (mask13 v4) _ _ _) 1 64 rfl _ p q,
    block_apply (v3 := v3) (v4 := v4) (opAt_of_mask (mask12 v3) _ _ _) (opAt_of_mask (mask13 v4) _ _ _) 2 128 rfl _ p q,
    block_apply (v3 := v3) (v4 := v4) (opAt_of_mask (mask12 v3) _ _ _) (opAt_of_mask (mask13 v4) _ _ _) 3 192 rfl _ p q]

theorem pay23_apply (acc : FVec Ideal S64x64 .f32) :
    k0_pay23 (F := Ideal) v3 v4 k0_pay5 acc (k0_pay15 v3 k0_pay5) (k0_pay16 v4 k0_pay5) (ix2 p q)
      = acc (ix2 p q) + rowSum v3 v4 p q (rowOf 8 0) + rowSum v3 v4 p q (rowOf 8 1) + rowSum v3 v4 p q (rowOf 8 2) + rowSum v3 v4 p q (rowOf 8 3) + rowSum v3 v4 p q (rowOf 12 0) + rowSum v3 v4 p q (rowOf 12 1) + rowSum v3 v4 p q (rowOf 12 2) + rowSum v3 v4 p q (rowOf 12 3) := by
  unfold k0_pay23
  simp only [addf_apply]
  rw [block_apply (v3 := v3) (v4 := v4) (opAt_of_mask (mask15 v3) _ _ _) (opAt_of_mask (mask16 v4) _ _ _) 0 0 rfl _ p q,
    block_apply (v3 := v3) (v4 := v4) (opAt_of_mask (mask15 v3) _ _ _) (opAt_of_mask (mask16 v4) _ _ _) 1 64 rfl _ p q,
    block_apply (v3 := v3) (v4 := v4) (opAt_of_mask (mask15 v3) _ _ _) (opAt_of_mask (mask16 v4) _ _ _) 2 128 rfl _ p q,
    block_apply (v3 := v3) (v4 := v4) (opAt_of_mask (mask15 v3) _ _ _) (opAt_of_mask (mask16 v4) _ _ _) 3 192 rfl _ p q,
    block_apply (v3 := v3) (v4 := v4) (opAt_of_mask (mask19 v3) _ _ _) (opAt_of_mask (mask20 v4) _ _ _) 0 0 rfl _ p q,
    block_apply (v3 := v3) (v4 := v4) (opAt_of_mask (mask19 v3) _ _ _) (opAt_of_mask (mask20 v4) _ _ _) 1 64 rfl _ p q,
    block_apply (v3 := v3) (v4 := v4) (opAt_of_mask (mask19 v3) _ _ _) (opAt_of_mask (mask20 v4) _ _ _) 2 128 rfl _ p q,
    block_apply (v3 := v3) (v4 := v4) (opAt_of_mask (mask19 v3) _ _ _) (opAt_of_mask (mask20 v4) _ _ _) 3 192 rfl _ p q]

/-- The second tile's rows 16 .. 19, as the body slices them. -/
theorem slice24 (v : Vec Ideal S64x1024 .i32) : SliceAt (k0_pay24 (F := Ideal) v) v 16 := by
  unfold k0_pay24
  exact sliceAt_tile 16 (by norm_num) v _

/-- The first tile's rows 16 .. 19 broadcast along the ids. -/
theorem bc25 (v : Vec Ideal S64x1024 .i32) : BcAt (k0_pay25 (F := Ideal) v) v 16 := by
  unfold k0_pay25
  exact bcAt_of_slice (sliceAt_tile 16 (by norm_num) v _) _ _

theorem mask26 (v : Vec Ideal S64x1024 .i32) : MaskAt (k0_pay26 k0_pay5 (k0_pay25 (F := Ideal) v)) v 16 := by
  unfold k0_pay26
  exact maskAt_of_bc (bc25 v) _

theorem mask27 (v : Vec Ideal S64x1024 .i32) : MaskAt (k0_pay27 k0_pay5 (k0_pay24 (F := Ideal) v)) v 16 := by
  unfold k0_pay27
  exact maskAt_of_bc (bcAt_of_slice (slice24 v) _ _) _

theorem pay28_apply (acc : FVec Ideal S64x64 .f32) :
    k0_pay28 (F := Ideal) k0_pay5 acc (k0_pay24 v4) (k0_pay25 v3) (ix2 p q)
      = acc (ix2 p q) + rowSum v3 v4 p q (rowOf 16 0) + rowSum v3 v4 p q (rowOf 16 1) + rowSum v3 v4 p q (rowOf 16 2) + rowSum v3 v4 p q (rowOf 16 3) := by
  unfold k0_pay28
  simp only [addf_apply]
  rw [block_apply (v3 := v3) (v4 := v4) (opAt_of_mask (mask26 v3) _ _ _) (opAt_of_mask (mask27 v4) _ _ _) 0 0 rfl _ p q,
    block_apply (v3 := v3) (v4 := v4) (opAt_of_mask (mask26 v3) _ _ _) (opAt_of_mask (mask27 v4) _ _ _) 1 64 rfl _ p q,
    block_apply (v3 := v3) (v4 := v4) (opAt_of_mask (mask26 v3) _ _ _) (opAt_of_mask (mask27 v4) _ _ _) 2 128 rfl _ p q,
    block_apply (v3 := v3) (v4 := v4) (opAt_of_mask (mask26 v3) _ _ _) (opAt_of_mask (mask27 v4) _ _ _) 3 192 rfl _ p q]

end Cert.KernelIdeal.TileInter

end
-- ==== Proof.TileInterB.lean ====
/-
  The running intersection counts through groups six to ten (rows 20 .. 39).
-/
import proofs.«163081_j81801947120084_2_alg».proof.Proof.TileInterHot

noncomputable section

namespace Cert.KernelIdeal.TileInter

open Idealize.ShloMosaic Idealize.ShloMosaic.ValueIdx Cert.KernelIdeal Cert.KernelIdeal.Gen Cert.Tile

variable (v3 v4 : Vec Ideal S64x1024 .i32) (p q : Fin 64)

/-- The first tile's operand of rows 20 .. 23. -/
theorem op33 (v : Vec Ideal S64x1024 .i32) : OpAt (k0_pay33 (F := Ideal) v k0_pay5) v 20 := by
  unfold k0_pay33
  exact opAt_of_mask (mask29 v) _ _ _

/-- The second tile's zero-one array of rows 20 .. 23. -/
theorem hot34 (v : Vec Ideal S64x1024 .i32) : HotAt (k0_pay34 (F := Ideal) v k0_pay5) v 20 := by
  unfold k0_pay34
  exact hotAt_of_mask (mask30 v) _

theorem pay39_apply (acc : FVec Ideal S64x64 .f32) :
    k0_pay39 (F := Ideal) v3 v4 k0_pay5 acc (k0_pay33 v3 k0_pay5) (k0_pay34 v4 k0_pay5) (ix2 p q)
      = acc (ix2 p q) + rowSum v3 v4 p q (rowOf 20 0) + rowSum v3 v4 p q (rowOf 20 1) + rowSum v3 v4 p q (rowOf 20 2) + rowSum v3 v4 p q (rowOf 20 3) + rowSum v3 v4 p q (rowOf 24 0) + rowSum v3 v4 p q (rowOf 24 1) + rowSum v3 v4 p q (rowOf 24 2) + rowSum v3 v4 p q (rowOf 24 3) := by
  unfold k0_pay39
  simp only [addf_apply]
  rw [block_apply (v3 := v3) (v4 := v4) (op33 v3) (opAt_of_hot (hot34 v4) _ _) 0 0 rfl _ p q,
    block_apply (v3 := v3) (v4 := v4) (op33 v3) (opAt_of_hot (hot34 v4) _ _) 1 64 rfl _ p q,
    block_apply (v3 := v3) (v4 := v4) (op33 v3) (opAt_of_hot (hot34 v4) _ _) 2 128 rfl _ p q,
    block_apply (v3 := v3) (v4 := v4) (op33 v3) (opAt_of_hot (hot34 v4) _ _) 3 192 rfl _ p q,
    block_apply (v3 := v3) (v4 := v4) (opAt_of_mask (mask35 v3) _ _ _) (opAt_of_mask (mask36 v4) _ _ _) 0 0 rfl _ p q,
    block_apply (v3 := v3) (v4 := v4) (opAt_of_mask (mask35 v3) _ _ _) (opAt_of_mask (mask36 v4) _ _ _) 1 64 rfl _ p q,
    block_apply (v3 := v3) (v4 := v4) (opAt_of_mask (mask35 v3) _ _ _) (opAt_of_mask (mask36 v4) _ _ _) 2 128 rfl _ p q,
    block_apply (v3 := v3) (v4 := v4) (opAt_of_mask (mask35 v3) _ _ _) (opAt_of_mask (mask36 v4) _ _ _) 3 192 rfl _ p q]

theorem pay47_apply (acc : FVec Ideal S64x64 .f32) :
    k0_pay47 (F := Ideal) v3 v4 k0_pay5 acc (k0_pay40 v3 k0_pay5) (k0_pay41 v4 k0_pay5) (ix2 p q)
      = acc (ix2 p q) + rowSum v3 v4 p q (rowOf 28 0) + rowSum v3 v4 p q (rowOf 28 1) + rowSum v3 v4 p q (rowOf 28 2) + rowSum v3 v4 p q (rowOf 28 3) + rowSum v3 v4 p q (rowOf 32 0) := by
  unfold k0_pay47 k0_pay46
  simp only [addf_apply]
  rw [block_apply (v3 := v3) (v4 := v4) (opAt_of_mask (mask40 v3) _ _ _) (opAt_of_mask (mask41 v4) _ _ _) 0 0 rfl _ p q,
    block_apply (v3 := v3) (v4 := v4) (opAt_of_mask (mask40 v3) _ _ _) (opAt_of_mask (mask41 v4) _ _ _) 1 64 rfl _ p q,
    block_apply (v3 := v3) (v4 := v4) (opAt_of_mask (mask40 v3) _ _ _) (opAt_of_mask (mask41 v4) _ _ _) 2 128 rfl _ p q,
    block_apply (v3 := v3) (v4 := v4) (opAt_of_mask (mask40 v3) _ _ _) (opAt_of_mask (mask41 v4) _ _ _) 3 192 rfl _ p q,
    block_apply (v3 := v3) (v4 := v4) (opAt_of_mask (mask42 v3) _ _ _) (opAt_of_mask (mask43 v4) _ _ _) 0 0 rfl _ p q]

theorem pay51_apply (acc : FVec Ideal S64x64 .f32) :
    k0_pay51 (F := Ideal) v3 v4 k0_pay5 (k0_pay46 v3 v4 k0_pay5) acc (ix2 p q)
      = acc (ix2 p q) + rowSum v3 v4 p q (rowOf 32 1) + rowSum v3 v4 p q (rowOf 32 2) + rowSum v3 v4 p q (rowOf 32 3) + rowSum v3 v4 p q (rowOf 36 0) + rowSum v3 v4 p q (rowOf 36 1) + rowSum v3 v4 p q (rowOf 36 2) + rowSum v3 v4 p q (rowOf 36 3) := by
  unfold k0_pay51 k0_pay46
  simp only [addf_apply]
  rw [block_apply (v3 := v3) (v4 := v4) (opAt_of_mask (mask42 v3) _ _ _) (opAt_of_mask (mask43 v4) _ _ _) 1 64 rfl _ p q,
    block_apply (v3 := v3) (v4 := v4) (opAt_of_mask (mask42 v3) _ _ _) (opAt_of_mask (mask43 v4) _ _ _) 2 128 rfl _ p q,
    block_apply (v3 := v3) (v4 := v4) (opAt_of_mask (mask42 v3) _ _ _) (opAt_of_mask (mask43 v4) _ _ _) 3 192 rfl _ p q,
    block_apply (v3 := v3) (v4 := v4) (opAt_of_mask (mask48 v3) _ _ _) (opAt_of_mask (mask49 v4) _ _ _) 0 0 rfl _ p q,
    block_apply (v3 := v3) (v4 := v4) (opAt_of_mask (mask48 v3) _ _ _) (opAt_of_mask (mask49 v4) _ _ _) 1 64 rfl _ p q,
    block_apply (v3 := v3) (v4 := v4) (opAt_of_mask (mask48 v3) _ _ _) (opAt_of_mask (mask49 v4) _ _ _) 2 128 rfl _ p q,
    block_apply (v3 := v3) (v4 := v4) (opAt_of_mask (mask48 v3) _ _ _) (opAt_of_mask (mask49 v4) _ _ _) 3 192 rfl _ p q]

end Cert.KernelIdeal.TileInter

end
-- ==== Proof.TileInterC.lean ====
/-
  The running intersection counts through the last six groups (rows 40 .. 63), and the block the body stores:
  what the block held plus the tile's counts.
-/
import proofs.«163081_j81801947120084_2_alg».proof.Proof.TileInterHot

noncomputable section

namespace Cert.KernelIdeal.TileInter

open Idealize.ShloMosaic Idealize.ShloMosaic.ValueIdx Cert.KernelIdeal Cert.KernelIdeal.Gen Cert.Tile

variable (v3 v4 : Vec Ideal S64x1024 .i32) (p q : Fin 64)

theorem pay60_apply (acc : FVec Ideal S64x64 .f32) :
    k0_pay60 (F := Ideal) v3 v4 k0_pay5 acc (k0_pay52 v3 k0_pay5) (k0_pay53 v4 k0_pay5) (ix2 p q)
      = acc (ix2 p q) + rowSum v3 v4 p q (rowOf 40 0) + rowSum v3 v4 p q (rowOf 40 1) + rowSum v3 v4 p q (rowOf 40 2) + rowSum v3 v4 p q (rowOf 40 3) + rowSum v3 v4 p q (rowOf 44 0) + rowSum v3 v4 p q (rowOf 44 1) + rowSum v3 v4 p q (rowOf 44 2) + rowSum v3 v4 p q (rowOf 44 3) := by
  unfold k0_pay60
  simp only [addf_apply]
  rw [block_apply (v3 := v3) (v4 := v4) (opAt_of_mask (mask52 v3) _ _ _) (opAt_of_mask (mask53 v4) _ _ _) 0 0 rfl _ p q,
    block_apply (v3 := v3) (v4 := v4) (opAt_of_mask (mask52 v3) _ _ _) (opAt_of_mask (mask53 v4) _ _ _) 1 64 rfl _ p q,
    block_apply (v3 := v3) (v4 := v4) (opAt_of_mask (mask52 v3) _ _ _) (opAt_of_mask (mask53 v4) _ _ _) 2 128 rfl _ p q,
    block_apply (v3 := v3) (v4 := v4) (opAt_of_mask (mask52 v3) _ _ _) (opAt_of_mask (mask53 v4) _ _ _) 3 192 rfl _ p q,
    block_apply (v3 := v3) (v4 := v4) (opAt_of_mask (mask56 v3) _ _ _) (opAt_of_mask (mask57 v4) _ _ _) 0 0 rfl _ p q,
    block_apply (v3 := v3) (v4 := v4) (opAt_of_mask (mask56 v3) _ _ _) (opAt_of_mask (mask57 v4) _ _ _) 1 64 rfl _ p q,
    block_apply (v3 := v3) (v4 := v4) (opAt_of_mask (mask56 v3) _ _ _) (opAt_of_mask (mask57 v4) _ _ _) 2 128 rfl _ p q,
    block_apply (v3 := v3) (v4 := v4) (opAt_of_mask (mask56 v3) _ _ _) (opAt_of_mask (mask57 v4) _ _ _) 3 192 rfl _ p q]

theorem pay63_apply (acc : FVec Ideal S64x64 .f32) :
    k0_pay63 (F := Ideal) v3 v4 k0_pay5 acc (ix2 p q)
      = acc (ix2 p q) + rowSum v3 v4 p q (rowOf 48 0) + rowSum v3 v4 p q (rowOf 48 1) + rowSum v3 v4 p q (rowOf 48 2) + rowSum v3 v4 p q (rowOf 48 3) := by
  unfold k0_pay63
  simp only [addf_apply]
  rw [block_apply (v3 := v3) (v4 := v4) (opAt_of_mask (mask61 v3) _ _ _) (opAt_of_mask (mask62 v4) _ _ _) 0 0 rfl _ p q,
    block_apply (v3 := v3) (v4 := v4) (opAt_of_mask (mask61 v3) _ _ _) (opAt_of_mask (mask62 v4) _ _ _) 1 64 rfl _ p q,
    block_apply (v3 := v3) (v4 := v4) (opAt_of_mask (mask61 v3) _ _ _) (opAt_of_mask (mask62 v4) _ _ _) 2 128 rfl _ p q,
    block_apply (v3 := v3) (v4 := v4) (opAt_of_mask (mask61 v3) _ _ _) (opAt_of_mask (mask62 v4) _ _ _) 3 192 rfl _ p q]

/-- The first tile's zero-one array of rows 52 .. 55. -/
theorem hot68 (v : Vec Ideal S64x1024 .i32) : HotAt (k0_pay68 (F := Ideal) v k0_pay5) v 52 := by
  unfold k0_pay68
  exact hotAt_of_mask (mask64 v) _

theorem pay73_apply (acc : FVec Ideal S64x64 .f32) :
    k0_pay73 (F := Ideal) v3 v4 k0_pay5 acc (k0_pay65 v4 k0_pay5) (k0_pay68 v3 k0_pay5) (ix2 p q)
      = acc (ix2 p q) + rowSum v3 v4 p q (rowOf 52 0) + rowSum v3 v4 p q (rowOf 52 1) + rowSum v3 v4 p q (rowOf 52 2) + rowSum v3 v4 p q (rowOf 52 3) + rowSum v3 v4 p q (rowOf 56 0) + rowSum v3 v4 p q (rowOf 56 1) + rowSum v3 v4 p q (rowOf 56 2) + rowSum v3 v4 p q (rowOf 56 3) := by
  unfold k0_pay73
  simp only [addf_apply]
  rw [block_apply (v3 := v3) (v4 := v4) (opAt_of_hot (hot68 v3) _ _) (opAt_of_mask (mask65 v4) _ _ _) 0 0 rfl _ p q,
    block_apply (v3 := v3) (v4 := v4) (opAt_of_hot (hot68 v3) _ _) (opAt_of_mask (mask65 v4) _ _ _) 1 64 rfl _ p q,
    block_apply (v3 := v3) (v4 := v4) (opAt_of_hot (hot68 v3) _ _) (opAt_of_mask (mask65 v4) _ _ _) 2 128 rfl _ p q,
    block_apply (v3 := v3) (v4 := v4) (opAt_of_hot (hot68 v3) _ _) (opAt_of_mask (mask65 v4) _ _ _) 3 192 rfl _ p q,
    block_apply (v3 := v3) (v4 := v4) (opAt_of_mask (mask69 v3) _ _ _) (opAt_of_mask (mask70 v4) _ _ _) 0 0 rfl _ p q,
    block_apply (v3 := v3) (v4 := v4) (opAt_of_mask (mask69 v3) _ _ _) (opAt_of_mask (mask70 v4) _ _ _) 1 64 rfl _ p q,
    block_apply (v3 := v3) (v4 := v4) (opAt_of_mask (mask69 v3) _ _ _) (opAt_of_mask (mask70 v4) _ _ _) 2 128 rfl _ p q,
    block_apply (v3 := v3) (v4 := v4) (opAt_of_mask (mask69 v3) _ _ _) (opAt_of_mask (mask70 v4) _ _ _) 3 192 rfl _ p q]

/-- The second tile's rows 60 .. 63, as the body slices them. -/
theorem slice74 (v : Vec Ideal S64x1024 .i32) : SliceAt (k0_pay74 (F := Ideal) v) v 60 := by
  unfold k0_pay74
  exact sliceAt_tile 60 (by norm_num) v _

theorem mask76 (v : Vec Ideal S64x1024 .i32) : MaskAt (k0_pay76 k0_pay5 (k0_pay74 (F := Ideal) v)) v 60 := by
  unfold k0_pay76
  exact maskAt_of_bc (bcAt_of_slice (slice74 v) _ _) _

/-- A 1 x 64 x 64 block viewed as 64 x 64. -/
theorem drop_lead_apply (x : Vec Ideal S1x64x64 .f32) (h : S1x64x64.ShapeCasts S64x64) :
    shapeCast S64x64 x h (ix2 p q) = x (ix3 (0 : Fin 1) p q) :=
  shapeCast_apply x h _ _ (by
    rw [Shape.rowMajor_val_two, Shape.rowMajor_val_three]
    show ((0 : Fin 1).val * 64 + p.val) * 64 + q.val = p.val * 64 + q.val
    simp)

/-- A 64 x 64 array viewed as a 1 x 64 x 64 block. -/
theorem add_lead_apply (x : FVec Ideal S64x64 .f32) (h : S64x64.ShapeCasts S1x64x64) :
    shapeCast S1x64x64 x h (ix3 (0 : Fin 1) p q) = x (ix2 p q) :=
  shapeCast_apply x h _ _ (by
    rw [Shape.rowMajor_val_two, Shape.rowMajor_val_three]
    show p.val * 64 + q.val = ((0 : Fin 1).val * 64 + p.val) * 64 + q.val
    simp)

theorem pay78_apply (acc : FVec Ideal S64x64 .f32) (prev : Vec Ideal S1x64x64 .f32) :
    k0_pay78 (F := Ideal) k0_pay5 acc (k0_pay74 v4) (k0_pay75 v3 k0_pay5) prev (ix3 (0 : Fin 1) p q)
      = prev (ix3 (0 : Fin 1) p q) + (acc (ix2 p q) + rowSum v3 v4 p q (rowOf 60 0) + rowSum v3 v4 p q (rowOf 60 1) + rowSum v3 v4 p q (rowOf 60 2) + rowSum v3 v4 p q (rowOf 60 3)) := by
  unfold k0_pay78
  rw [add_lead_apply]
  simp only [addf_apply]
  rw [drop_lead_apply,
    block_apply (v3 := v3) (v4 := v4) (opAt_of_mask (mask75 v3) _ _ _) (opAt_of_mask (mask76 v4) _ _ _) 0 0 rfl _ p q,
    block_apply (v3 := v3) (v4 := v4) (opAt_of_mask (mask75 v3) _ _ _) (opAt_of_mask (mask76 v4) _ _ _) 1 64 rfl _ p q,
    block_apply (v3 := v3) (v4 := v4) (opAt_of_mask (mask75 v3) _ _ _) (opAt_of_mask (mask76 v4) _ _ _) 2 128 rfl _ p q,
    block_apply (v3 := v3) (v4 := v4) (opAt_of_mask (mask75 v3) _ _ _) (opAt_of_mask (mask76 v4) _ _ _) 3 192 rfl _ p q]

end Cert.KernelIdeal.TileInter

end
-- ==== Proof.TileInter.lean ====
/-
  The intersection block of one grid point: the sixteen groups of four rows each add their four rows' pixel-pair
  counts to the running 64 x 64 array, in row order; the rows' counts add up to the tile's count, and the body
  stores what the block held plus that.
-/
import proofs.«163081_j81801947120084_2_alg».proof.Proof.TileInterA
import proofs.«163081_j81801947120084_2_alg».proof.Proof.TileInterB
import proofs.«163081_j81801947120084_2_alg».proof.Proof.TileInterC

noncomputable section

namespace Cert.KernelIdeal.TileInter

open Idealize.ShloMosaic Idealize.ShloMosaic.ValueIdx Cert.KernelIdeal Cert.KernelIdeal.Gen Cert.Tile

variable (v3 v4 : Vec Ideal S64x1024 .i32) (p q : Fin 64)

/-- The pixel-pair counts of the rows below `n`. -/
def S (n : ℕ) : EReal := ∑ r : Fin 64, if r.val < n then rowSum v3 v4 p q r else 0

theorem S_zero : S v3 v4 p q 0 = 0 := by
  unfold S
  exact Finset.sum_eq_zero fun r _ => if_neg (Nat.not_lt_zero _)

/-- Adding row `n` to the rows below `n` gives the rows below `n + 1`. -/
theorem S_step (o : ℕ) (i : Fin 4) (n m : ℕ) (hn : (rowOf o i).val = n) (hm : m = n + 1) :
    S v3 v4 p q n + rowSum v3 v4 p q (rowOf o i) = S v3 v4 p q m := by
  subst hm
  generalize rowOf o i = r at hn
  unfold S
  have key : ∀ x : Fin 64, (if x.val < n + 1 then rowSum v3 v4 p q x else 0)
      = (if x.val < n then rowSum v3 v4 p q x else 0) + (if x = r then rowSum v3 v4 p q x else 0) := by
    intro x
    by_cases h1 : x.val < n
    · have h2 : x ≠ r := fun h => by rw [h] at h1; omega
      rw [if_pos h1, if_pos (Nat.lt_succ_of_lt h1), if_neg h2, add_zero]
    · by_cases h2 : x = r
      · rw [if_neg h1, if_pos h2, if_pos (by rw [h2, hn]; exact Nat.lt_succ_self n), zero_add]
      · have h3 : ¬ x.val < n + 1 := fun h => h2 (Fin.ext (by omega))
        rw [if_neg h1, if_neg h2, if_neg h3, add_zero]
  rw [Finset.sum_congr rfl fun x _ => key x, Finset.sum_add_distrib, Finset.sum_ite_eq' Finset.univ r,
    if_pos (Finset.mem_univ r)]

/-- All sixty-four rows: the tile's count. -/
theorem S_full : S v3 v4 p q 64 = interSum v3 v4 p q := by
  unfold S interSum
  exact Finset.sum_congr rfl fun r _ => if_pos r.isLt

theorem accI_apply : Chain.accI (F := Ideal) v3 v4 (ix2 p q) = S v3 v4 p q 60 := by
  show k0_pay73 (F := Ideal) v3 v4 k0_pay5 (k0_pay63 v3 v4 k0_pay5 (k0_pay60 v3 v4 k0_pay5 (k0_pay51 v3 v4 k0_pay5 (k0_pay46 v3 v4 k0_pay5)
    (k0_pay47 v3 v4 k0_pay5 (k0_pay39 v3 v4 k0_pay5 (k0_pay28 k0_pay5 (k0_pay23 v3 v4 k0_pay5 (k0_pay14 v3 v4 k0_pay5 (k0_pay10 v3 v4) (k0_pay11 v3 v4))
      (k0_pay15 v3 k0_pay5) (k0_pay16 v4 k0_pay5)) (k0_pay24 v4) (k0_pay25 v3)) (k0_pay33 v3 k0_pay5) (k0_pay34 v4 k0_pay5))
      (k0_pay40 v3 k0_pay5) (k0_pay41 v4 k0_pay5))) (k0_pay52 v3 k0_pay5) (k0_pay53 v4 k0_pay5))) (k0_pay65 v4 k0_pay5) (k0_pay68 v3 k0_pay5) (ix2 p q) = _
  rw [pay73_apply, pay63_apply, pay60_apply, pay51_apply, pay47_apply, pay39_apply, pay28_apply, pay23_apply,
    pay14_apply, pay11_apply, ← S_zero v3 v4 p q]
  rw [S_step v3 v4 p q 0 0 0 1 rfl rfl,
    S_step v3 v4 p q 0 1 1 2 rfl rfl,
    S_step v3 v4 p q 0 2 2 3 rfl rfl,
    S_step v3 v4 p q 0 3 3 4 rfl rfl,
    S_step v3 v4 p q 4 0 4 5 rfl rfl,
    S_step v3 v4 p q 4 1 5 6 rfl rfl,
    S_step v3 v4 p q 4 2 6 7 rfl rfl,
    S_step v3 v4 p q 4 3 7 8 rfl rfl,
    S_step v3 v4 p q 8 0 8 9 rfl rfl,
    S_step v3 v4 p q 8 1 9 10 rfl rfl,
    S_step v3 v4 p q 8 2 10 11 rfl rfl,
    S_step v3 v4 p q 8 3 11 12 rfl rfl,
    S_step v3 v4 p q 12 0 12 13 rfl rfl,
    S_step v3 v4 p q 12 1 13 14 rfl rfl,
    S_step v3 v4 p q 12 2 14 15 rfl rfl,
    S_step v3 v4 p q 12 3 15 16 rfl rfl,
    S_step v3 v4 p q 16 0 16 17 rfl rfl,
    S_step v3 v4 p q 16 1 17 18 rfl rfl,
    S_step v3 v4 p q 16 2 18 19 rfl rfl,
    S_step v3 v4 p q 16 3 19 20 rfl rfl,
    S_step v3 v4 p q 20 0 20 21 rfl rfl,
    S_step v3 v4 p q 20 1 21 22 rfl rfl,
    S_step v3 v4 p q 20 2 22 23 rfl rfl,
    S_step v3 v4 p q 20 3 23 24 rfl rfl,
    S_step v3 v4 p q 24 0 24 25 rfl rfl,
    S_step v3 v4 p q 24 1 25 26 rfl rfl,
    S_step v3 v4 p q 24 2 26 27 rfl rfl,
    S_step v3 v4 p q 24 3 27 28 rfl rfl,
    S_step v3 v4 p q 28 0 28 29 rfl rfl,
    S_step v3 v4 p q 28 1 29 30 rfl rfl,
    S_step v3 v4 p q 28 2 30 31 rfl rfl,
    S_step v3 v4 p q 28 3 31 32 rfl rfl,
    S_step v3 v4 p q 32 0 32 33 rfl rfl,
    S_step v3 v4 p q 32 1 33 34 rfl rfl,
    S_step v3 v4 p q 32 2 34 35 rfl rfl,
    S_step v3 v4 p q 32 3 35 36 rfl rfl,
    S_step v3 v4 p q 36 0 36 37 rfl rfl,
    S_step v3 v4 p q 36 1 37 38 rfl rfl,
    S_step v3 v4 p q 36 2 38 39 rfl rfl,
    S_step v3 v4 p q 36 3 39 40 rfl rfl,
    S_step v3 v4 p q 40 0 40 41 rfl rfl,
    S_step v3 v4 p q 40 1 41 42 rfl rfl,
    S_step v3 v4 p q 40 2 42 43 rfl rfl,
    S_step v3 v4 p q 40 3 43 44 rfl rfl,
    S_step v3 v4 p q 44 0 44 45 rfl rfl,
    S_step v3 v4 p q 44 1 45 46 rfl rfl,
    S_step v3 v4 p q 44 2 46 47 rfl rfl,
    S_step v3 v4 p q 44 3 47 48 rfl rfl,
    S_step v3 v4 p q 48 0 48 49 rfl rfl,
    S_step v3 v4 p q 48 1 49 50 rfl rfl,
    S_step v3 v4 p q 48 2 50 51 rfl rfl,
    S_step v3 v4 p q 48 3 51 52 rfl rfl,
    S_step v3 v4 p q 52 0 52 53 rfl rfl,
    S_step v3 v4 p q 52 1 53 54 rfl rfl,
    S_step v3 v4 p q 52 2 54 55 rfl rfl,
    S_step v3 v4 p q 52 3 55 56 rfl rfl,
    S_step v3 v4 p q 56 0 56 57 rfl rfl,
    S_step v3 v4 p q 56 1 57 58 rfl rfl,
    S_step v3 v4 p q 56 2 58 59 rfl rfl,
    S_step v3 v4 p q 56 3 59 60 rfl rfl]

/-- The intersection block after the point, at (0, p, q): what it held there plus the number of pixels of the tile
    pair holding id `p + 1` in the first tile and id `q + 1` in the second. -/
theorem blk4_apply (prev : Vec Ideal S1x64x64 .f32) :
    Chain.blk4 (F := Ideal) v3 v4 prev (ix3 (0 : Fin 1) p q) = prev (ix3 (0 : Fin 1) p q) + interSum v3 v4 p q := by
  unfold Chain.blk4
  rw [pay78_apply, accI_apply]
  rw [S_step v3 v4 p q 60 0 60 61 rfl rfl,
    S_step v3 v4 p q 60 1 61 62 rfl rfl,
    S_step v3 v4 p q 60 2 62 63 rfl rfl,
    S_step v3 v4 p q 60 3 63 64 rfl rfl,
    S_full]

end Cert.KernelIdeal.TileInter

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.TileAreaLib.lean ====
/-
  Counting one id in a group of four rows. A group's 4 x 1024 words are compared with the ids 1 … 64 laid along the
  middle axis of a 4 x 64 x 1024 array, the one-bit results are turned into the reals 0 and 1, and the array is summed
  over its first and last axes: at id `k + 1` that is the number of the group's pixels holding it. The lemmas below read
  each of these steps at an index, and regroup a sum over 64 rows as sixteen sums over four rows.
-/
import proofs.«163081_j81801947120084_2_alg».proof.Proof.ChainKI
import proofs.«163081_j81801947120084_2_alg».proof.Proof.TileDefs
import proofs.«163081_j81801947120084_2_alg».proof.Proof.LibIndex

noncomputable section

namespace Cert.KernelIdeal.TileArea

open Idealize.ShloMosaic Idealize.ShloMosaic.ValueIdx Cert.KernelIdeal Cert.KernelIdeal.Gen Cert.Tile

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the first and last axes of a 4 x 64 x 1024 index leaves its middle coordinate. -/
theorem drop_02_eq_iff (h : S4x64x1024.Reduces [0, 2] S64) (i : Fin 4) (j k : Fin 64) (w : Fin 1024) :
    h.drop (ix3 i j w) = ix1 k ↔ j = k := by
  have h2 : ((h.drop (ix3 i j w) 0 : Fin 64) : ℕ) = j.val := h.drop_apply_val_of_eq (ix3 i j w) 0 1
  constructor
  · intro e
    rw [e] at h2
    exact Fin.ext h2.symm
  · rintro rfl
    funext b
    match b with
    | ⟨0, _⟩ => exact Fin.ext h2

/-- The sum over the first and last axes of a 4 x 64 x 1024 array of extended reals, read at `k`. -/
theorem reduceAdd_02_apply (h : S4x64x1024.Reduces [0, 2] S64) (x : S4x64x1024.Idx → EReal) (k : Fin 64) :
    Ideal.reduceAdd h x (ix1 k) = ∑ i : Fin 4, ∑ w : Fin 1024, x (ix3 i k w) := by
  unfold Ideal.reduceAdd
  rw [Finset.sum_filter, sum_idx3]
  refine Finset.sum_congr rfl fun i _ => ?_
  rw [Finset.sum_comm]
  refine Finset.sum_congr rfl fun w _ => ?_
  rw [Finset.sum_eq_single k (fun j _ hj => if_neg (mt (drop_02_eq_iff h i j k w).1 hj))
    (fun hk => absurd (Finset.mem_univ k) hk)]
  exact if_pos ((drop_02_eq_iff h i k k w).2 rfl)

/-- The real a one-bit word becomes when widened to 32 bits and read as a signed integer: 0 or 1. -/
def bit (b : BitVec 1) : EReal := (((b.setWidth 32).toInt : ℝ) : EReal)

/-- The bit of "the pixel word equals the id `k + 1`" is the indicator `hit`. -/
theorem bit_cmpi_eq (a : BitVec 32) (k : Fin 64) : bit (IntOp.cmpi .eq a (BitVec.ofNat 32 (k.val + 1))) = hit a k := by
  unfold bit hit IntOp.cmpi
  by_cases h : a = BitVec.ofNat 32 (k.val + 1)
  · rw [if_pos h]
    have : (a == BitVec.ofNat 32 (k.val + 1)) = true := by simp [h]
    simp only [this]
    show (((1 : ℤ) : ℝ) : EReal) = 1
    simp
  · rw [if_neg h]
    have : (a == BitVec.ofNat 32 (k.val + 1)) = false := by simp [h]
    simp only [this]
    show (((0 : ℤ) : ℝ) : EReal) = 0
    simp

/-- The ids laid along the middle axis: at `(0, k, 0)` the word `k + 1`. -/
theorem ids_apply (k : Fin 64) : (k0_pay5 : IVec S1x64x1 32) (ix3 (0 : Fin 1) k (0 : Fin 1)) = BitVec.ofNat 32 (k.val + 1) := by
  unfold k0_pay5
  show IntOp.addi (iota .tc S1x64x1 32 [1] _ (ix3 (0 : Fin 1) k (0 : Fin 1))) 1#32 = _
  rw [iota_single_apply]
  show BitVec.ofNat 32 k.val + 1#32 = _
  rw [BitVec.ofNat_add]

/-- A group of four rows from row `o` of a 64 x 1024 image, compared with ids laid along the middle axis of a
    4 x 64 x 1024 array, read at `(i, k, w)`: the comparison of the image's word at `(o + i, w)` with id `k`'s word. -/
theorem mask_apply (v : IVec S64x1024 32) (o : ℕ) (hs : S64x1024.Slices ![o, 0] S4x1024)
    (hc : S4x1024.ShapeCasts S4x1x1024) (hb1 : S4x1x1024.Broadcasts S4x64x1024) (hb2 : S1x64x1.Broadcasts S4x64x1024)
    (ids : IVec S1x64x1 32) (i : Fin 4) (k : Fin 64) (w : Fin 1024) (r : Fin 64) (hr : r.val = o + i.val) :
    cmpi .eq (broadcastTo S4x64x1024 (shapeCast S4x1x1024 (extractStridedSlice S4x1024 ![o, 0] v hs) hc) hb1)
        (broadcastTo S4x64x1024 ids hb2) (ix3 i k w)
      = IntOp.cmpi .eq (v (ix2 r w)) (ids (ix3 (0 : Fin 1) k (0 : Fin 1))) := by
  show IntOp.cmpi .eq (broadcastTo S4x64x1024 _ hb1 (ix3 i k w)) (broadcastTo S4x64x1024 ids hb2 (ix3 i k w)) = _
  have e1 : broadcastTo S4x64x1024 (shapeCast S4x1x1024 (extractStridedSlice S4x1024 ![o, 0] v hs) hc) hb1 (ix3 i k w)
      = v (ix2 r w) := by
    refine (broadcastTo_apply _ hb1 (ix3 i k w) (ix3 i (0 : Fin 1) w) fun ax => ?_).trans ?_
    · match ax with
      | ⟨0, _⟩ => rfl
      | ⟨1, _⟩ => rfl
      | ⟨2, _⟩ => rfl
    refine (shapeCast_apply _ hc (ix3 i (0 : Fin 1) w) (ix2 i w) ?_).trans ?_
    · rw [Shape.rowMajor_val_two, Shape.rowMajor_val_three]
      show i.val * 1024 + w.val = (i.val * 1 + 0) * 1024 + w.val
      omega
    exact slice2_axis0_apply o v hs i w r hr
  have e2 : broadcastTo S4x64x1024 ids hb2 (ix3 i k w) = ids (ix3 (0 : Fin 1) k (0 : Fin 1)) := by
    refine broadcastTo_apply _ hb2 (ix3 i k w) (ix3 (0 : Fin 1) k (0 : Fin 1)) fun ax => ?_
    match ax with
    | ⟨0, _⟩ => rfl
    | ⟨1, _⟩ => rfl
    | ⟨2, _⟩ => rfl
  rw [e1, e2]

/-- One group's contribution: the one-bit array widened, converted and summed over its first and last axes, read at
    `k`, is the sum of the bits' reals over the group's rows and columns. -/
theorem contrib_apply (m : IVec S4x64x1024 1) (hlt : 1 < 32) (hr : S4x64x1024.Reduces [0, 2] S64)
    (hφ : FKind.Formats .f32) (hacc : (0x00000000#32 : BitVec 32) = FKind.add.neutral .f32 hφ) (k : Fin 64) :
    multiReduction (F := Ideal) .add [0, 2] S64 (sitofp .f32 (extui 32 m hlt)) 0x00000000#32 hr hφ hacc (ix1 k)
      = ∑ i : Fin 4, ∑ w : Fin 1024, bit (m (ix3 i k w)) :=
  reduceAdd_02_apply hr _ k

/-- Row `i` of the group of four rows number `g`. -/
def row (g : ℕ) (i : Fin 4) : Fin 64 := ⟨(4 * g + i.val) % 64, Nat.mod_lt _ (by decide)⟩

/-- The pixels of group `g` of a 64-row tile holding id `k + 1`. -/
def grp (v : IVec S64x1024 32) (g : ℕ) (k : Fin 64) : EReal :=
  ∑ i : Fin 4, ∑ w : Fin 1024, hit (v (ix2 (row g i) w)) k

/-- A group's contribution when its one-bit array is the comparison of the group's rows with the ids. -/
theorem contrib_grp (v : IVec S64x1024 32) (g : ℕ) (m : IVec S4x64x1024 1) (hlt : 1 < 32)
    (hr : S4x64x1024.Reduces [0, 2] S64) (hφ : FKind.Formats .f32)
    (hacc : (0x00000000#32 : BitVec 32) = FKind.add.neutral .f32 hφ) (k : Fin 64)
    (hm : ∀ (i : Fin 4) (w : Fin 1024), m (ix3 i k w) = IntOp.cmpi .eq (v (ix2 (row g i) w)) (BitVec.ofNat 32 (k.val + 1))) :
    multiReduction (F := Ideal) .add [0, 2] S64 (sitofp .f32 (extui 32 m hlt)) 0x00000000#32 hr hφ hacc (ix1 k)
      = grp v g k := by
  rw [contrib_apply]
  unfold grp
  refine Finset.sum_congr rfl fun i _ => Finset.sum_congr rfl fun w _ => ?_
  rw [hm i w, bit_cmpi_eq]

/-- Sixty-four rows are sixteen groups of four: the tile's count is the sum of its groups' counts. -/
theorem sum_grp (v : IVec S64x1024 32) (k : Fin 64) : ∑ g ∈ Finset.range 16, grp v g k = areaSum v k := by
  unfold areaSum
  rw [← Fin.sum_univ_eq_sum_range (fun g => grp v g k) 16]
  rw [← Equiv.sum_comp (finProdFinEquiv (m := 16) (n := 4)) (fun r : Fin 64 => ∑ w : Fin 1024, hit (v (ix2 r w)) k),
    Fintype.sum_prod_type]
  refine Finset.sum_congr rfl fun g _ => ?_
  unfold grp
  refine Finset.sum_congr rfl fun i _ => ?_
  have : row g.val i = finProdFinEquiv (g, i) := Fin.ext (by
    show (4 * g.val + i.val) % 64 = i.val + 4 * g.val
    have := g.isLt; have := i.isLt; omega)
  rw [this]

/-- The comparison of group `g`'s rows (the four rows from row `o = 4 g`) with the ids 1 … 64, read at `(i, k, w)`. -/
theorem mask_ids_apply (v : IVec S64x1024 32) (o : ℕ) (hs : S64x1024.Slices ![o, 0] S4x1024)
    (hc : S4x1024.ShapeCasts S4x1x1024) (hb1 : S4x1x1024.Broadcasts S4x64x1024) (hb2 : S1x64x1.Broadcasts S4x64x1024)
    (g : ℕ) (hg : 4 * g = o) (hlt : g < 16) (i : Fin 4) (k : Fin 64) (w : Fin 1024) :
    cmpi .eq (broadcastTo S4x64x1024 (shapeCast S4x1x1024 (extractStridedSlice S4x1024 ![o, 0] v hs) hc) hb1)
        (broadcastTo S4x64x1024 k0_pay5 hb2) (ix3 i k w)
      = IntOp.cmpi .eq (v (ix2 (row g i) w)) (BitVec.ofNat 32 (k.val + 1)) :=
  (mask_apply v o hs hc hb1 hb2 k0_pay5 i k w (row g i) (by
    show (4 * g + i.val) % 64 = o + i.val
    have := i.isLt; omega)).trans (congrArg (IntOp.cmpi .eq (v (ix2 (row g i) w))) (ids_apply k))

/-- Adding one group's contribution to a running vector of partial counts, read at `k`. -/
theorem step_apply (acc : FVec Ideal S64 .f32) (m : IVec S4x64x1024 1) (hlt : 1 < 32)
    (hr : S4x64x1024.Reduces [0, 2] S64) (hφ : FKind.Formats .f32)
    (hacc : (0x00000000#32 : BitVec 32) = FKind.add.neutral .f32 hφ) (k : Fin 64) (v : IVec S64x1024 32) (g : ℕ)
    (hm : ∀ (i : Fin 4) (w : Fin 1024), m (ix3 i k w) = IntOp.cmpi .eq (v (ix2 (row g i) w)) (BitVec.ofNat 32 (k.val + 1))) :
    addf acc (multiReduction (F := Ideal) .add [0, 2] S64 (sitofp .f32 (extui 32 m hlt)) 0x00000000#32 hr hφ hacc) (ix1 k)
      = acc (ix1 k) + grp v g k :=
  (addf_apply _ _ _).trans (congrArg (acc (ix1 k) + ·) (contrib_grp v g m hlt hr hφ hacc k hm))

/-- The running vector starts from the zero word's real, which is 0. -/
theorem zero_apply (k : Fin 64) :
    (broadcast S64 (Scalar.ofBits (F := Ideal) .f32 0x00000000#32) : FVec Ideal S64 .f32) (ix1 k) = 0 :=
  Ideal.ofBits_zero_f32

end Cert.KernelIdeal.TileArea

end
-- ==== Proof.TileArea.lean ====
/-
  The two area blocks. Each of the sixteen groups of four rows of a 64 x 1024 tile adds, at id `k + 1`, the number of
  its pixels holding that id to a running vector that starts at zero; the block then holds what it held plus the
  vector. Sixteen groups of four rows are the tile's sixty-four rows, so the block gains the tile's count of the id.
-/
import proofs.«163081_j81801947120084_2_alg».proof.Proof.TileAreaLib

noncomputable section

namespace Cert.KernelIdeal.TileArea

open Idealize.ShloMosaic Idealize.ShloMosaic.ValueIdx Cert.KernelIdeal Cert.KernelIdeal.Gen Cert.Tile

variable (v3 v4 : Vec Ideal S64x1024 .i32) (acc : FVec Ideal S64 .f32) (k : Fin 64)

/-! ## The first mask: each stretch of the body adds its groups' counts -/

theorem p8_apply : k0_pay8 (F := Ideal) v3 (ix1 k) = 0 + grp v3 0 k := by
  refine (step_apply _ _ _ _ _ _ k v3 0 ?_).trans (congrArg (· + grp v3 0 k) (zero_apply k))
  exact fun i w => mask_ids_apply v3 0 _ _ _ _ 0 rfl (by decide) i k w

theorem p17_apply : k0_pay17 (F := Ideal) v3 k0_pay5 acc (ix1 k) = acc (ix1 k) + grp v3 1 k + grp v3 2 k := by
  refine (step_apply _ _ _ _ _ _ k v3 2 ?_).trans (congrArg (· + grp v3 2 k) (step_apply _ _ _ _ _ _ k v3 1 ?_))
  · exact fun i w => mask_ids_apply v3 8 _ _ _ _ 2 rfl (by decide) i k w
  · exact fun i w => mask_ids_apply v3 4 _ _ _ _ 1 rfl (by decide) i k w

theorem p21_apply : k0_pay21 (F := Ideal) v3 k0_pay5 acc (ix1 k) = acc (ix1 k) + grp v3 3 k := by
  refine step_apply _ _ _ _ _ _ k v3 3 ?_
  exact fun i w => mask_ids_apply v3 12 _ _ _ _ 3 rfl (by decide) i k w

theorem p31_apply :
    k0_pay31 (F := Ideal) v3 k0_pay5 acc (k0_pay25 v3) (ix1 k) = acc (ix1 k) + grp v3 4 k + grp v3 5 k := by
  refine (step_apply _ _ _ _ _ _ k v3 5 ?_).trans (congrArg (· + grp v3 5 k) (step_apply _ _ _ _ _ _ k v3 4 ?_))
  · exact fun i w => mask_ids_apply v3 20 _ _ _ _ 5 rfl (by decide) i k w
  · exact fun i w => mask_ids_apply v3 16 _ _ broadcasts_S4x1x1024_S4x64x1024 _ 4 rfl (by decide) i k w

theorem p37_apply : k0_pay37 (F := Ideal) v3 k0_pay5 acc (ix1 k) = acc (ix1 k) + grp v3 6 k := by
  refine step_apply _ _ _ _ _ _ k v3 6 ?_
  exact fun i w => mask_ids_apply v3 24 _ _ _ _ 6 rfl (by decide) i k w

theorem p44_apply :
    k0_pay44 (F := Ideal) v3 k0_pay5 acc (k0_pay40 v3 k0_pay5) (ix1 k) = acc (ix1 k) + grp v3 7 k + grp v3 8 k := by
  refine (step_apply _ _ _ _ _ _ k v3 8 ?_).trans (congrArg (· + grp v3 8 k) (step_apply _ _ _ _ _ _ k v3 7 ?_))
  · exact fun i w => mask_ids_apply v3 32 _ _ _ _ 8 rfl (by decide) i k w
  · exact fun i w => mask_ids_apply v3 28 _ _ _ _ 7 rfl (by decide) i k w

theorem p54_apply : k0_pay54 (F := Ideal) v3 k0_pay5 acc (ix1 k) = acc (ix1 k) + grp v3 9 k + grp v3 10 k := by
  refine (step_apply _ _ _ _ _ _ k v3 10 ?_).trans (congrArg (· + grp v3 10 k) (step_apply _ _ _ _ _ _ k v3 9 ?_))
  · exact fun i w => mask_ids_apply v3 40 _ _ _ _ 10 rfl (by decide) i k w
  · exact fun i w => mask_ids_apply v3 36 _ _ _ _ 9 rfl (by decide) i k w

theorem p58_apply : k0_pay58 (F := Ideal) v3 k0_pay5 acc (ix1 k) = acc (ix1 k) + grp v3 11 k := by
  refine step_apply _ _ _ _ _ _ k v3 11 ?_
  exact fun i w => mask_ids_apply v3 44 _ _ _ _ 11 rfl (by decide) i k w

theorem p66_apply : k0_pay66 (F := Ideal) v3 k0_pay5 acc (ix1 k) = acc (ix1 k) + grp v3 12 k + grp v3 13 k := by
  refine (step_apply _ _ _ _ _ _ k v3 13 ?_).trans (congrArg (· + grp v3 13 k) (step_apply _ _ _ _ _ _ k v3 12 ?_))
  · exact fun i w => mask_ids_apply v3 52 _ _ _ _ 13 rfl (by decide) i k w
  · exact fun i w => mask_ids_apply v3 48 _ _ _ _ 12 rfl (by decide) i k w

theorem p71_apply : k0_pay71 (F := Ideal) v3 k0_pay5 acc (ix1 k) = acc (ix1 k) + grp v3 14 k := by
  refine step_apply _ _ _ _ _ _ k v3 14 ?_
  exact fun i w => mask_ids_apply v3 56 _ _ _ _ 14 rfl (by decide) i k w

/-- After fifteen groups the running vector holds the first fifteen groups' counts. -/
theorem accP_apply : Chain.accP (F := Ideal) v3 (ix1 k) = ∑ g ∈ Finset.range 15, grp v3 g k := by
  simp only [Finset.sum_range_succ, Finset.sum_range_zero]
  dsimp only [Chain.accP]
  rw [p71_apply, p66_apply, p58_apply, p54_apply, p44_apply, p37_apply, p31_apply, p21_apply, p17_apply, p8_apply]

/-- A block that held `prev` and gains a vector `x` of counts, read at `(0, k, 0)`. -/
theorem gain_apply (prev : Vec Ideal S1x64x1 .f32) (x : FVec Ideal S64 .f32)
    (h1 : S1x64x1.ShapeCasts S64x1) (h2 : S64.ShapeCasts S64x1) (h3 : S64x1.ShapeCasts S1x64x1) :
    shapeCast S1x64x1 (addf (shapeCast S64x1 prev h1) (shapeCast S64x1 x h2)) h3 (ix3 (0 : Fin 1) k (0 : Fin 1))
      = prev (ix3 (0 : Fin 1) k (0 : Fin 1)) + x (ix1 k) :=
  (shapeCast_ab_1ab_apply _ h3 (0 : Fin 1) k (0 : Fin 1)).trans
    ((addf_apply _ _ _).trans
      (congrArg₂ (· + ·) (shapeCast_1ab_ab_apply prev h1 k (0 : Fin 1))
        (LayoutLib.shapeCast_col_apply x h2 k (0 : Fin 1))))

/-- The first mask's area block gains the tile's count of id `k + 1`. -/
theorem blk5_apply (prev : Vec Ideal S1x64x1 .f32) :
    Chain.blk5 (F := Ideal) v3 prev (ix3 (0 : Fin 1) k (0 : Fin 1)) = prev (ix3 (0 : Fin 1) k (0 : Fin 1)) + areaSum v3 k := by
  refine (gain_apply k prev _ _ _ _).trans (congrArg (prev (ix3 (0 : Fin 1) k (0 : Fin 1)) + ·) ?_)
  refine (step_apply _ _ _ _ _ _ k v3 15 ?_).trans ?_
  · exact fun i w => mask_ids_apply v3 60 _ _ _ _ 15 rfl (by decide) i k w
  rw [accP_apply, ← sum_grp v3 k, Finset.sum_range_succ (fun g => grp v3 g k) 15]

/-! ## The second mask, likewise -/

theorem t9_apply : k0_pay9 (F := Ideal) v4 (ix1 k) = 0 + grp v4 0 k := by
  refine (step_apply _ _ _ _ _ _ k v4 0 ?_).trans (congrArg (· + grp v4 0 k) (zero_apply k))
  exact fun i w => mask_ids_apply v4 0 _ _ _ _ 0 rfl (by decide) i k w

theorem t18_apply : k0_pay18 (F := Ideal) v4 k0_pay5 acc (ix1 k) = acc (ix1 k) + grp v4 1 k + grp v4 2 k := by
  refine (step_apply _ _ _ _ _ _ k v4 2 ?_).trans (congrArg (· + grp v4 2 k) (step_apply _ _ _ _ _ _ k v4 1 ?_))
  · exact fun i w => mask_ids_apply v4 8 _ _ _ _ 2 rfl (by decide) i k w
  · exact fun i w => mask_ids_apply v4 4 _ _ _ _ 1 rfl (by decide) i k w

theorem t22_apply : k0_pay22 (F := Ideal) v4 k0_pay5 acc (ix1 k) = acc (ix1 k) + grp v4 3 k := by
  refine step_apply _ _ _ _ _ _ k v4 3 ?_
  exact fun i w => mask_ids_apply v4 12 _ _ _ _ 3 rfl (by decide) i k w

theorem t32_apply :
    k0_pay32 (F := Ideal) v4 k0_pay5 acc (k0_pay24 v4) (ix1 k) = acc (ix1 k) + grp v4 4 k + grp v4 5 k := by
  refine (step_apply _ _ _ _ _ _ k v4 5 ?_).trans (congrArg (· + grp v4 5 k) (step_apply _ _ _ _ _ _ k v4 4 ?_))
  · exact fun i w => mask_ids_apply v4 20 _ _ _ _ 5 rfl (by decide) i k w
  · exact fun i w => mask_ids_apply v4 16 slices_S64x1024_o16_0_S4x1024 _ _ _ 4 rfl (by decide) i k w

theorem t38_apply : k0_pay38 (F := Ideal) v4 k0_pay5 acc (ix1 k) = acc (ix1 k) + grp v4 6 k := by
  refine step_apply _ _ _ _ _ _ k v4 6 ?_
  exact fun i w => mask_ids_apply v4 24 _ _ _ _ 6 rfl (by decide) i k w

theorem t45_apply :
    k0_pay45 (F := Ideal) v4 k0_pay5 acc (k0_pay41 v4 k0_pay5) (ix1 k) = acc (ix1 k) + grp v4 7 k + grp v4 8 k := by
  refine (step_apply _ _ _ _ _ _ k v4 8 ?_).trans (congrArg (· + grp v4 8 k) (step_apply _ _ _ _ _ _ k v4 7 ?_))
  · exact fun i w => mask_ids_apply v4 32 _ _ _ _ 8 rfl (by decide) i k w
  · exact fun i w => mask_ids_apply v4 28 _ _ _ _ 7 rfl (by decide) i k w

theorem t50_apply : k0_pay50 (F := Ideal) v4 k0_pay5 acc (ix1 k) = acc (ix1 k) + grp v4 9 k := by
  refine step_apply _ _ _ _ _ _ k v4 9 ?_
  exact fun i w => mask_ids_apply v4 36 _ _ _ _ 9 rfl (by decide) i k w

theorem t59_apply :
    k0_pay59 (F := Ideal) v4 k0_pay5 acc (k0_pay55 v4 k0_pay5) (ix1 k) = acc (ix1 k) + grp v4 10 k + grp v4 11 k := by
  refine (step_apply _ _ _ _ _ _ k v4 11 ?_).trans (congrArg (· + grp v4 11 k) (step_apply _ (k0_pay53 v4 k0_pay5) natLt_1_32 _ _ _ k v4 10 ?_))
  · exact fun i w => mask_ids_apply v4 44 _ _ _ _ 11 rfl (by decide) i k w
  · exact fun i w => mask_ids_apply v4 40 _ _ _ _ 10 rfl (by decide) i k w

theorem t67_apply : k0_pay67 (F := Ideal) v4 k0_pay5 acc (ix1 k) = acc (ix1 k) + grp v4 12 k + grp v4 13 k := by
  refine (step_apply _ _ _ _ _ _ k v4 13 ?_).trans (congrArg (· + grp v4 13 k) (step_apply _ _ _ _ _ _ k v4 12 ?_))
  · exact fun i w => mask_ids_apply v4 52 _ _ _ _ 13 rfl (by decide) i k w
  · exact fun i w => mask_ids_apply v4 48 _ _ _ _ 12 rfl (by decide) i k w

theorem t72_apply : k0_pay72 (F := Ideal) v4 k0_pay5 acc (ix1 k) = acc (ix1 k) + grp v4 14 k := by
  refine step_apply _ _ _ _ _ _ k v4 14 ?_
  exact fun i w => mask_ids_apply v4 56 _ _ _ _ 14 rfl (by decide) i k w

theorem t77_apply : k0_pay77 (F := Ideal) k0_pay5 acc (k0_pay74 v4) (ix1 k) = acc (ix1 k) + grp v4 15 k := by
  refine step_apply _ _ _ _ _ _ k v4 15 ?_
  exact fun i w => mask_ids_apply v4 60 slices_S64x1024_o60_0_S4x1024 _ _ _ 15 rfl (by decide) i k w

/-- After sixteen groups the running vector holds the tile's counts. -/
theorem accT_apply : Chain.accT (F := Ideal) v4 (ix1 k) = areaSum v4 k := by
  rw [← sum_grp v4 k]
  simp only [Finset.sum_range_succ, Finset.sum_range_zero]
  dsimp only [Chain.accT]
  rw [t77_apply, t72_apply, t67_apply, t59_apply, t50_apply, t45_apply, t38_apply, t32_apply, t22_apply, t18_apply, t9_apply]

/-- The second mask's area block gains the tile's count of id `k + 1`. -/
theorem blk6_apply (prev : Vec Ideal S1x64x1 .f32) :
    Chain.blk6 (F := Ideal) v4 prev (ix3 (0 : Fin 1) k (0 : Fin 1)) = prev (ix3 (0 : Fin 1) k (0 : Fin 1)) + areaSum v4 k :=
  (gain_apply k prev _ _ _ _).trans (congrArg (prev (ix3 (0 : Fin 1) k (0 : Fin 1)) + ·) (accT_apply v4 k))

end Cert.KernelIdeal.TileArea

end
-- ==== Proof.KIValSum.lean ====
/-
  The three output blocks after each grid point, as sums of counts. A core's eight points run over eight 64-row
  tiles of each mask; the first resets the blocks and every point adds its tile's counts, so after a point the
  blocks hold the counts of the core's tiles up to that point: by induction on the point.
-/
import proofs.«163081_j81801947120084_2_alg».proof.Proof.KIValOut
import proofs.«163081_j81801947120084_2_alg».proof.Proof.TileInter
import proofs.«163081_j81801947120084_2_alg».proof.Proof.TileArea

set_option maxRecDepth 16384

noncomputable section

open Idealize.ShloMosaic Idealize.ShloMosaic.TcCoe Idealize.SL.Sem Idealize.ShloMosaic.ValueIdx

namespace Cert.KernelIdeal.Val

open Cert.KernelIdeal Cert.KernelIdeal.Gen Cert.KernelIdeal.Fr Cert.Tile

/-- A sequence that restarts at every eighth position with a term `f n` and otherwise adds `f n` to its value at the
    position before is, at `n`, the sum of `f` from the last restart up to `n`. -/
theorem restart_sum {N : ℕ} (g : (n : ℕ) → n < N → EReal) (f : ℕ → EReal)
    (hA : ∀ n h, n % 8 = 0 → g n h = f n)
    (hB : ∀ n h, ¬(n + 1) % 8 = 0 → g (n + 1) h = g n (Nat.lt_of_succ_lt h) + f (n + 1)) :
    ∀ n h, g n h = ∑ k ∈ Finset.range (n % 8 + 1), f (8 * (n / 8) + k) := by
  intro n
  induction n with
  | zero =>
    intro h
    rw [hA 0 h rfl]
    simp
  | succ n ih =>
    intro h
    by_cases h0 : (n + 1) % 8 = 0
    · rw [hA (n + 1) h h0, h0, Finset.sum_range_one]
      congr 1
      omega
    · rw [hB n h h0, ih (Nat.lt_of_succ_lt h)]
      have e1 : (n + 1) / 8 = n / 8 := by omega
      have e2 : (n + 1) % 8 = n % 8 + 1 := by omega
      rw [e1, e2, Finset.sum_range_succ _ (n % 8 + 1)]
      congr 2
      omega

variable (m : (ℓ : Loc nD τ sig) → Buf (Elt Ideal) ℓ) (c : Dev nD)

/-- The first mask's tile at point `j` (zero past the grid, which no statement reads). -/
def T0 (j : ℕ) : Vec Ideal S64x1024 .i32 := if h : j < cfg0.N then iblk m c 0 ⟨j, h⟩ else fun _ => 0
/-- The second mask's tile at point `j`. -/
def T1 (j : ℕ) : Vec Ideal S64x1024 .i32 := if h : j < cfg0.N then iblk m c 1 ⟨j, h⟩ else fun _ => 0

theorem T0_eq (j : ℕ) (h : j < cfg0.N) : T0 m c j = iblk m c 0 ⟨j, h⟩ := dif_pos h
theorem T1_eq (j : ℕ) (h : j < cfg0.N) : T1 m c j = iblk m c 1 ⟨j, h⟩ := dif_pos h

/-- The reset blocks hold the real 0. -/
theorem pay2_apply (j : S1x64x64.Idx) : (k0_pay2 : FVec Ideal S1x64x64 .f32) j = 0 := Ideal.ofBits_zero_f32
theorem pay3_apply (j : S1x64x1.Idx) : (k0_pay3 : FVec Ideal S1x64x1 .f32) j = 0 := Ideal.ofBits_zero_f32
theorem pay4_apply (j : S1x64x1.Idx) : (k0_pay4 : FVec Ideal S1x64x1 .f32) j = 0 := Ideal.ofBits_zero_f32

/-- The intersection block after point `n`: the pixel-pair counts of the core's tiles up to `n`. -/
theorem outs2 (p q : Fin 64) (n : ℕ) (h : n < cfg0.N) :
    (outsAt0 m c n h).1 (ix3 (0 : Fin 1) p q)
      = ∑ k ∈ Finset.range (n % 8 + 1), interSum (T0 m c (8 * (n / 8) + k)) (T1 m c (8 * (n / 8) + k)) p q := by
  refine restart_sum (fun n h => (outsAt0 m c n h).1 (ix3 (0 : Fin 1) p q))
    (fun j => interSum (T0 m c j) (T1 m c j) p q) (fun n h h0 => ?_) (fun n h h0 => ?_) n h
  · show (outsAt0 m c n h).1 (ix3 (0 : Fin 1) p q) = interSum (T0 m c n) (T1 m c n) p q
    rw [show outsAt0 m c n h = _ from outsAt0_A m c ⟨n, h⟩ h0]
    dsimp only
    rw [out_A_2, TileInter.blk4_apply, pay2_apply, zero_add, T0_eq m c n h, T1_eq m c n h]
  · show (outsAt0 m c (n + 1) h).1 (ix3 (0 : Fin 1) p q)
      = (outsAt0 m c n (Nat.lt_of_succ_lt h)).1 (ix3 (0 : Fin 1) p q) + interSum (T0 m c (n + 1)) (T1 m c (n + 1)) p q
    rw [show outsAt0 m c (n + 1) h = _ from outsAt0_B m c ⟨n + 1, h⟩ h0]
    dsimp only
    rw [out_B_2, TileInter.blk4_apply, T0_eq m c (n + 1) h, T1_eq m c (n + 1) h]
    rfl

/-- The first mask's area block after point `n`: the counts of the core's tiles of the first mask up to `n`. -/
theorem outs3 (k : Fin 64) (n : ℕ) (h : n < cfg0.N) :
    (outsAt0 m c n h).2.1 (ix3 (0 : Fin 1) k (0 : Fin 1))
      = ∑ j ∈ Finset.range (n % 8 + 1), areaSum (T0 m c (8 * (n / 8) + j)) k := by
  refine restart_sum (fun n h => (outsAt0 m c n h).2.1 (ix3 (0 : Fin 1) k (0 : Fin 1)))
    (fun j => areaSum (T0 m c j) k) (fun n h h0 => ?_) (fun n h h0 => ?_) n h
  · show (outsAt0 m c n h).2.1 (ix3 (0 : Fin 1) k (0 : Fin 1)) = areaSum (T0 m c n) k
    rw [show outsAt0 m c n h = _ from outsAt0_A m c ⟨n, h⟩ h0]
    dsimp only
    rw [out_A_3, TileArea.blk5_apply, pay3_apply, zero_add, T0_eq m c n h]
  · show (outsAt0 m c (n + 1) h).2.1 (ix3 (0 : Fin 1) k (0 : Fin 1))
      = (outsAt0 m c n (Nat.lt_of_succ_lt h)).2.1 (ix3 (0 : Fin 1) k (0 : Fin 1)) + areaSum (T0 m c (n + 1)) k
    rw [show outsAt0 m c (n + 1) h = _ from outsAt0_B m c ⟨n + 1, h⟩ h0]
    dsimp only
    rw [out_B_3, TileArea.blk5_apply, T0_eq m c (n + 1) h]
    rfl

/-- The second mask's area block after point `n`, likewise. -/
theorem outs4 (k : Fin 64) (n : ℕ) (h : n < cfg0.N) :
    (outsAt0 m c n h).2.2 (ix3 (0 : Fin 1) k (0 : Fin 1))
      = ∑ j ∈ Finset.range (n % 8 + 1), areaSum (T1 m c (8 * (n / 8) + j)) k := by
  refine restart_sum (fun n h => (outsAt0 m c n h).2.2 (ix3 (0 : Fin 1) k (0 : Fin 1)))
    (fun j => areaSum (T1 m c j) k) (fun n h h0 => ?_) (fun n h h0 => ?_) n h
  · show (outsAt0 m c n h).2.2 (ix3 (0 : Fin 1) k (0 : Fin 1)) = areaSum (T1 m c n) k
    rw [show outsAt0 m c n h = _ from outsAt0_A m c ⟨n, h⟩ h0]
    dsimp only
    rw [out_A_4, TileArea.blk6_apply, pay4_apply, zero_add, T1_eq m c n h]
  · show (outsAt0 m c (n + 1) h).2.2 (ix3 (0 : Fin 1) k (0 : Fin 1))
      = (outsAt0 m c n (Nat.lt_of_succ_lt h)).2.2 (ix3 (0 : Fin 1) k (0 : Fin 1)) + areaSum (T1 m c (n + 1)) k
    rw [show outsAt0 m c (n + 1) h = _ from outsAt0_B m c ⟨n + 1, h⟩ h0]
    dsimp only
    rw [out_B_4, TileArea.blk6_apply, T1_eq m c (n + 1) h]
    rfl

/-! ## After a core's last point: the sums over the core's eight tiles -/

theorem outs2_last (cc : Fin 2) (p q : Fin 64) (h : 8 * cc.val + 7 < cfg0.N) :
    (outsAt0 m c (8 * cc.val + 7) h).1 (ix3 (0 : Fin 1) p q)
      = ∑ k : Fin 8, interSum (T0 m c (8 * cc.val + k.val)) (T1 m c (8 * cc.val + k.val)) p q := by
  have e1 : (8 * cc.val + 7) % 8 + 1 = 8 := by omega
  have e2 : (8 * cc.val + 7) / 8 = cc.val := by omega
  rw [outs2, e1, e2]
  exact (Fin.sum_univ_eq_sum_range (fun k => interSum (T0 m c (8 * cc.val + k)) (T1 m c (8 * cc.val + k)) p q) 8).symm

theorem outs3_last (cc : Fin 2) (k : Fin 64) (h : 8 * cc.val + 7 < cfg0.N) :
    (outsAt0 m c (8 * cc.val + 7) h).2.1 (ix3 (0 : Fin 1) k (0 : Fin 1))
      = ∑ j : Fin 8, areaSum (T0 m c (8 * cc.val + j.val)) k := by
  have e1 : (8 * cc.val + 7) % 8 + 1 = 8 := by omega
  have e2 : (8 * cc.val + 7) / 8 = cc.val := by omega
  rw [outs3, e1, e2]
  exact (Fin.sum_univ_eq_sum_range (fun j => areaSum (T0 m c (8 * cc.val + j)) k) 8).symm

theorem outs4_last (cc : Fin 2) (k : Fin 64) (h : 8 * cc.val + 7 < cfg0.N) :
    (outsAt0 m c (8 * cc.val + 7) h).2.2 (ix3 (0 : Fin 1) k (0 : Fin 1))
      = ∑ j : Fin 8, areaSum (T1 m c (8 * cc.val + j.val)) k := by
  have e1 : (8 * cc.val + 7) % 8 + 1 = 8 := by omega
  have e2 : (8 * cc.val + 7) / 8 = cc.val := by omega
  rw [outs4, e1, e2]
  exact (Fin.sum_univ_eq_sum_range (fun j => areaSum (T1 m c (8 * cc.val + j)) k) 8).symm

end Cert.KernelIdeal.Val

end
-- ==== Proof.Counts.lean ====
/-
  The three output arrays of the idealized kernel after its run, core by core: the block of core `cc` holds the sum,
  over the core's eight steps, of the counts of the tile each step reads — tile `8 cc + k` of the images.
-/
import proofs.«163081_j81801947120084_2_alg».proof.Proof.KIValArr
import proofs.«163081_j81801947120084_2_alg».proof.Proof.KIValArrIn
import proofs.«163081_j81801947120084_2_alg».proof.Proof.KIValSum

noncomputable section

open Idealize.ShloMosaic Idealize.ShloMosaic.TcCoe Idealize.ShloMosaic.ValueIdx Idealize.SL.Sem
open Idealize.ShloMosaic.Pipeline (Dat)

namespace Cert.KernelIdeal.Counts

open Cert.KernelIdeal Cert.KernelIdeal.Gen Cert.KernelIdeal.Fr Cert.RefTail

variable (m : (ℓ : Loc nD τ sig) → Buf (Elt Ideal) ℓ) (c : Dev nD)

/-- Step `k` of core `cc` is a grid point. -/
theorem step_lt (cc : Fin 2) (k : Fin 8) : 8 * cc.val + k.val < cfg0.N := by
  have := cc.isLt; have := k.isLt; rw [show cfg0.N = 16 from N_0]; omega

/-- Step `k` of core `cc` is a tile. -/
theorem tile_lt (cc : Fin 2) (k : Fin 8) : 8 * cc.val + k.val < 16 := by
  have := cc.isLt; have := k.isLt; omega

/-- Core `cc`'s intersection block: the eight tiles' pair counts added up. -/
theorem inter_core (cc : Fin 2) (p q : Fin 64) :
    ((dats m 0 c).arrAt 2 cfg0.N (ix3 cc p q) : EReal)
      = ∑ k : Fin 8, Cert.Tile.interSum (R := 64)
          (tileOf (m ((c.tc : Thread nD τ).loc main_arg0)) ⟨8 * cc.val + k.val, tile_lt cc k⟩)
          (tileOf (m ((c.tc : Thread nD τ).loc main_arg1)) ⟨8 * cc.val + k.val, tile_lt cc k⟩) p q := by
  have e3 : (∑ k : Fin 8, Cert.Tile.interSum (R := 64) (Val.T0 m c (8 * cc.val + k.val)) (Val.T1 m c (8 * cc.val + k.val)) p q)
      = ∑ k : Fin 8, Cert.Tile.interSum (R := 64)
          (tileOf (m ((c.tc : Thread nD τ).loc main_arg0)) ⟨8 * cc.val + k.val, tile_lt cc k⟩)
          (tileOf (m ((c.tc : Thread nD τ).loc main_arg1)) ⟨8 * cc.val + k.val, tile_lt cc k⟩) p q :=
    Finset.sum_congr rfl fun k _ => by
      rw [Val.T0_eq m c _ (step_lt cc k), Val.T1_eq m c _ (step_lt cc k), ValArr.iblk_tile0, ValArr.iblk_tile1]
  exact ((ValArr.arr2 m c cc p q).trans (Val.outs2_last m c cc p q _)).trans e3

/-- Core `cc`'s area block of the first image. -/
theorem areaP_core (cc : Fin 2) (k : Fin 64) :
    ((dats m 0 c).arrAt 3 cfg0.N (ix3 cc k (0 : Fin 1)) : EReal)
      = ∑ j : Fin 8, Cert.Tile.areaSum (R := 64)
          (tileOf (m ((c.tc : Thread nD τ).loc main_arg0)) ⟨8 * cc.val + j.val, tile_lt cc j⟩) k := by
  have e3 : (∑ j : Fin 8, Cert.Tile.areaSum (R := 64) (Val.T0 m c (8 * cc.val + j.val)) k)
      = ∑ j : Fin 8, Cert.Tile.areaSum (R := 64)
          (tileOf (m ((c.tc : Thread nD τ).loc main_arg0)) ⟨8 * cc.val + j.val, tile_lt cc j⟩) k :=
    Finset.sum_congr rfl fun j _ => by
      rw [Val.T0_eq m c _ (step_lt cc j), ValArr.iblk_tile0]
  exact ((ValArr.arr3 m c cc k).trans (Val.outs3_last m c cc k _)).trans e3

/-- Core `cc`'s area block of the second image. -/
theorem areaT_core (cc : Fin 2) (k : Fin 64) :
    ((dats m 0 c).arrAt 4 cfg0.N (ix3 cc k (0 : Fin 1)) : EReal)
      = ∑ j : Fin 8, Cert.Tile.areaSum (R := 64)
          (tileOf (m ((c.tc : Thread nD τ).loc main_arg1)) ⟨8 * cc.val + j.val, tile_lt cc j⟩) k := by
  have e3 : (∑ j : Fin 8, Cert.Tile.areaSum (R := 64) (Val.T1 m c (8 * cc.val + j.val)) k)
      = ∑ j : Fin 8, Cert.Tile.areaSum (R := 64)
          (tileOf (m ((c.tc : Thread nD τ).loc main_arg1)) ⟨8 * cc.val + j.val, tile_lt cc j⟩) k :=
    Finset.sum_congr rfl fun j _ => by
      rw [Val.T1_eq m c _ (step_lt cc j), ValArr.iblk_tile1]
  exact ((ValArr.arr4 m c cc k).trans (Val.outs4_last m c cc k _)).trans e3

end Cert.KernelIdeal.Counts

end
-- ==== Proof.lean ====
/-
  Two programs count, for two 1024 x 1024 images of instance ids, the pixels of every id (the areas) and of every pair
  of ids (the intersections), and then apply one and the same epilogue (union, intersection over union, best matches,
  the mean loss) to the three tables of counts.
  The kernel walks the image in sixteen tiles of 64 rows, two cores of eight steps; at every step it adds the tile's
  counts into its core's three output blocks (the first step of a core resets them), sixteen groups of four rows at a
  time: a group's one-hot masks are compared, summed over rows and lanes for the areas, and multiplied as 256 x 1024 by
  1024 x 256 matrices whose four diagonal 64 x 64 blocks are the group's intersection counts. The host then adds the
  two cores' blocks. The reference builds the one-hot matrices of all 1048576 pixels at once, contracts them and sums
  their rows. Over the extended reals every count is a finite sum of zeros and ones, sums may be regrouped freely, a
  change of float format is the identity, and so both sides hand the epilogue the same three tables.
  The frames: each kernel program is its region followed by sixty-nine host lines; the region's body is run once for
  the resetting step and once for an accumulating step, and the output blocks' contents are followed point by point.
  The reference is a straight line of host operations.
-/
import proofs.«163081_j81801947120084_2_alg».proof.Defs
import proofs.«163081_j81801947120084_2_alg».proof.Proof.Gen.Kernel
import proofs.«163081_j81801947120084_2_alg».proof.Proof.Gen.KernelIdeal
import proofs.«163081_j81801947120084_2_alg».proof.Proof.Gen.ReferenceIdeal
import proofs.«163081_j81801947120084_2_alg».proof.Proof.FrK.Frame
import proofs.«163081_j81801947120084_2_alg».proof.Proof.ResKI
import proofs.«163081_j81801947120084_2_alg».proof.Proof.RefTailRef
import proofs.«163081_j81801947120084_2_alg».proof.Proof.RefTailGlue
import proofs.«163081_j81801947120084_2_alg».proof.Proof.RefTailAsm
import proofs.«163081_j81801947120084_2_alg».proof.Proof.Counts
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end and leaves both images as launched. -/
theorem frame_k : Cert.frame_Kernel (hKernel := Cert.Kernel.Gen.facts) := fun m ρ _ => Cert.Kernel.Fr.frame m ρ
/-- So does its idealization. -/
theorem frame_ki : Cert.frame_KernelIdeal (hKernelIdeal := Cert.KernelIdeal.Gen.facts) := fun m ρ _ => Cert.KernelIdeal.Fr.frame m ρ
/-- The reference is a straight line of host operations: its run with the result dropped. -/
theorem frame_ri : Cert.frame_ReferenceIdeal (hReferenceIdeal := Cert.ReferenceIdeal.Gen.facts) := Cert.RefTail.ref_frame

/-- The idealization rewrote nothing. -/
theorem preserves : Cert.preserves_Kernel_KernelIdeal := trivial

/-- Both programs end with the epilogue of the same three tables of counts. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Res.result m c, Cert.KernelIdeal.Res.run m ρ, ?_⟩
  refine (θ_run Cert.ReferenceIdeal.defs _ _).mono (fun _ h c => ⟨(h c).1.trans ?_, (h c).2⟩)
    (Cert.ReferenceIdeal.Value.run (F := Ideal) m' ρ')
  rw [Cert.RefTail.ref_result, (hagree c).1, (hagree c).2]
  exact (Cert.RefTail.glue _ _ _ _ _ (Cert.KernelIdeal.Counts.inter_core m c) (Cert.KernelIdeal.Counts.areaP_core m c) (Cert.KernelIdeal.Counts.areaT_core m c)).symm

theorem claim : Cert.Claim := ⟨Cert.Kernel.Gen.facts, Cert.KernelIdeal.Gen.facts, Cert.ReferenceIdeal.Gen.facts,
  frame_k, frame_ki, frame_ri, preserves, algebraic⟩

end Cert.Proof

end
